-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S300000 : Shape := ⟨1, ![300000]⟩
abbrev S4x256x256 : Shape := ⟨3, ![4, 256, 256]⟩
abbrev S4x256 : Shape := ⟨2, ![4, 256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S300000 : S_.BroadcastsInDim S300000 (![] : Fin 0 → Fin S300000.rank)
  reducesTo_S300000_S_d0 : S300000.ReducesTo [0] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_

variable [Facts]

def fn_part1 {F : FTy → Type} [FloatOps F] (main_arg4 : FVec F S4x256 .f32) (main_arg5 : FVec F S4x256 .f32) (main_v13 : IVec S_ 1) (main_v16 : IVec S4x256x256 1) : IVec S_ 1 :=
  let main_c_5 : IVec S_ 1 := constantI S_ 1 1#1
  let main_v17 : IVec S_ 1 := (fun x v => Host.reduce IntOp.andi x v reducesTo_S4x256x256_S_d0_1_2 h_S_) main_v16 main_c_5
  let main_v18 : IVec S_ 1 := andi main_v13 main_v17
  let main_v19 : FVec F S4x256 .f32 := Host.absf main_arg4
  let main_cst_6 : FVec F S_ .f32 := constant S_ .f32 0x7F800000#32
  let main_v20 : FVec F S4x256 .f32 := broadcastInDim S4x256 ![] bcast_S_S4x256 main_cst_6
  let main_v21 : IVec S4x256 1 := cmpf .olt main_v19 main_v20
  let main_c_7 : IVec S_ 1 := constantI S_ 1 1#1
  let main_v22 : IVec S_ 1 := (fun x v => Host.reduce IntOp.andi x v reducesTo_S4x256_S_d0_1 h_S_) main_v21 main_c_7
  let main_v23 : IVec S_ 1 := andi main_v18 main_v22
  let main_v24 : FVec F S4x256 .f32 := Host.absf main_arg5
  let main_cst_8 : FVec F S_ .f32 := constant S_ .f32 0x7F800000#32
  let main_v25 : FVec F S4x256 .f32 := broadcastInDim S4x256 ![] bcast_S_S4x256 main_cst_8
  let main_v26 : IVec S4x256 1 := cmpf .olt main_v24 main_v25
  let main_c_9 : IVec S_ 1 := constantI S_ 1 1#1
  let main_v27 : IVec S_ 1 := (fun x v => Host.reduce IntOp.andi x v reducesTo_S4x256_S_d0_1 h_S_) main_v26 main_c_9
  let main_v28 : IVec S_ 1 := andi main_v23 main_v27
  main_v28

def fn {F : FTy → Type} [FloatOps F] (main_arg0 : FVec F S100000x256 .f32) (main_arg1 : FVec F S300000 .f32) (main_arg2 : FVec F S4x256x256 .f32) (main_arg3 : FVec F S4x256x256 .f32) (main_arg4 : FVec F S4x256 .f32) (main_arg5 : FVec F S4x256 .f32) (main_arg6 : IVec S300000 32) (main_arg7 : IVec S300000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S300000 .f32 := Host.absf main_arg1
  let main_cst_0 : FVec F S_ .f32 := constant S_ .f32 0x7F800000#32
  let main_v5 : FVec F S300000 .f32 := broadcastInDim S300000 ![] bcast_S_S300000 main_cst_0
  let main_v6 : IVec S300000 1 := cmpf .olt main_v4 main_v5
  let main_c_1 : IVec S_ 1 := constantI S_ 1 1#1
  let main_v7 : IVec S_ 1 := (fun x v => Host.reduce IntOp.andi x v reducesTo_S300000_S_d0 h_S_) main_v6 main_c_1
  let main_v8 : IVec S_ 1 := andi main_v3 main_v7
  let main_v9 : FVec F S4x256x256 .f32 := Host.absf main_arg2
  let main_cst_2 : FVec F S_ .f32 := constant S_ .f32 0x7F800000#32
  let main_v10 : FVec F S4x256x256 .f32 := broadcastInDim S4x256x256 ![] bcast_S_S4x256x256 main_cst_2
  let main_v11 : IVec S4x256x256 1 := cmpf .olt main_v9 main_v10
  let main_c_3 : IVec S_ 1 := constantI S_ 1 1#1
  let main_v12 : IVec S_ 1 := (fun x v => Host.reduce IntOp.andi x v reducesTo_S4x256x256_S_d0_1_2 h_S_) main_v11 main_c_3
  let main_v13 : IVec S_ 1 := andi main_v8 main_v12
  let main_v14 : FVec F S4x256x256 .f32 := Host.absf main_arg3
  let main_cst_4 : FVec F S_ .f32 := constant S_ .f32 0x7F800000#32
  let main_v15 : FVec F S4x256x256 .f32 := broadcastInDim S4x256x256 ![] bcast_S_S4x256x256 main_cst_4
  let main_v16 : IVec S4x256x256 1 := cmpf .olt main_v14 main_v15
  fn_part1 (F := F) main_arg4 main_arg5 main_v13 main_v16
-- ==== Kernel.lean ====
abbrev S100000x256 : Shape := ⟨2, ![100000, 256]⟩
abbrev S300000 : Shape := ⟨1, ![300000]⟩
abbrev S4x256x256 : Shape := ⟨3, ![4, 256, 256]⟩
abbrev S4x256 : Shape := ⟨2, ![4, 256]⟩
abbrev S1x256x256 : Shape := ⟨3, ![1, 256, 256]⟩
abbrev S256x256 : Shape := ⟨2, ![256, 256]⟩
abbrev S5000x256 : Shape := ⟨2, ![5000, 256]⟩
abbrev S_ : Shape := ⟨0, ![]⟩
abbrev S300000x1 : Shape := ⟨2, ![300000, 1]⟩
abbrev S300000x256 : Shape := ⟨2, ![300000, 256]⟩
abbrev S256 : Shape := ⟨1, ![256]⟩
abbrev S1x256 : Shape := ⟨2, ![1, 256]⟩
abbrev S100000x512 : Shape := ⟨2, ![100000, 512]⟩

abbrev nBuf : Space → Nat
  | .hbm => 249
  | .vmem => 64
  | .smem => 0
  | _ => 0

abbrev hbmTy0_0 (i : Nat) : BufTy := match i % 128 with
  | 0 => ⟨S100000x256, .f32⟩
  | 1 => ⟨S300000, .f32⟩
  | 2 => ⟨S4x256x256, .f32⟩
  | 3 => ⟨S4x256x256, .f32⟩
  | 4 => ⟨S4x256, .f32⟩
  | 5 => ⟨S4x256, .f32⟩
  | 6 => ⟨S300000, .i32⟩
  | 7 => ⟨S300000, .i32⟩
  | 8 => ⟨S1x256x256, .f32⟩
  | 9 => ⟨S256x256, .f32⟩
  | 10 => ⟨S1x256x256, .f32⟩
  | 11 => ⟨S256x256, .f32⟩
  | 12 => ⟨S100000x256, .f32⟩
  | 13 => ⟨S100000x256, .f32⟩
  | 14 => ⟨S_, .i32⟩
  | 15 => ⟨S300000, .i32⟩
  | 16 => ⟨S300000, .i1⟩
  | 17 => ⟨S_, .i32⟩
  | 18 => ⟨S300000, .i32⟩
  | 19 => ⟨S300000, .i32⟩
  | 20 => ⟨S300000, .i32⟩
  | 21 => ⟨S300000x1, .i32⟩
  | 22 => ⟨S300000x256, .f32⟩
  | 23 => ⟨S300000x1, .f32⟩
  | 24 => ⟨S300000x256, .f32⟩
  | 25 => ⟨S300000x256, .f32⟩
  | 26 => ⟨S_, .f32⟩
  | 27 => ⟨S100000x256, .f32⟩
  | 28 => ⟨S300000x1, .i32⟩
  | 29 => ⟨S100000x256, .f32⟩
  | 30 => ⟨S100000x256, .f32⟩
  | 31 => ⟨S_, .f32⟩
  | 32 => ⟨S256, .f32⟩
  | 33 => ⟨S_, .f32⟩
  | 34 => ⟨S256, .f32⟩
  | 35 => ⟨S256, .f32⟩
  | 36 => ⟨S_, .i32⟩
  | 37 => ⟨S_, .f32⟩
  | 38 => ⟨S256, .f32⟩
  | 39 => ⟨S1x256, .f32⟩
  | 40 => ⟨S_, .f32⟩
  | 41 => ⟨S1x256, .f32⟩
  | 42 => ⟨S1x256, .f32⟩
  | 43 => ⟨S100000x256, .f32⟩
  | 44 => ⟨S100000x256, .f32⟩
  | 45 => ⟨S100000x256, .f32⟩
  | 46 => ⟨S_, .f32⟩
  | 47 => ⟨S_, .f32⟩
  | 48 => ⟨S_, .f32⟩
  | 49 => ⟨S_, .f32⟩
  | 50 => ⟨S256, .f32⟩
  | 51 => ⟨S256, .f32⟩
  | 52 => ⟨S256, .f32⟩
  | 53 => ⟨S_, .f32⟩
  | 54 => ⟨S_, .i1⟩
  | 55 => ⟨S_, .f32⟩
  | 56 => ⟨S_, .f32⟩
  | 57 => ⟨S256, .f32⟩
  | 58 => ⟨S256, .f32⟩
  | 59 => ⟨S1x256, .f32⟩
  | 60 => ⟨S256, .f32⟩
  | 61 => ⟨S1x256, .f32⟩
  | 62 => ⟨S256, .f32⟩
  | 63 => ⟨S1x256, .f32⟩
  | 64 => ⟨S1x256, .f32⟩
  | 65 => ⟨S1x256, .f32⟩
  | 66 => ⟨S1x256, .f32⟩
  | 67 => ⟨S100000x256, .f32⟩
  | 68 => ⟨S1x256x256, .f32⟩
  | 69 => ⟨S256x256, .f32⟩
  | 70 => ⟨S1x256x256, .f32⟩
  | 71 => ⟨S256x256, .f32⟩
  | 72 => ⟨S100000x256, .f32⟩
  | 73 => ⟨S100000x256, .f32⟩
  | 74 => ⟨S_, .i32⟩
  | 75 => ⟨S300000, .i32⟩
  | 76 => ⟨S300000, .i1⟩
  | 77 => ⟨S_, .i32⟩
  | 78 => ⟨S300000, .i32⟩
  | 79 => ⟨S300000, .i32⟩
  | 80 => ⟨S300000, .i32⟩
  | 81 => ⟨S300000x1, .i32⟩
  | 82 => ⟨S300000x256, .f32⟩
  | 83 => ⟨S300000x1, .f32⟩
  | 84 => ⟨S300000x256, .f32⟩
  | 85 => ⟨S300000x256, .f32⟩
  | 86 => ⟨S_, .f32⟩
  | 87 => ⟨S100000x256, .f32⟩
  | 88 => ⟨S300000x1, .i32⟩
  | 89 => ⟨S100000x256, .f32⟩
  | 90 => ⟨S100000x256, .f32⟩
  | 91 => ⟨S_, .f32⟩
  | 92 => ⟨S256, .f32⟩
  | 93 => ⟨S_, .f32⟩
  | 94 => ⟨S256, .f32⟩
  | 95 => ⟨S256, .f32⟩
  | 96 => ⟨S_, .i32⟩
  | 97 => ⟨S_, .f32⟩
  | 98 => ⟨S256, .f32⟩
  | 99 => ⟨S1x256, .f32⟩
  | 100 => ⟨S_, .f32⟩
  | 101 => ⟨S1x256, .f32⟩
  | 102 => ⟨S1x256, .f32⟩
  | 103 => ⟨S100000x256, .f32⟩
  | 104 => ⟨S100000x256, .f32⟩
  | 105 => ⟨S100000x256, .f32⟩
  | 106 => ⟨S_, .f32⟩
  | 107 => ⟨S_, .f32⟩
  | 108 => ⟨S_, .f32⟩
  | 109 => ⟨S_, .f32⟩
  | 110 => ⟨S256, .f32⟩
  | 111 => ⟨S256, .f32⟩
  | 112 => ⟨S256, .f32⟩
  | 113 => ⟨S_, .f32⟩
  | 114 => ⟨S_, .i1⟩
  | 115 => ⟨S_, .f32⟩
  | 116 => ⟨S_, .f32⟩
  | 117 => ⟨S256, .f32⟩
  | 118 => ⟨S256, .f32⟩
  | 119 => ⟨S1x256, .f32⟩
  | 120 => ⟨S256, .f32⟩
  | 121 => ⟨S1x256, .f32⟩
  | 122 => ⟨S256, .f32⟩
  | 123 => ⟨S1x256, .f32⟩
  | 124 => ⟨S1x256, .f32⟩
  | 125 => ⟨S1x256, .f32⟩
  | 126 => ⟨S1x256, .f32⟩
  | 127 => ⟨S100000x256, .f32⟩
  | _ => ⟨S100000x256, .f32⟩

abbrev hbmTy0_1 (i : Nat) : BufTy := match i % 128 with
  | 0 => ⟨S1x256x256, .f32⟩
  | 1 => ⟨S256x256, .f32⟩
  | 2 => ⟨S1x256x256, .f32⟩
  | 3 => ⟨S256x256, .f32⟩
  | 4 => ⟨S100000x256, .f32⟩
  | 5 => ⟨S100000x256, .f32⟩
  | 6 => ⟨S_, .i32⟩
  | 7 => ⟨S300000, .i32⟩
  | 8 => ⟨S300000, .i1⟩
  | 9 => ⟨S_, .i32⟩
  | 10 => ⟨S300000, .i32⟩
  | 11 => ⟨S300000, .i32⟩
  | 12 => ⟨S300000, .i32⟩
  | 13 => ⟨S300000x1, .i32⟩
  | 14 => ⟨S300000x256, .f32⟩
  | 15 => ⟨S300000x1, .f32⟩
  | 16 => ⟨S300000x256, .f32⟩
  | 17 => ⟨S300000x256, .f32⟩
  | 18 => ⟨S_, .f32⟩
  | 19 => ⟨S100000x256, .f32⟩
  | 20 => ⟨S300000x1, .i32⟩
  | 21 => ⟨S100000x256, .f32⟩
  | 22 => ⟨S100000x256, .f32⟩
  | 23 => ⟨S_, .f32⟩
  | 24 => ⟨S256, .f32⟩
  | 25 => ⟨S_, .f32⟩
  | 26 => ⟨S256, .f32⟩
  | 27 => ⟨S256, .f32⟩
  | 28 => ⟨S_, .i32⟩
  | 29 => ⟨S_, .f32⟩
  | 30 => ⟨S256, .f32⟩
  | 31 => ⟨S1x256, .f32⟩
  | 32 => ⟨S_, .f32⟩
  | 33 => ⟨S1x256, .f32⟩
  | 34 => ⟨S1x256, .f32⟩
  | 35 => ⟨S100000x256, .f32⟩
  | 36 => ⟨S100000x256, .f32⟩
  | 37 => ⟨S100000x256, .f32⟩
  | 38 => ⟨S_, .f32⟩
  | 39 => ⟨S_, .f32⟩
  | 40 => ⟨S_, .f32⟩
  | 41 => ⟨S_, .f32⟩
  | 42 => ⟨S256, .f32⟩
  | 43 => ⟨S256, .f32⟩
  | 44 => ⟨S256, .f32⟩
  | 45 => ⟨S_, .f32⟩
  | 46 => ⟨S_, .i1⟩
  | 47 => ⟨S_, .f32⟩
  | 48 => ⟨S_, .f32⟩
  | 49 => ⟨S256, .f32⟩
  | 50 => ⟨S256, .f32⟩
  | 51 => ⟨S1x256, .f32⟩
  | 52 => ⟨S256, .f32⟩
  | 53 => ⟨S1x256, .f32⟩
  | 54 => ⟨S256, .f32⟩
  | 55 => ⟨S1x256, .f32⟩
  | 56 => ⟨S1x256, .f32⟩
  | 57 => ⟨S1x256, .f32⟩
  | 58 => ⟨S1x256, .f32⟩
  | 59 => ⟨S100000x256, .f32⟩
  | 60 => ⟨S1x256x256, .f32⟩
  | 61 => ⟨S256x256, .f32⟩
  | 62 => ⟨S1x256x256, .f32⟩
  | 63 => ⟨S256x256, .f32⟩
  | 64 => ⟨S100000x256, .f32⟩
  | 65 => ⟨S100000x256, .f32⟩
  | 66 => ⟨S_, .i32⟩
  | 67 => ⟨S300000, .i32⟩
  | 68 => ⟨S300000, .i1⟩
  | 69 => ⟨S_, .i32⟩
  | 70 => ⟨S300000, .i32⟩
  | 71 => ⟨S300000, .i32⟩
  | 72 => ⟨S300000, .i32⟩
  | 73 => ⟨S300000x1, .i32⟩
  | 74 => ⟨S300000x256, .f32⟩
  | 75 => ⟨S300000x1, .f32⟩
  | 76 => ⟨S300000x256, .f32⟩
  | 77 => ⟨S300000x256, .f32⟩
  | 78 => ⟨S_, .f32⟩
  | 79 => ⟨S100000x256, .f32⟩
  | 80 => ⟨S300000x1, .i32⟩
  | 81 => ⟨S100000x256, .f32⟩
  | 82 => ⟨S100000x256, .f32⟩
  | 83 => ⟨S_, .f32⟩
  | 84 => ⟨S256, .f32⟩
  | 85 => ⟨S_, .f32⟩
  | 86 => ⟨S256, .f32⟩
  | 87 => ⟨S256, .f32⟩
  | 88 => ⟨S_, .i32⟩
  | 89 => ⟨S_, .f32⟩
  | 90 => ⟨S256, .f32⟩
  | 91 => ⟨S1x256, .f32⟩
  | 92 => ⟨S_, .f32⟩
  | 93 => ⟨S1x256, .f32⟩
  | 94 => ⟨S1x256, .f32⟩
  | 95 => ⟨S100000x256, .f32⟩
  | 96 => ⟨S100000x256, .f32⟩
  | 97 => ⟨S100000x256, .f32⟩
  | 98 => ⟨S_, .f32⟩
  | 99 => ⟨S_, .f32⟩
  | 100 => ⟨S_, .f32⟩
  | 101 => ⟨S_, .f32⟩
  | 102 => ⟨S256, .f32⟩
  | 103 => ⟨S256, .f32⟩
  | 104 => ⟨S256, .f32⟩
  | 105 => ⟨S_, .f32⟩
  | 106 => ⟨S_, .i1⟩
  | 107 => ⟨S_, .f32⟩
  | 108 => ⟨S_, .f32⟩
  | 109 => ⟨S256, .f32⟩
  | 110 => ⟨S256, .f32⟩
  | 111 => ⟨S1x256, .f32⟩
  | 112 => ⟨S256, .f32⟩
  | 113 => ⟨S1x256, .f32⟩
  | 114 => ⟨S256, .f32⟩
  | 115 => ⟨S1x256, .f32⟩
  | 116 => ⟨S1x256, .f32⟩
  | 117 => ⟨S1x256, .f32⟩
  | 118 => ⟨S1x256, .f32⟩
  | 119 => ⟨S100000x256, .f32⟩
  | 120 => ⟨S100000x512, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S256x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S5000x256, .f32⟩
  | .local _ .vmem, ⟨18, _⟩ => ⟨S256x256, .f32⟩
  | .local _ .vmem, ⟨19, _⟩ => ⟨S256x256, .f32⟩
  | .local _ .vmem, ⟨20, _⟩ => ⟨S5000x256, .f32⟩
  | .local _ .vmem, ⟨21, _⟩ => ⟨S5000x256, .f32⟩
  | .local _ .vmem, ⟨22, _⟩ => ⟨S5000x256, .f32⟩
  | .local _ .vmem, ⟨23, _⟩ => ⟨S5000x256, .f32⟩
  | .local _ .vmem, ⟨24, _⟩ => ⟨S5000x256, .f32⟩
  | .local _ .vmem, ⟨25, _⟩ => ⟨S5000x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S5000x256, .f32⟩
  | .local _ .vmem, ⟨31, _⟩ => ⟨S5000x256, .f32⟩
  | .local _ .vmem, ⟨32, _⟩ => ⟨S5000x256, .f32⟩
  | .local _ .vmem, ⟨33, _⟩ => ⟨S5000x256, .f32⟩
  | .local _ .vmem, ⟨34, _⟩ => ⟨S256x256, .f32⟩
  | .local _ .vmem, ⟨35, _⟩ => ⟨S256x256, .f32⟩
  | .local _ .vmem, ⟨36, _⟩ => ⟨S5000x256, .f32⟩
  | .local _ .vmem, ⟨37, _⟩ => ⟨S5000x256, .f32⟩
  | .local _ .vmem, ⟨38, _⟩ => ⟨S5000x256, .f32⟩
  | .local _ .vmem, ⟨39, _⟩ => ⟨S5000x256, .f32⟩
  | .local _ .vmem, ⟨40, _⟩ => ⟨S5000x256, .f32⟩
  | .local _ .vmem, ⟨41, _⟩ => ⟨S5000x256, .f32⟩
  | .local _ .vmem, ⟨42, _⟩ => ⟨S1x256, .f32⟩
  | .local _ .vmem, ⟨43, _⟩ => ⟨S1x256, .f32⟩
  | .local _ .vmem, ⟨44, _⟩ => ⟨S1x256, .f32⟩
  | .local _ .vmem, ⟨45, _⟩ => ⟨S1x256, .f32⟩
  | .local _ .vmem, ⟨46, _⟩ => ⟨S5000x256, .f32⟩
  | .local _ .vmem, ⟨47, _⟩ => ⟨S5000x256, .f32⟩
  | .local _ .vmem, ⟨48, _⟩ => ⟨S5000x256, .f32⟩
  | .local _ .vmem, ⟨49, _⟩ => ⟨S5000x256, .f32⟩
  | .local _ .vmem, ⟨50, _⟩ => ⟨S256x256, .f32⟩
  | .local _ .vmem, ⟨51, _⟩ => ⟨S256x256, .f32⟩
  | .local _ .vmem, ⟨52, _⟩ => ⟨S5000x256, .f32⟩
  | .local _ .vmem, ⟨53, _⟩ => ⟨S5000x256, .f32⟩
  | .local _ .vmem, ⟨54, _⟩ => ⟨S5000x256, .f32⟩
  | .local _ .vmem, ⟨55, _⟩ => ⟨S5000x256, .f32⟩
  | .local _ .vmem, ⟨56, _⟩ => ⟨S5000x256, .f32⟩
  | .local _ .vmem, ⟨57, _⟩ => ⟨S5000x256, .f32⟩
  | .local _ .vmem, ⟨58, _⟩ => ⟨S1x256, .f32⟩
  | .local _ .vmem, ⟨59, _⟩ => ⟨S1x256, .f32⟩
  | .local _ .vmem, ⟨60, _⟩ => ⟨S1x256, .f32⟩
  | .local _ .vmem, ⟨61, _⟩ => ⟨S1x256, .f32⟩
  | .local _ .vmem, ⟨62, _⟩ => ⟨S5000x256, .f32⟩
  | .local _ .vmem, ⟨63, _⟩ => ⟨S5000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_cst_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_cst_1 : Ref sig .tc := ⟨.hbm, 47, rfl⟩
abbrev main_call0_v8 : Ref sig .tc := ⟨.hbm, 48, rfl⟩
abbrev main_call0_cst_2 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_cst_3 : Ref sig .tc := ⟨.hbm, 53, rfl⟩
abbrev main_call0_v12 : Ref sig .tc := ⟨.hbm, 54, rfl⟩
abbrev main_call0_cst_4 : Ref sig .tc := ⟨.hbm, 55, rfl⟩
abbrev main_call0_call0_v0 : Ref sig .tc := ⟨.hbm, 56, rfl⟩
abbrev main_call0_call0_v1 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36_0 : Ref sig .tc := ⟨.hbm, 72, rfl⟩
abbrev main_v36_1 : Ref sig .tc := ⟨.hbm, 73, rfl⟩
abbrev main_c_4 : Ref sig .tc := ⟨.hbm, 74, rfl⟩
abbrev main_v37 : Ref sig .tc := ⟨.hbm, 75, rfl⟩
abbrev main_v38 : Ref sig .tc := ⟨.hbm, 76, rfl⟩
abbrev main_c_5 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_cst_6 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_7 : Ref sig .tc := ⟨.hbm, 91, rfl⟩
abbrev main_v51 : Ref sig .tc := ⟨.hbm, 92, rfl⟩
abbrev main_cst_8 : Ref sig .tc := ⟨.hbm, 93, rfl⟩
abbrev main_v52 : Ref sig .tc := ⟨.hbm, 94, rfl⟩
abbrev main_v53 : Ref sig .tc := ⟨.hbm, 95, rfl⟩
abbrev main_c_9 : Ref sig .tc := ⟨.hbm, 96, rfl⟩
abbrev main_call1_cst : Ref sig .tc := ⟨.hbm, 97, rfl⟩
abbrev main_call1_v0 : Ref sig .tc := ⟨.hbm, 98, rfl⟩
abbrev main_call1_v1 : Ref sig .tc := ⟨.hbm, 99, rfl⟩
abbrev main_call1_cst_0 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_v7 : Ref sig .tc := ⟨.hbm, 106, rfl⟩
abbrev main_call1_cst_1 : Ref sig .tc := ⟨.hbm, 107, rfl⟩
abbrev main_call1_v8 : Ref sig .tc := ⟨.hbm, 108, rfl⟩
abbrev main_call1_cst_2 : Ref sig .tc := ⟨.hbm, 109, rfl⟩
abbrev main_call1_v9 : Ref sig .tc := ⟨.hbm, 110, rfl⟩
abbrev main_call1_v10 : Ref sig .tc := ⟨.hbm, 111, rfl⟩
abbrev main_call1_v11 : Ref sig .tc := ⟨.hbm, 112, rfl⟩
abbrev main_call1_cst_3 : Ref sig .tc := ⟨.hbm, 113, rfl⟩
abbrev main_call1_v12 : Ref sig .tc := ⟨.hbm, 114, rfl⟩
abbrev main_call1_cst_4 : Ref sig .tc := ⟨.hbm, 115, rfl⟩
abbrev main_call1_call0_v0 : Ref sig .tc := ⟨.hbm, 116, rfl⟩
abbrev main_call1_call0_v1 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68_0 : Ref sig .tc := ⟨.hbm, 132, rfl⟩
abbrev main_v68_1 : Ref sig .tc := ⟨.hbm, 133, rfl⟩
abbrev main_c_10 : Ref sig .tc := ⟨.hbm, 134, rfl⟩
abbrev main_v69 : Ref sig .tc := ⟨.hbm, 135, rfl⟩
abbrev main_v70 : Ref sig .tc := ⟨.hbm, 136, rfl⟩
abbrev main_c_11 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_cst_12 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_cst_13 : Ref sig .tc := ⟨.hbm, 151, rfl⟩
abbrev main_v83 : Ref sig .tc := ⟨.hbm, 152, rfl⟩
abbrev main_cst_14 : Ref sig .tc := ⟨.hbm, 153, rfl⟩
abbrev main_v84 : Ref sig .tc := ⟨.hbm, 154, rfl⟩
abbrev main_v85 : Ref sig .tc := ⟨.hbm, 155, rfl⟩
abbrev main_c_15 : Ref sig .tc := ⟨.hbm, 156, rfl⟩
abbrev main_call2_cst : Ref sig .tc := ⟨.hbm, 157, rfl⟩
abbrev main_call2_v0 : Ref sig .tc := ⟨.hbm, 158, rfl⟩
abbrev main_call2_v1 : Ref sig .tc := ⟨.hbm, 159, rfl⟩
abbrev main_call2_cst_0 : Ref sig .tc := ⟨.hbm, 160, rfl⟩
abbrev main_call2_v2 : Ref sig .tc := ⟨.hbm, 161, rfl⟩
abbrev main_call2_v3 : Ref sig .tc := ⟨.hbm, 162, rfl⟩
abbrev main_call2_v4 : Ref sig .tc := ⟨.hbm, 163, rfl⟩
abbrev main_call2_v5 : Ref sig .tc := ⟨.hbm, 164, rfl⟩
abbrev main_call2_v6 : Ref sig .tc := ⟨.hbm, 165, rfl⟩
abbrev main_call2_v7 : Ref sig .tc := ⟨.hbm, 166, rfl⟩
abbrev main_call2_cst_1 : Ref sig .tc := ⟨.hbm, 167, rfl⟩
abbrev main_call2_v8 : Ref sig .tc := ⟨.hbm, 168, rfl⟩
abbrev main_call2_cst_2 : Ref sig .tc := ⟨.hbm, 169, rfl⟩
abbrev main_call2_v9 : Ref sig .tc := ⟨.hbm, 170, rfl⟩
abbrev main_call2_v10 : Ref sig .tc := ⟨.hbm, 171, rfl⟩
abbrev main_call2_v11 : Ref sig .tc := ⟨.hbm, 172, rfl⟩
abbrev main_call2_cst_3 : Ref sig .tc := ⟨.hbm, 173, rfl⟩
abbrev main_call2_v12 : Ref sig .tc := ⟨.hbm, 174, rfl⟩
abbrev main_call2_cst_4 : Ref sig .tc := ⟨.hbm, 175, rfl⟩
abbrev main_call2_call0_v0 : Ref sig .tc := ⟨.hbm, 176, rfl⟩
abbrev main_call2_call0_v1 : Ref sig .tc := ⟨.hbm, 177, rfl⟩
abbrev main_v86 : Ref sig .tc := ⟨.hbm, 178, rfl⟩
abbrev main_v87 : Ref sig .tc := ⟨.hbm, 179, rfl⟩
abbrev main_v88 : Ref sig .tc := ⟨.hbm, 180, rfl⟩
abbrev main_v89 : Ref sig .tc := ⟨.hbm, 181, rfl⟩
abbrev main_v90 : Ref sig .tc := ⟨.hbm, 182, rfl⟩
abbrev main_v91 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_v100_0 : Ref sig .tc := ⟨.hbm, 192, rfl⟩
abbrev main_v100_1 : Ref sig .tc := ⟨.hbm, 193, rfl⟩
abbrev main_c_16 : Ref sig .tc := ⟨.hbm, 194, rfl⟩
abbrev main_v101 : Ref sig .tc := ⟨.hbm, 195, rfl⟩
abbrev main_v102 : Ref sig .tc := ⟨.hbm, 196, rfl⟩
abbrev main_c_17 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩
abbrev main_v106 : Ref sig .tc := ⟨.hbm, 201, rfl⟩
abbrev main_v107 : Ref sig .tc := ⟨.hbm, 202, rfl⟩
abbrev main_v108 : Ref sig .tc := ⟨.hbm, 203, rfl⟩
abbrev main_v109 : Ref sig .tc := ⟨.hbm, 204, rfl⟩
abbrev main_v110 : Ref sig .tc := ⟨.hbm, 205, rfl⟩
abbrev main_cst_18 : Ref sig .tc := ⟨.hbm, 206, rfl⟩
abbrev main_v111 : Ref sig .tc := ⟨.hbm, 207, rfl⟩
abbrev main_v112 : Ref sig .tc := ⟨.hbm, 208, rfl⟩
abbrev main_v113 : Ref sig .tc := ⟨.hbm, 209, rfl⟩
abbrev main_v114 : Ref sig .tc := ⟨.hbm, 210, rfl⟩
abbrev main_cst_19 : Ref sig .tc := ⟨.hbm, 211, rfl⟩
abbrev main_v115 : Ref sig .tc := ⟨.hbm, 212, rfl⟩
abbrev main_cst_20 : Ref sig .tc := ⟨.hbm, 213, rfl⟩
abbrev main_v116 : Ref sig .tc := ⟨.hbm, 214, rfl⟩
abbrev main_v117 : Ref sig .tc := ⟨.hbm, 215, rfl⟩
abbrev main_c_21 : Ref sig .tc := ⟨.hbm, 216, rfl⟩
abbrev main_call3_cst : Ref sig .tc := ⟨.hbm, 217, rfl⟩
abbrev main_call3_v0 : Ref sig .tc := ⟨.hbm, 218, rfl⟩
abbrev main_call3_v1 : Ref sig .tc := ⟨.hbm, 219, rfl⟩
abbrev main_call3_cst_0 : Ref sig .tc := ⟨.hbm, 220, rfl⟩
abbrev main_call3_v2 : Ref sig .tc := ⟨.hbm, 221, rfl⟩
abbrev main_call3_v3 : Ref sig .tc := ⟨.hbm, 222, rfl⟩
abbrev main_call3_v4 : Ref sig .tc := ⟨.hbm, 223, rfl⟩
abbrev main_call3_v5 : Ref sig .tc := ⟨.hbm, 224, rfl⟩
abbrev main_call3_v6 : Ref sig .tc := ⟨.hbm, 225, rfl⟩
abbrev main_call3_v7 : Ref sig .tc := ⟨.hbm, 226, rfl⟩
abbrev main_call3_cst_1 : Ref sig .tc := ⟨.hbm, 227, rfl⟩
abbrev main_call3_v8 : Ref sig .tc := ⟨.hbm, 228, rfl⟩
abbrev main_call3_cst_2 : Ref sig .tc := ⟨.hbm, 229, rfl⟩
abbrev main_call3_v9 : Ref sig .tc := ⟨.hbm, 230, rfl⟩
abbrev main_call3_v10 : Ref sig .tc := ⟨.hbm, 231, rfl⟩
abbrev main_call3_v11 : Ref sig .tc := ⟨.hbm, 232, rfl⟩
abbrev main_call3_cst_3 : Ref sig .tc := ⟨.hbm, 233, rfl⟩
abbrev main_call3_v12 : Ref sig .tc := ⟨.hbm, 234, rfl⟩
abbrev main_call3_cst_4 : Ref sig .tc := ⟨.hbm, 235, rfl⟩
abbrev main_call3_call0_v0 : Ref sig .tc := ⟨.hbm, 236, rfl⟩
abbrev main_call3_call0_v1 : Ref sig .tc := ⟨.hbm, 237, rfl⟩
abbrev main_v118 : Ref sig .tc := ⟨.hbm, 238, rfl⟩
abbrev main_v119 : Ref sig .tc := ⟨.hbm, 239, rfl⟩
abbrev main_v120 : Ref sig .tc := ⟨.hbm, 240, rfl⟩
abbrev main_v121 : Ref sig .tc := ⟨.hbm, 241, rfl⟩
abbrev main_v122 : Ref sig .tc := ⟨.hbm, 242, rfl⟩
abbrev main_v123 : Ref sig .tc := ⟨.hbm, 243, rfl⟩
abbrev main_v124 : Ref sig .tc := ⟨.hbm, 244, rfl⟩
abbrev main_v125 : Ref sig .tc := ⟨.hbm, 245, rfl⟩
abbrev main_v126 : Ref sig .tc := ⟨.hbm, 246, rfl⟩
abbrev main_v127 : Ref sig .tc := ⟨.hbm, 247, rfl⟩
abbrev main_v128 : Ref sig .tc := ⟨.hbm, 248, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc6_stg4_0 : Ref sig .tc := ⟨.vmem, 54, rfl⟩
abbrev cc6_stg4_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem3_1 : DmaSem sig := 53
abbrev cc6_sem4_0 : DmaSem sig := 54
abbrev cc6_sem4_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem5_1 : DmaSem sig := 63

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S256x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S4x256x256_S1x256x256_0_0_0 : S4x256x256.Slices ![0, 0, 0] S1x256x256
  shapeCasts_S1x256x256_S256x256 : S1x256x256.ShapeCasts S256x256
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x256_0_1 : S300000x1.BroadcastsInDim S300000x256 (![0, 1] : Fin 2 → Fin S300000x256.rank)
  bcast_S_S100000x256 : S_.BroadcastsInDim S100000x256 (![] : Fin 0 → Fin S100000x256.rank)
  reducesTo_S100000x256_S256_d0 : S100000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S100000x256_0_1 : S1x256.BroadcastsInDim S100000x256 (![0, 1] : Fin 2 → Fin S100000x256.rank)
  slices_S4x256_S1x256_0_0 : S4x256.Slices ![0, 0] S1x256
  shapeCasts_S1x256_S256 : S1x256.ShapeCasts S256
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  concatenates_S100000x256_S100000x256_S100000x512_d1 : Shape.Concatenates [S100000x256, S100000x256] S100000x512 1
  dot_S5000x256_S256x256_S5000x256_1_0_0_1_n_n_wf : DotDims.WF S5000x256 S256x256 S5000x256 [1] [0] [0] [1] [] []
  gather_S100000x256_S300000x1_S300000x256_1_0_n_n_0_1_1256_wf : GatherDims.WF S100000x256 S300000x1 S300000x256 [1] [0] [] [0] [] 1 ![1, 256]
  scatter_S100000x256_S300000x1_S300000x256_1_0_0_1_wf : ScatterDims.WF S100000x256 S300000x1 S300000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S100000x256.size a
  hwx0_3 : ∀ i : grid0.Coords, EltTy.bits .f32 = 32 ∨ (Rect.block (s := S100000x256) S5000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x256.size a ≤ S100000x256.size a
  hwx0_4 : ∀ i : grid0.Coords, EltTy.bits .f32 = 32 ∨ (Rect.block (s := S100000x256) S5000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S100000x256.size a
  hwx1_5 : ∀ i : grid1.Coords, EltTy.bits .f32 = 32 ∨ (Rect.block (s := S100000x256) S5000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x256.size a ≤ S100000x256.size a
  hwx2_3 : ∀ i : grid2.Coords, EltTy.bits .f32 = 32 ∨ (Rect.block (s := S100000x256) S5000x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x256.size a ≤ S100000x256.size a
  hwx2_4 : ∀ i : grid2.Coords, EltTy.bits .f32 = 32 ∨ (Rect.block (s := S100000x256) S5000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S100000x256.size a
  hwx3_0 : ∀ i : grid3.Coords, EltTy.bits .f32 = 32 ∨ (Rect.block (s := S100000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x256.size a ≤ S100000x256.size a
  hwx3_5 : ∀ i : grid3.Coords, EltTy.bits .f32 = 32 ∨ (Rect.block (s := S100000x256) S5000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S100000x256.size a
  hwx4_0 : ∀ i : grid4.Coords, EltTy.bits .f32 = 32 ∨ (Rect.block (s := S100000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x256.size a ≤ S100000x256.size a
  hwx4_3 : ∀ i : grid4.Coords, EltTy.bits .f32 = 32 ∨ (Rect.block (s := S100000x256) S5000x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x256.size a ≤ S100000x256.size a
  hwx4_4 : ∀ i : grid4.Coords, EltTy.bits .f32 = 32 ∨ (Rect.block (s := S100000x256) S5000x256.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S100000x256.size a
  hwx5_0 : ∀ i : grid5.Coords, EltTy.bits .f32 = 32 ∨ (Rect.block (s := S100000x256) S5000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x256.size a ≤ S100000x256.size a
  hwx5_5 : ∀ i : grid5.Coords, EltTy.bits .f32 = 32 ∨ (Rect.block (s := S100000x256) S5000x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x256.size a ≤ S100000x256.size a
  hwx6_0 : ∀ i : grid6.Coords, EltTy.bits .f32 = 32 ∨ (Rect.block (s := S100000x256) S5000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x256.size a ≤ S256x256.size a
  hwx6_2 : ∀ i : grid6.Coords, EltTy.bits .f32 = 32 ∨ (Rect.block (s := S256x256) S256x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x256.size a ≤ S100000x256.size a
  hwx6_3 : ∀ i : grid6.Coords, EltTy.bits .f32 = 32 ∨ (Rect.block (s := S100000x256) S5000x256.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x256.size a ≤ S100000x256.size a
  hwx6_4 : ∀ i : grid6.Coords, EltTy.bits .f32 = 32 ∨ (Rect.block (s := S100000x256) S5000x256.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x256.size a ≤ S100000x256.size a
  hwx7_0 : ∀ i : grid7.Coords, EltTy.bits .f32 = 32 ∨ (Rect.block (s := S100000x256) S5000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x256.size a ≤ S100000x256.size a
  hwx7_5 : ∀ i : grid7.Coords, EltTy.bits .f32 = 32 ∨ (Rect.block (s := S100000x256) S5000x256.size (cc7_transform_5 i) (hinb7_5 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S5000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S5000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v18) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v31) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36_0) S5000x256.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v36_1) S5000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S5000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v63) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68_0) S5000x256.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v68_1) S5000x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v82) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v91) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v92) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v93) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v94) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v95) S5000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v95) S5000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v97) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v99) S256x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v100_0) S5000x256.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v100_1) S5000x256.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v114) S5000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v123) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v124) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v125) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v126) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v127) S5000x256.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x256 : Shape := ⟨2, ![100000, 256]⟩
abbrev S300000 : Shape := ⟨1, ![300000]⟩
abbrev S4x256x256 : Shape := ⟨3, ![4, 256, 256]⟩
abbrev S4x256 : Shape := ⟨2, ![4, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S300000x1 : Shape := ⟨2, ![300000, 1]⟩
abbrev S_ : Shape := ⟨0, ![]⟩
abbrev S300000x256 : Shape := ⟨2, ![300000, 256]⟩
abbrev S100000x512 : Shape := ⟨2, ![100000, 512]⟩

abbrev nBuf : Space → Nat
  | .hbm => 305
  | .vmem => 0
  | .smem => 0
  | _ => 0

abbrev hbmTy0_0 (i : Nat) : BufTy := match i % 128 with
  | 0 => ⟨S100000x256, .f32⟩
  | 1 => ⟨S300000, .f32⟩
  | 2 => ⟨S4x256x256, .f32⟩
  | 3 => ⟨S4x256x256, .f32⟩
  | 4 => ⟨S4x256, .f32⟩
  | 5 => ⟨S4x256, .f32⟩
  | 6 => ⟨S300000, .i32⟩
  | 7 => ⟨S300000, .i32⟩
  | 8 => ⟨S1x256x256, .f32⟩
  | 9 => ⟨S256x256, .f32⟩
  | 10 => ⟨S1x256x256, .f32⟩
  | 11 => ⟨S256x256, .f32⟩
  | 12 => ⟨S1x256, .f32⟩
  | 13 => ⟨S256, .f32⟩
  | 14 => ⟨S1x256, .f32⟩
  | 15 => ⟨S256, .f32⟩
  | 16 => ⟨S100000x256, .f32⟩
  | 17 => ⟨S300000x1, .f32⟩
  | 18 => ⟨S_, .i32⟩
  | 19 => ⟨S300000, .i32⟩
  | 20 => ⟨S300000, .i1⟩
  | 21 => ⟨S_, .i32⟩
  | 22 => ⟨S300000, .i32⟩
  | 23 => ⟨S300000, .i32⟩
  | 24 => ⟨S300000, .i32⟩
  | 25 => ⟨S300000x1, .i32⟩
  | 26 => ⟨S300000x256, .f32⟩
  | 27 => ⟨S300000x256, .f32⟩
  | 28 => ⟨S300000x256, .f32⟩
  | 29 => ⟨S_, .f32⟩
  | 30 => ⟨S100000x256, .f32⟩
  | 31 => ⟨S300000x1, .i32⟩
  | 32 => ⟨S100000x256, .f32⟩
  | 33 => ⟨S100000x256, .f32⟩
  | 34 => ⟨S100000x256, .f32⟩
  | 35 => ⟨S_, .f32⟩
  | 36 => ⟨S256, .f32⟩
  | 37 => ⟨S_, .f32⟩
  | 38 => ⟨S256, .f32⟩
  | 39 => ⟨S256, .f32⟩
  | 40 => ⟨S_, .i32⟩
  | 41 => ⟨S_, .f32⟩
  | 42 => ⟨S256, .f32⟩
  | 43 => ⟨S1x256, .f32⟩
  | 44 => ⟨S_, .f32⟩
  | 45 => ⟨S1x256, .f32⟩
  | 46 => ⟨S1x256, .f32⟩
  | 47 => ⟨S100000x256, .f32⟩
  | 48 => ⟨S100000x256, .f32⟩
  | 49 => ⟨S100000x256, .f32⟩
  | 50 => ⟨S_, .f32⟩
  | 51 => ⟨S_, .f32⟩
  | 52 => ⟨S_, .f32⟩
  | 53 => ⟨S_, .f32⟩
  | 54 => ⟨S256, .f32⟩
  | 55 => ⟨S256, .f32⟩
  | 56 => ⟨S256, .f32⟩
  | 57 => ⟨S_, .f32⟩
  | 58 => ⟨S_, .i1⟩
  | 59 => ⟨S_, .f32⟩
  | 60 => ⟨S_, .f32⟩
  | 61 => ⟨S256, .f32⟩
  | 62 => ⟨S256, .f32⟩
  | 63 => ⟨S1x256, .f32⟩
  | 64 => ⟨S100000x256, .f32⟩
  | 65 => ⟨S100000x256, .f32⟩
  | 66 => ⟨S1x256, .f32⟩
  | 67 => ⟨S100000x256, .f32⟩
  | 68 => ⟨S100000x256, .f32⟩
  | 69 => ⟨S_, .f32⟩
  | 70 => ⟨S256, .f32⟩
  | 71 => ⟨S256, .f32⟩
  | 72 => ⟨S256, .f32⟩
  | 73 => ⟨S1x256, .f32⟩
  | 74 => ⟨S100000x256, .f32⟩
  | 75 => ⟨S100000x256, .f32⟩
  | 76 => ⟨S1x256, .f32⟩
  | 77 => ⟨S100000x256, .f32⟩
  | 78 => ⟨S100000x256, .f32⟩
  | 79 => ⟨S_, .f32⟩
  | 80 => ⟨S100000x256, .f32⟩
  | 81 => ⟨S100000x256, .f32⟩
  | 82 => ⟨S1x256x256, .f32⟩
  | 83 => ⟨S256x256, .f32⟩
  | 84 => ⟨S1x256x256, .f32⟩
  | 85 => ⟨S256x256, .f32⟩
  | 86 => ⟨S1x256, .f32⟩
  | 87 => ⟨S256, .f32⟩
  | 88 => ⟨S1x256, .f32⟩
  | 89 => ⟨S256, .f32⟩
  | 90 => ⟨S100000x256, .f32⟩
  | 91 => ⟨S300000x1, .f32⟩
  | 92 => ⟨S_, .i32⟩
  | 93 => ⟨S300000, .i32⟩
  | 94 => ⟨S300000, .i1⟩
  | 95 => ⟨S_, .i32⟩
  | 96 => ⟨S300000, .i32⟩
  | 97 => ⟨S300000, .i32⟩
  | 98 => ⟨S300000, .i32⟩
  | 99 => ⟨S300000x1, .i32⟩
  | 100 => ⟨S300000x256, .f32⟩
  | 101 => ⟨S300000x256, .f32⟩
  | 102 => ⟨S300000x256, .f32⟩
  | 103 => ⟨S_, .f32⟩
  | 104 => ⟨S100000x256, .f32⟩
  | 105 => ⟨S300000x1, .i32⟩
  | 106 => ⟨S100000x256, .f32⟩
  | 107 => ⟨S100000x256, .f32⟩
  | 108 => ⟨S100000x256, .f32⟩
  | 109 => ⟨S_, .f32⟩
  | 110 => ⟨S256, .f32⟩
  | 111 => ⟨S_, .f32⟩
  | 112 => ⟨S256, .f32⟩
  | 113 => ⟨S256, .f32⟩
  | 114 => ⟨S_, .i32⟩
  | 115 => ⟨S_, .f32⟩
  | 116 => ⟨S256, .f32⟩
  | 117 => ⟨S1x256, .f32⟩
  | 118 => ⟨S_, .f32⟩
  | 119 => ⟨S1x256, .f32⟩
  | 120 => ⟨S1x256, .f32⟩
  | 121 => ⟨S100000x256, .f32⟩
  | 122 => ⟨S100000x256, .f32⟩
  | 123 => ⟨S100000x256, .f32⟩
  | 124 => ⟨S_, .f32⟩
  | 125 => ⟨S_, .f32⟩
  | 126 => ⟨S_, .f32⟩
  | 127 => ⟨S_, .f32⟩
  | _ => ⟨S100000x256, .f32⟩

abbrev hbmTy0_1 (i : Nat) : BufTy := match i % 128 with
  | 0 => ⟨S256, .f32⟩
  | 1 => ⟨S256, .f32⟩
  | 2 => ⟨S256, .f32⟩
  | 3 => ⟨S_, .f32⟩
  | 4 => ⟨S_, .i1⟩
  | 5 => ⟨S_, .f32⟩
  | 6 => ⟨S_, .f32⟩
  | 7 => ⟨S256, .f32⟩
  | 8 => ⟨S256, .f32⟩
  | 9 => ⟨S1x256, .f32⟩
  | 10 => ⟨S100000x256, .f32⟩
  | 11 => ⟨S100000x256, .f32⟩
  | 12 => ⟨S1x256, .f32⟩
  | 13 => ⟨S100000x256, .f32⟩
  | 14 => ⟨S100000x256, .f32⟩
  | 15 => ⟨S_, .f32⟩
  | 16 => ⟨S256, .f32⟩
  | 17 => ⟨S256, .f32⟩
  | 18 => ⟨S256, .f32⟩
  | 19 => ⟨S1x256, .f32⟩
  | 20 => ⟨S100000x256, .f32⟩
  | 21 => ⟨S100000x256, .f32⟩
  | 22 => ⟨S1x256, .f32⟩
  | 23 => ⟨S100000x256, .f32⟩
  | 24 => ⟨S100000x256, .f32⟩
  | 25 => ⟨S_, .f32⟩
  | 26 => ⟨S100000x256, .f32⟩
  | 27 => ⟨S100000x256, .f32⟩
  | 28 => ⟨S1x256x256, .f32⟩
  | 29 => ⟨S256x256, .f32⟩
  | 30 => ⟨S1x256x256, .f32⟩
  | 31 => ⟨S256x256, .f32⟩
  | 32 => ⟨S1x256, .f32⟩
  | 33 => ⟨S256, .f32⟩
  | 34 => ⟨S1x256, .f32⟩
  | 35 => ⟨S256, .f32⟩
  | 36 => ⟨S100000x256, .f32⟩
  | 37 => ⟨S300000x1, .f32⟩
  | 38 => ⟨S_, .i32⟩
  | 39 => ⟨S300000, .i32⟩
  | 40 => ⟨S300000, .i1⟩
  | 41 => ⟨S_, .i32⟩
  | 42 => ⟨S300000, .i32⟩
  | 43 => ⟨S300000, .i32⟩
  | 44 => ⟨S300000, .i32⟩
  | 45 => ⟨S300000x1, .i32⟩
  | 46 => ⟨S300000x256, .f32⟩
  | 47 => ⟨S300000x256, .f32⟩
  | 48 => ⟨S300000x256, .f32⟩
  | 49 => ⟨S_, .f32⟩
  | 50 => ⟨S100000x256, .f32⟩
  | 51 => ⟨S300000x1, .i32⟩
  | 52 => ⟨S100000x256, .f32⟩
  | 53 => ⟨S100000x256, .f32⟩
  | 54 => ⟨S100000x256, .f32⟩
  | 55 => ⟨S_, .f32⟩
  | 56 => ⟨S256, .f32⟩
  | 57 => ⟨S_, .f32⟩
  | 58 => ⟨S256, .f32⟩
  | 59 => ⟨S256, .f32⟩
  | 60 => ⟨S_, .i32⟩
  | 61 => ⟨S_, .f32⟩
  | 62 => ⟨S256, .f32⟩
  | 63 => ⟨S1x256, .f32⟩
  | 64 => ⟨S_, .f32⟩
  | 65 => ⟨S1x256, .f32⟩
  | 66 => ⟨S1x256, .f32⟩
  | 67 => ⟨S100000x256, .f32⟩
  | 68 => ⟨S100000x256, .f32⟩
  | 69 => ⟨S100000x256, .f32⟩
  | 70 => ⟨S_, .f32⟩
  | 71 => ⟨S_, .f32⟩
  | 72 => ⟨S_, .f32⟩
  | 73 => ⟨S_, .f32⟩
  | 74 => ⟨S256, .f32⟩
  | 75 => ⟨S256, .f32⟩
  | 76 => ⟨S256, .f32⟩
  | 77 => ⟨S_, .f32⟩
  | 78 => ⟨S_, .i1⟩
  | 79 => ⟨S_, .f32⟩
  | 80 => ⟨S_, .f32⟩
  | 81 => ⟨S256, .f32⟩
  | 82 => ⟨S256, .f32⟩
  | 83 => ⟨S1x256, .f32⟩
  | 84 => ⟨S100000x256, .f32⟩
  | 85 => ⟨S100000x256, .f32⟩
  | 86 => ⟨S1x256, .f32⟩
  | 87 => ⟨S100000x256, .f32⟩
  | 88 => ⟨S100000x256, .f32⟩
  | 89 => ⟨S_, .f32⟩
  | 90 => ⟨S256, .f32⟩
  | 91 => ⟨S256, .f32⟩
  | 92 => ⟨S256, .f32⟩
  | 93 => ⟨S1x256, .f32⟩
  | 94 => ⟨S100000x256, .f32⟩
  | 95 => ⟨S100000x256, .f32⟩
  | 96 => ⟨S1x256, .f32⟩
  | 97 => ⟨S100000x256, .f32⟩
  | 98 => ⟨S100000x256, .f32⟩
  | 99 => ⟨S_, .f32⟩
  | 100 => ⟨S100000x256, .f32⟩
  | 101 => ⟨S100000x256, .f32⟩
  | 102 => ⟨S1x256x256, .f32⟩
  | 103 => ⟨S256x256, .f32⟩
  | 104 => ⟨S1x256x256, .f32⟩
  | 105 => ⟨S256x256, .f32⟩
  | 106 => ⟨S1x256, .f32⟩
  | 107 => ⟨S256, .f32⟩
  | 108 => ⟨S1x256, .f32⟩
  | 109 => ⟨S256, .f32⟩
  | 110 => ⟨S100000x256, .f32⟩
  | 111 => ⟨S300000x1, .f32⟩
  | 112 => ⟨S_, .i32⟩
  | 113 => ⟨S300000, .i32⟩
  | 114 => ⟨S300000, .i1⟩
  | 115 => ⟨S_, .i32⟩
  | 116 => ⟨S300000, .i32⟩
  | 117 => ⟨S300000, .i32⟩
  | 118 => ⟨S300000, .i32⟩
  | 119 => ⟨S300000x1, .i32⟩
  | 120 => ⟨S300000x256, .f32⟩
  | 121 => ⟨S300000x256, .f32⟩
  | 122 => ⟨S300000x256, .f32⟩
  | 123 => ⟨S_, .f32⟩
  | 124 => ⟨S100000x256, .f32⟩
  | 125 => ⟨S300000x1, .i32⟩
  | 126 => ⟨S100000x256, .f32⟩
  | 127 => ⟨S100000x256, .f32⟩
  | _ => ⟨S100000x256, .f32⟩

abbrev hbmTy0_2 (i : Nat) : BufTy := match i % 128 with
  | 0 => ⟨S100000x256, .f32⟩
  | 1 => ⟨S_, .f32⟩
  | 2 => ⟨S256, .f32⟩
  | 3 => ⟨S_, .f32⟩
  | 4 => ⟨S256, .f32⟩
  | 5 => ⟨S256, .f32⟩
  | 6 => ⟨S_, .i32⟩
  | 7 => ⟨S_, .f32⟩
  | 8 => ⟨S256, .f32⟩
  | 9 => ⟨S1x256, .f32⟩
  | 10 => ⟨S_, .f32⟩
  | 11 => ⟨S1x256, .f32⟩
  | 12 => ⟨S1x256, .f32⟩
  | 13 => ⟨S100000x256, .f32⟩
  | 14 => ⟨S100000x256, .f32⟩
  | 15 => ⟨S100000x256, .f32⟩
  | 16 => ⟨S_, .f32⟩
  | 17 => ⟨S_, .f32⟩
  | 18 => ⟨S_, .f32⟩
  | 19 => ⟨S_, .f32⟩
  | 20 => ⟨S256, .f32⟩
  | 21 => ⟨S256, .f32⟩
  | 22 => ⟨S256, .f32⟩
  | 23 => ⟨S_, .f32⟩
  | 24 => ⟨S_, .i1⟩
  | 25 => ⟨S_, .f32⟩
  | 26 => ⟨S_, .f32⟩
  | 27 => ⟨S256, .f32⟩
  | 28 => ⟨S256, .f32⟩
  | 29 => ⟨S1x256, .f32⟩
  | 30 => ⟨S100000x256, .f32⟩
  | 31 => ⟨S100000x256, .f32⟩
  | 32 => ⟨S1x256, .f32⟩
  | 33 => ⟨S100000x256, .f32⟩
  | 34 => ⟨S100000x256, .f32⟩
  | 35 => ⟨S_, .f32⟩
  | 36 => ⟨S256, .f32⟩
  | 37 => ⟨S256, .f32⟩
  | 38 => ⟨S256, .f32⟩
  | 39 => ⟨S1x256, .f32⟩
  | 40 => ⟨S100000x256, .f32⟩
  | 41 => ⟨S100000x256, .f32⟩
  | 42 => ⟨S1x256, .f32⟩
  | 43 => ⟨S100000x256, .f32⟩
  | 44 => ⟨S100000x256, .f32⟩
  | 45 => ⟨S_, .f32⟩
  | 46 => ⟨S100000x256, .f32⟩
  | 47 => ⟨S100000x256, .f32⟩
  | 48 => ⟨S100000x512, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_cst_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_cst_1 : Ref sig .tc := ⟨.hbm, 51, rfl⟩
abbrev main_call0_v8 : Ref sig .tc := ⟨.hbm, 52, rfl⟩
abbrev main_call0_cst_2 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_cst_3 : Ref sig .tc := ⟨.hbm, 57, rfl⟩
abbrev main_call0_v12 : Ref sig .tc := ⟨.hbm, 58, rfl⟩
abbrev main_call0_cst_4 : Ref sig .tc := ⟨.hbm, 59, rfl⟩
abbrev main_call0_call0_v0 : Ref sig .tc := ⟨.hbm, 60, rfl⟩
abbrev main_call0_call0_v1 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_4 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_call1_cst : Ref sig .tc := ⟨.hbm, 79, rfl⟩
abbrev main_call1_v0 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_c_5 : Ref sig .tc := ⟨.hbm, 92, rfl⟩
abbrev main_v54 : Ref sig .tc := ⟨.hbm, 93, rfl⟩
abbrev main_v55 : Ref sig .tc := ⟨.hbm, 94, rfl⟩
abbrev main_c_6 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_7 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_8 : Ref sig .tc := ⟨.hbm, 109, rfl⟩
abbrev main_v68 : Ref sig .tc := ⟨.hbm, 110, rfl⟩
abbrev main_cst_9 : Ref sig .tc := ⟨.hbm, 111, rfl⟩
abbrev main_v69 : Ref sig .tc := ⟨.hbm, 112, rfl⟩
abbrev main_v70 : Ref sig .tc := ⟨.hbm, 113, rfl⟩
abbrev main_c_10 : Ref sig .tc := ⟨.hbm, 114, rfl⟩
abbrev main_call2_cst : Ref sig .tc := ⟨.hbm, 115, rfl⟩
abbrev main_call2_v0 : Ref sig .tc := ⟨.hbm, 116, rfl⟩
abbrev main_call2_v1 : Ref sig .tc := ⟨.hbm, 117, rfl⟩
abbrev main_call2_cst_0 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_v6 : Ref sig .tc := ⟨.hbm, 123, rfl⟩
abbrev main_call2_v7 : Ref sig .tc := ⟨.hbm, 124, rfl⟩
abbrev main_call2_cst_1 : Ref sig .tc := ⟨.hbm, 125, rfl⟩
abbrev main_call2_v8 : Ref sig .tc := ⟨.hbm, 126, rfl⟩
abbrev main_call2_cst_2 : Ref sig .tc := ⟨.hbm, 127, rfl⟩
abbrev main_call2_v9 : Ref sig .tc := ⟨.hbm, 128, rfl⟩
abbrev main_call2_v10 : Ref sig .tc := ⟨.hbm, 129, rfl⟩
abbrev main_call2_v11 : Ref sig .tc := ⟨.hbm, 130, rfl⟩
abbrev main_call2_cst_3 : Ref sig .tc := ⟨.hbm, 131, rfl⟩
abbrev main_call2_v12 : Ref sig .tc := ⟨.hbm, 132, rfl⟩
abbrev main_call2_cst_4 : Ref sig .tc := ⟨.hbm, 133, rfl⟩
abbrev main_call2_call0_v0 : Ref sig .tc := ⟨.hbm, 134, rfl⟩
abbrev main_call2_call0_v1 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_cst_11 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_call3_cst : Ref sig .tc := ⟨.hbm, 153, rfl⟩
abbrev main_call3_v0 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_c_12 : Ref sig .tc := ⟨.hbm, 166, rfl⟩
abbrev main_v98 : Ref sig .tc := ⟨.hbm, 167, rfl⟩
abbrev main_v99 : Ref sig .tc := ⟨.hbm, 168, rfl⟩
abbrev main_c_13 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_cst_14 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_cst_15 : Ref sig .tc := ⟨.hbm, 183, rfl⟩
abbrev main_v112 : Ref sig .tc := ⟨.hbm, 184, rfl⟩
abbrev main_cst_16 : Ref sig .tc := ⟨.hbm, 185, rfl⟩
abbrev main_v113 : Ref sig .tc := ⟨.hbm, 186, rfl⟩
abbrev main_v114 : Ref sig .tc := ⟨.hbm, 187, rfl⟩
abbrev main_c_17 : Ref sig .tc := ⟨.hbm, 188, rfl⟩
abbrev main_call4_cst : Ref sig .tc := ⟨.hbm, 189, rfl⟩
abbrev main_call4_v0 : Ref sig .tc := ⟨.hbm, 190, rfl⟩
abbrev main_call4_v1 : Ref sig .tc := ⟨.hbm, 191, rfl⟩
abbrev main_call4_cst_0 : Ref sig .tc := ⟨.hbm, 192, rfl⟩
abbrev main_call4_v2 : Ref sig .tc := ⟨.hbm, 193, rfl⟩
abbrev main_call4_v3 : Ref sig .tc := ⟨.hbm, 194, rfl⟩
abbrev main_call4_v4 : Ref sig .tc := ⟨.hbm, 195, rfl⟩
abbrev main_call4_v5 : Ref sig .tc := ⟨.hbm, 196, rfl⟩
abbrev main_call4_v6 : Ref sig .tc := ⟨.hbm, 197, rfl⟩
abbrev main_call4_v7 : Ref sig .tc := ⟨.hbm, 198, rfl⟩
abbrev main_call4_cst_1 : Ref sig .tc := ⟨.hbm, 199, rfl⟩
abbrev main_call4_v8 : Ref sig .tc := ⟨.hbm, 200, rfl⟩
abbrev main_call4_cst_2 : Ref sig .tc := ⟨.hbm, 201, rfl⟩
abbrev main_call4_v9 : Ref sig .tc := ⟨.hbm, 202, rfl⟩
abbrev main_call4_v10 : Ref sig .tc := ⟨.hbm, 203, rfl⟩
abbrev main_call4_v11 : Ref sig .tc := ⟨.hbm, 204, rfl⟩
abbrev main_call4_cst_3 : Ref sig .tc := ⟨.hbm, 205, rfl⟩
abbrev main_call4_v12 : Ref sig .tc := ⟨.hbm, 206, rfl⟩
abbrev main_call4_cst_4 : Ref sig .tc := ⟨.hbm, 207, rfl⟩
abbrev main_call4_call0_v0 : Ref sig .tc := ⟨.hbm, 208, rfl⟩
abbrev main_call4_call0_v1 : Ref sig .tc := ⟨.hbm, 209, rfl⟩
abbrev main_v115 : Ref sig .tc := ⟨.hbm, 210, rfl⟩
abbrev main_v116 : Ref sig .tc := ⟨.hbm, 211, rfl⟩
abbrev main_v117 : Ref sig .tc := ⟨.hbm, 212, rfl⟩
abbrev main_v118 : Ref sig .tc := ⟨.hbm, 213, rfl⟩
abbrev main_v119 : Ref sig .tc := ⟨.hbm, 214, rfl⟩
abbrev main_v120 : Ref sig .tc := ⟨.hbm, 215, rfl⟩
abbrev main_v121 : Ref sig .tc := ⟨.hbm, 216, rfl⟩
abbrev main_cst_18 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_v129 : Ref sig .tc := ⟨.hbm, 225, rfl⟩
abbrev main_v130 : Ref sig .tc := ⟨.hbm, 226, rfl⟩
abbrev main_call5_cst : Ref sig .tc := ⟨.hbm, 227, rfl⟩
abbrev main_call5_v0 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_v137 : Ref sig .tc := ⟨.hbm, 235, rfl⟩
abbrev main_v138 : Ref sig .tc := ⟨.hbm, 236, rfl⟩
abbrev main_v139 : Ref sig .tc := ⟨.hbm, 237, rfl⟩
abbrev main_v140 : Ref sig .tc := ⟨.hbm, 238, rfl⟩
abbrev main_v141 : Ref sig .tc := ⟨.hbm, 239, rfl⟩
abbrev main_c_19 : Ref sig .tc := ⟨.hbm, 240, rfl⟩
abbrev main_v142 : Ref sig .tc := ⟨.hbm, 241, rfl⟩
abbrev main_v143 : Ref sig .tc := ⟨.hbm, 242, rfl⟩
abbrev main_c_20 : Ref sig .tc := ⟨.hbm, 243, rfl⟩
abbrev main_v144 : Ref sig .tc := ⟨.hbm, 244, rfl⟩
abbrev main_v145 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_v149 : Ref sig .tc := ⟨.hbm, 249, rfl⟩
abbrev main_v150 : Ref sig .tc := ⟨.hbm, 250, rfl⟩
abbrev main_cst_21 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_cst_22 : Ref sig .tc := ⟨.hbm, 257, rfl⟩
abbrev main_v156 : Ref sig .tc := ⟨.hbm, 258, rfl⟩
abbrev main_cst_23 : Ref sig .tc := ⟨.hbm, 259, rfl⟩
abbrev main_v157 : Ref sig .tc := ⟨.hbm, 260, rfl⟩
abbrev main_v158 : Ref sig .tc := ⟨.hbm, 261, rfl⟩
abbrev main_c_24 : Ref sig .tc := ⟨.hbm, 262, rfl⟩
abbrev main_call6_cst : Ref sig .tc := ⟨.hbm, 263, rfl⟩
abbrev main_call6_v0 : Ref sig .tc := ⟨.hbm, 264, rfl⟩
abbrev main_call6_v1 : Ref sig .tc := ⟨.hbm, 265, rfl⟩
abbrev main_call6_cst_0 : Ref sig .tc := ⟨.hbm, 266, rfl⟩
abbrev main_call6_v2 : Ref sig .tc := ⟨.hbm, 267, rfl⟩
abbrev main_call6_v3 : Ref sig .tc := ⟨.hbm, 268, rfl⟩
abbrev main_call6_v4 : Ref sig .tc := ⟨.hbm, 269, rfl⟩
abbrev main_call6_v5 : Ref sig .tc := ⟨.hbm, 270, rfl⟩
abbrev main_call6_v6 : Ref sig .tc := ⟨.hbm, 271, rfl⟩
abbrev main_call6_v7 : Ref sig .tc := ⟨.hbm, 272, rfl⟩
abbrev main_call6_cst_1 : Ref sig .tc := ⟨.hbm, 273, rfl⟩
abbrev main_call6_v8 : Ref sig .tc := ⟨.hbm, 274, rfl⟩
abbrev main_call6_cst_2 : Ref sig .tc := ⟨.hbm, 275, rfl⟩
abbrev main_call6_v9 : Ref sig .tc := ⟨.hbm, 276, rfl⟩
abbrev main_call6_v10 : Ref sig .tc := ⟨.hbm, 277, rfl⟩
abbrev main_call6_v11 : Ref sig .tc := ⟨.hbm, 278, rfl⟩
abbrev main_call6_cst_3 : Ref sig .tc := ⟨.hbm, 279, rfl⟩
abbrev main_call6_v12 : Ref sig .tc := ⟨.hbm, 280, rfl⟩
abbrev main_call6_cst_4 : Ref sig .tc := ⟨.hbm, 281, rfl⟩
abbrev main_call6_call0_v0 : Ref sig .tc := ⟨.hbm, 282, rfl⟩
abbrev main_call6_call0_v1 : Ref sig .tc := ⟨.hbm, 283, rfl⟩
abbrev main_v159 : Ref sig .tc := ⟨.hbm, 284, rfl⟩
abbrev main_v160 : Ref sig .tc := ⟨.hbm, 285, rfl⟩
abbrev main_v161 : Ref sig .tc := ⟨.hbm, 286, rfl⟩
abbrev main_v162 : Ref sig .tc := ⟨.hbm, 287, rfl⟩
abbrev main_v163 : Ref sig .tc := ⟨.hbm, 288, rfl⟩
abbrev main_v164 : Ref sig .tc := ⟨.hbm, 289, rfl⟩
abbrev main_v165 : Ref sig .tc := ⟨.hbm, 290, rfl⟩
abbrev main_cst_25 : Ref sig .tc := ⟨.hbm, 291, rfl⟩
abbrev main_v166 : Ref sig .tc := ⟨.hbm, 292, rfl⟩
abbrev main_v167 : Ref sig .tc := ⟨.hbm, 293, rfl⟩
abbrev main_v168 : Ref sig .tc := ⟨.hbm, 294, rfl⟩
abbrev main_v169 : Ref sig .tc := ⟨.hbm, 295, rfl⟩
abbrev main_v170 : Ref sig .tc := ⟨.hbm, 296, rfl⟩
abbrev main_v171 : Ref sig .tc := ⟨.hbm, 297, rfl⟩
abbrev main_v172 : Ref sig .tc := ⟨.hbm, 298, rfl⟩
abbrev main_v173 : Ref sig .tc := ⟨.hbm, 299, rfl⟩
abbrev main_v174 : Ref sig .tc := ⟨.hbm, 300, rfl⟩
abbrev main_call7_cst : Ref sig .tc := ⟨.hbm, 301, rfl⟩
abbrev main_call7_v0 : Ref sig .tc := ⟨.hbm, 302, rfl⟩
abbrev main_v175 : Ref sig .tc := ⟨.hbm, 303, rfl⟩
abbrev main_v176 : Ref sig .tc := ⟨.hbm, 304, rfl⟩

abbrev nD : Nat := 1
abbrev τ : Topo := Topo.v7x

variable {F : FTy → Type} [FloatOps F]

class Facts₀ : Prop where
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  bcast_S300000_S300000x1_0 : S300000.BroadcastsInDim S300000x1 (![0] : Fin 1 → Fin S300000x1.rank)
  bcast_S_S300000 : S_.BroadcastsInDim S300000 (![] : Fin 0 → Fin S300000.rank)
  bcast_S300000x1_S300000x256_0_1 : S300000x1.BroadcastsInDim S300000x256 (![0, 1] : Fin 2 → Fin S300000x256.rank)
  bcast_S_S100000x256 : S_.BroadcastsInDim S100000x256 (![] : Fin 0 → Fin S100000x256.rank)
  reducesTo_S100000x256_S256_d0 : S100000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S100000x256_0_1 : S1x256.BroadcastsInDim S100000x256 (![0, 1] : Fin 2 → Fin S100000x256.rank)
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  concatenates_S100000x256_S100000x256_S100000x512_d1 : Shape.Concatenates [S100000x256, S100000x256] S100000x512 1
  dot_S100000x256_S256x256_S100000x256_1_0_0_1_n_n_wf : DotDims.WF S100000x256 S256x256 S100000x256 [1] [0] [0] [1] [] []
  gather_S100000x256_S300000x1_S300000x256_1_0_n_n_0_1_1256_wf : GatherDims.WF S100000x256 S300000x1 S300000x256 [1] [0] [] [0] [] 1 ![1, 256]
  scatter_S100000x256_S300000x1_S300000x256_1_0_0_1_wf : ScatterDims.WF S100000x256 S300000x1 S300000x256 [1] [0] [0] 1

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf

class Facts : Prop extends Facts₀ where

variable [Facts]
-- ==== Proof.Spec.lean ====
/-
  The computation both programs perform, written once.

  One graph-convolution layer takes node features `h` ([100000, 256]), a weight matrix `W` and a self-loop matrix `SW`
  ([256, 256] each), a scale `γ` and a shift `β` ([256] each), edge values `vals` and edge endpoints `rows`, `cols`
  ([300000] each), and returns

      relu ( γ · (p − mean p) · rsqrt (var p + ε) + β ),     p = segment_sum (vals · (h·W)[cols], rows) + h·SW,

  mean and variance taken over the nodes, per column. `layerR` is that function spelt with the host operations of the
  reference program, in its order of operands; `outR` is four layers, each with its own slice of the stacked parameters,
  followed by the concatenation with the input features along the columns.

  `bnRow` is the normalisation step with the four per-column quantities given as [1, 256] rows, index by index on the
  extended reals: what one row-block of the kernel's second body computes.
-/
import proofs.«129831_j68247030334290_1_alg».proof.ReferenceIdeal
import proofs.«129831_j68247030334290_1_alg».proof.Proof.Gen.ReferenceIdeal
import Idealize.ShloMosaic.PureOps.Ideal
import Idealize.ShloMosaic.Lib.ValueIdx

noncomputable section

namespace Cert.Spec

open Idealize.ShloMosaic Idealize.ShloMosaic.ValueIdx Cert.ReferenceIdeal Cert.ReferenceIdeal.Gen

section Host

variable {F : FTy → Type} [FloatOps F]

/-- Node features, [100000, 256]. -/
abbrev Feat (F : FTy → Type) := (⟨S100000x256, .f32⟩ : BufTy).Contents (Elt F)
/-- A weight matrix, [256, 256]. -/
abbrev Mat (F : FTy → Type) := (⟨S256x256, .f32⟩ : BufTy).Contents (Elt F)
/-- A per-column vector, [256]. -/
abbrev Col (F : FTy → Type) := (⟨S256, .f32⟩ : BufTy).Contents (Elt F)
/-- Per-edge values, [300000]. -/
abbrev EdgeV (F : FTy → Type) := (⟨S300000, .f32⟩ : BufTy).Contents (Elt F)
/-- Per-edge node numbers, [300000]. -/
abbrev EdgeN (F : FTy → Type) := (⟨S300000, .i32⟩ : BufTy).Contents (Elt F)
/-- The stacked matrices, [4, 256, 256]. -/
abbrev Mats (F : FTy → Type) := (⟨S4x256x256, .f32⟩ : BufTy).Contents (Elt F)
/-- The stacked per-column vectors, [4, 256]. -/
abbrev Cols (F : FTy → Type) := (⟨S4x256, .f32⟩ : BufTy).Contents (Elt F)

/-- The dense projection `h · W`. -/
def proj (h : Feat F) (W : Mat F) : Feat F :=
  Host.dotGeneral dot_S100000x256_S256x256_S100000x256_1_0_0_1_n_n none h W

/-- Edge endpoints as gather indices: a negative number counts from the end. -/
def wrapIdx (cols : EdgeN F) : (⟨S300000x1, .i32⟩ : BufTy).Contents (Elt F) :=
  broadcastInDim S300000x1 ![0] bcast_S300000_S300000x1_0
    (select (cmpi .slt cols (broadcastInDim S300000 ![] bcast_S_S300000 (constantI S_ 32 0#32)))
      (addi cols (broadcastInDim S300000 ![] bcast_S_S300000 (constantI S_ 32 100000#32))) cols)

/-- The rows of `s` at the edges' source nodes, [300000, 256]. -/
def gath (s : Feat F) (cols : EdgeN F) : (⟨S300000x256, .f32⟩ : BufTy).Contents (Elt F) :=
  Host.gather gather_S100000x256_S300000x1_S300000x256_1_0_n_n_0_1_1256 s (wrapIdx cols)

/-- The edge values spread along the columns, [300000, 256]. -/
def spread (vals : EdgeV F) : (⟨S300000x256, .f32⟩ : BufTy).Contents (Elt F) :=
  broadcastInDim S300000x256 ![0, 1] bcast_S300000x1_S300000x256_0_1 (broadcastInDim S300000x1 ![0] bcast_S300000_S300000x1_0 vals)

/-- The per-edge rows `u` summed into their target nodes. -/
def segsum (u : (⟨S300000x256, .f32⟩ : BufTy).Contents (Elt F)) (rows : EdgeN F) : Feat F :=
  Host.scatterAdd scatter_S100000x256_S300000x1_S300000x256_1_0_0_1
    (broadcastInDim S100000x256 ![] bcast_S_S100000x256 (constant S_ .f32 0x00000000#32))
    (broadcastInDim S300000x1 ![0] bcast_S300000_S300000x1_0 rows) u

/-- The column means over the nodes. -/
def meanOf (p : Feat F) : Col F :=
  Host.divf (Host.reduceAdd p (constant S_ .f32 0x00000000#32) reducesTo_S100000x256_S256_d0 h_S_)
    (broadcastInDim S256 ![] bcast_S_S256 (constant S_ .f32 0x47C35000#32))

/-- The column variances over the nodes (the mean of the squared deviations; the divisor is `100000 − 0`, and the
    library's guard for a non-positive divisor is carried along as written). -/
def varOf (p : Feat F) : Col F :=
  let dof : (⟨S_, .f32⟩ : BufTy).Contents (Elt F) :=
    subf (constant S_ .f32 0x47C35000#32) (sitofp .f32 (constantI S_ 32 0#32))
  let dev : Feat F :=
    subf p (broadcastInDim S100000x256 ![0, 1] bcast_S1x256_S100000x256_0_1
      (Host.divf (broadcastInDim S1x256 ![1] bcast_S256_S1x256_1
          (Host.reduceAdd p (constant S_ .f32 0x00000000#32) reducesTo_S100000x256_S256_d0 h_S_))
        (broadcastInDim S1x256 ![] bcast_S_S1x256 (constant S_ .f32 0x47C35000#32))))
  select (broadcastInDim S256 ![] bcast_S_S256 (cmpf .ogt dof (constant S_ .f32 0x00000000#32)))
    (Host.divf (Host.reduceAdd (mulf dev dev) (constant S_ .f32 0x00000000#32) reducesTo_S100000x256_S256_d0 h_S_)
      (broadcastInDim S256 ![] bcast_S_S256 dof))
    (broadcastInDim S256 ![] bcast_S_S256 (id (constant S_ .f32 0x7FC00000#32)))

/-- A per-column vector spread over the nodes. -/
def overNodes (v : Col F) : Feat F :=
  broadcastInDim S100000x256 ![0, 1] bcast_S1x256_S100000x256_0_1 (broadcastInDim S1x256 ![1] bcast_S256_S1x256_1 v)

/-- The layer's value before normalisation, in the reference's order of operands. -/
def preR (h : Feat F) (W SW : Mat F) (vals : EdgeV F) (rows cols : EdgeN F) : Feat F :=
  addf (segsum (mulf (spread vals) (gath (proj h W) cols)) rows) (proj h SW)

/-- Normalise over the nodes, scale, shift, rectify. -/
def normR (p : Feat F) (g b : Col F) : Feat F :=
  maximumf
    (addf (mulf (mulf (overNodes g) (subf p (overNodes (meanOf p))))
        (overNodes (Host.rsqrt (addf (varOf p) (broadcastInDim S256 ![] bcast_S_S256 (constant S_ .f32 0x3727C5AC#32))))))
      (overNodes b))
    (broadcastInDim S100000x256 ![] bcast_S_S100000x256 (constant S_ .f32 0x00000000#32))

/-- One layer, as the reference computes it. -/
def layerR (h : Feat F) (W SW : Mat F) (g b : Col F) (vals : EdgeV F) (rows cols : EdgeN F) : Feat F :=
  normR (preR h W SW vals rows cols) g b

/-- Layer 0's matrix out of the stack (likewise 1, 2, 3). -/
def mat0 (w : Mats F) : Mat F := fun i => shapeCast S256x256 (extractStridedSlice S1x256x256 ![0, 0, 0] w slices_S4x256x256_S1x256x256_0_0_0) shapeCasts_S1x256x256_S256x256 i
def mat1 (w : Mats F) : Mat F := fun i => shapeCast S256x256 (extractStridedSlice S1x256x256 ![1, 0, 0] w slices_S4x256x256_S1x256x256_1_0_0) shapeCasts_S1x256x256_S256x256 i
def mat2 (w : Mats F) : Mat F := fun i => shapeCast S256x256 (extractStridedSlice S1x256x256 ![2, 0, 0] w slices_S4x256x256_S1x256x256_2_0_0) shapeCasts_S1x256x256_S256x256 i
def mat3 (w : Mats F) : Mat F := fun i => shapeCast S256x256 (extractStridedSlice S1x256x256 ![3, 0, 0] w slices_S4x256x256_S1x256x256_3_0_0) shapeCasts_S1x256x256_S256x256 i
/-- Layer 0's per-column vector out of the stack (likewise 1, 2, 3). -/
def col0 (v : Cols F) : Col F := fun i => shapeCast S256 (extractStridedSlice S1x256 ![0, 0] v slices_S4x256_S1x256_0_0) shapeCasts_S1x256_S256 i
def col1 (v : Cols F) : Col F := fun i => shapeCast S256 (extractStridedSlice S1x256 ![1, 0] v slices_S4x256_S1x256_1_0) shapeCasts_S1x256_S256 i
def col2 (v : Cols F) : Col F := fun i => shapeCast S256 (extractStridedSlice S1x256 ![2, 0] v slices_S4x256_S1x256_2_0) shapeCasts_S1x256_S256 i
def col3 (v : Cols F) : Col F := fun i => shapeCast S256 (extractStridedSlice S1x256 ![3, 0] v slices_S4x256_S1x256_3_0) shapeCasts_S1x256_S256 i

/-- The features after the four layers. -/
def deep (x : Feat F) (vals : EdgeV F) (ws sws : Mats F) (gs bs : Cols F) (rows cols : EdgeN F) : Feat F :=
  layerR (layerR (layerR (layerR x (mat0 ws) (mat0 sws) (col0 gs) (col0 bs) vals rows cols)
    (mat1 ws) (mat1 sws) (col1 gs) (col1 bs) vals rows cols)
    (mat2 ws) (mat2 sws) (col2 gs) (col2 bs) vals rows cols)
    (mat3 ws) (mat3 sws) (col3 gs) (col3 bs) vals rows cols

/-- The result: the deep features beside the input features, [100000, 512]. -/
def outR (x : Feat F) (vals : EdgeV F) (ws sws : Mats F) (gs bs : Cols F) (rows cols : EdgeN F) :
    (⟨S100000x512, .f32⟩ : BufTy).Contents (Elt F) :=
  concatenate S100000x512 1 [⟨S100000x256, deep x vals ws sws gs bs rows cols⟩, ⟨S100000x256, x⟩]
    concatenates_S100000x256_S100000x256_S100000x512_d1

end Host

/-- The normalisation step with the scale, shift, mean and variance given as [1, 256] rows, at node `i 0`, column
    `i 1`, on the extended reals. -/
def bnRow (p : Feat Ideal) (g b mu v : (⟨S1x256, .f32⟩ : BufTy).Contents (Elt Ideal)) : Feat Ideal := fun i =>
  max (g (ix2 (0 : Fin 1) (i 1 : Fin 256)) * (p i - mu (ix2 (0 : Fin 1) (i 1 : Fin 256)))
        * Ideal.rsqrt (v (ix2 (0 : Fin 1) (i 1 : Fin 256)) + Ideal.ofBits .f32 0x3727C5AC#32)
      + b (ix2 (0 : Fin 1) (i 1 : Fin 256)))
    (Ideal.ofBits .f32 0x00000000#32)

end Cert.Spec

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.KLayer.lean ====
/-
  One layer as the kernel program computes it, and why it is the reference's layer.

  The kernel program forms the same pre-normalisation value `p` as the reference, except that the per-edge product is
  taken as (gathered row) · (edge value) instead of (edge value) · (gathered row): on the extended reals the product
  commutes, so the two arrays summed into the nodes are equal entry by entry. It then hands the scale, the shift, the
  column means and the column variances to its second body as [1, 256] rows; at node r, column f that body computes

      max (γ f · (p (r, f) − μ f) · rsqrt (σ² f + ε) + β f) 0,

  which is what the reference's chain of broadcasts and elementwise operations holds at (r, f): a [256] vector placed
  on axis 1 of a [1, 256] row and spread over the nodes reads the vector at f, a vector cast to a row reads the same,
  and the scalar ε spread over the columns reads ε. No entry needs to be finite for any of this.
-/
import proofs.«129831_j68247030334290_1_alg».proof.Proof.Spec
import proofs.«129831_j68247030334290_1_alg».proof.Proof.Gen.KernelIdeal
import proofs.«129831_j68247030334290_1_alg».proof.Proof.LibInDimRow
import Idealize.ShloMosaic.Lib.ValueIdx
import Idealize.ShloMosaic.Lib.ValueLayout
import Idealize.ShloMosaic.Lib.Pipeline.Value

noncomputable section

namespace Cert.KLayer

open Idealize.ShloMosaic Idealize.ShloMosaic.ValueIdx Cert.Spec

section AnyValues

variable {F : FTy → Type} [FloatOps F]

/-- A per-column vector as a [1, 256] row. -/
def rowOf (v : Col F) : (⟨Cert.KernelIdeal.S1x256, .f32⟩ : BufTy).Contents (Elt F) :=
  fun i => shapeCast Cert.KernelIdeal.S1x256 v Cert.KernelIdeal.Gen.shapeCasts_S256_S1x256 i

/-- The value before normalisation from the two projections, in the kernel program's order of operands. -/
def preK (s so : Feat F) (vals : EdgeV F) (rows cols : EdgeN F) : Feat F :=
  addf (segsum (mulf (gath s cols) (spread vals)) rows) so

end AnyValues

theorem rowOf_apply (v : Col Ideal) (u : Fin 1) (f : Fin 256) : rowOf v (ix2 u f) = v (ix1 f) :=
  shapeCast_a_1a_apply v _ u f

/-- One layer, as the kernel program computes it. -/
def layerK (h : Feat Ideal) (W SW : Mat Ideal) (g b : Col Ideal) (vals : EdgeV Ideal) (rows cols : EdgeN Ideal) : Feat Ideal :=
  bnRow (preK (proj h W) (proj h SW) vals rows cols) (rowOf g) (rowOf b)
    (rowOf (meanOf (preK (proj h W) (proj h SW) vals rows cols)))
    (rowOf (varOf (preK (proj h W) (proj h SW) vals rows cols)))

/-- The per-edge product in either order. -/
theorem preK_eq (h : Feat Ideal) (W SW : Mat Ideal) (vals : EdgeV Ideal) (rows cols : EdgeN Ideal) :
    preK (proj h W) (proj h SW) vals rows cols = preR h W SW vals rows cols := by
  unfold preK preR
  refine congrArg (fun u => addf (segsum u rows) (proj h SW)) ?_
  funext i
  exact mul_comm _ _

/-- A scalar spread over any shape reads the scalar. -/
theorem scalar_spread {α : Type} {t : Shape} (h : (⟨0, ![]⟩ : Shape).BroadcastsInDim t (![] : Fin 0 → Fin t.rank))
    (x : (⟨0, ![]⟩ : Shape).Idx → α) (j : t.Idx) : broadcastInDim t ![] h x j = x (fun a => a.elim0) :=
  broadcastInDim_apply _ h x j _ (fun a => a.elim0)

/-- A per-column vector spread over the nodes reads the vector at the column. -/
theorem overNodes_apply (v : Col Ideal) (r : Fin 100000) (f : Fin 256) : overNodes v (ix2 r f) = v (ix1 f) := by
  unfold overNodes
  rw [Cert.LibInDimRow.inDim_1b_ab_apply, Cert.LibInDimRow.inDim_b_1b_apply]

/-- The kernel's normalisation over rows is the reference's normalisation over broadcast vectors. -/
theorem bnRow_eq (p : Feat Ideal) (g b : Col Ideal) :
    bnRow p (rowOf g) (rowOf b) (rowOf (meanOf p)) (rowOf (varOf p)) = normR p g b := by
  funext i
  obtain ⟨r, f, rfl⟩ : ∃ (r : Fin 100000) (f : Fin 256), i = ix2 r f := ⟨i 0, i 1, eq_ix2 i⟩
  unfold normR
  rw [maximumf_apply, addf_apply, mulf_apply, mulf_apply, subf_apply, overNodes_apply, overNodes_apply, overNodes_apply,
    overNodes_apply, scalar_spread, constant_apply]
  show max (rowOf g (ix2 0 f) * (p (ix2 r f) - rowOf (meanOf p) (ix2 0 f))
        * Ideal.rsqrt (rowOf (varOf p) (ix2 0 f) + Ideal.ofBits .f32 0x3727C5AC#32) + rowOf b (ix2 0 f))
      (Ideal.ofBits .f32 0x00000000#32) = _
  rw [rowOf_apply, rowOf_apply, rowOf_apply, rowOf_apply]
  show _ = max (g (ix1 f) * (p (ix2 r f) - meanOf p (ix1 f))
        * Ideal.rsqrt (addf (varOf p) (broadcastInDim Cert.ReferenceIdeal.S256 ![] Cert.ReferenceIdeal.Gen.bcast_S_S256 (constant Cert.ReferenceIdeal.S_ .f32 0x3727C5AC#32)) (ix1 f)) + b (ix1 f))
      (Ideal.ofBits .f32 0x00000000#32)
  rw [addf_apply, scalar_spread, constant_apply]

/-- The kernel program's layer is the reference's layer. -/
theorem layerK_eq (h : Feat Ideal) (W SW : Mat Ideal) (g b : Col Ideal) (vals : EdgeV Ideal) (rows cols : EdgeN Ideal) :
    layerK h W SW g b vals rows cols = layerR h W SW g b vals rows cols := by
  unfold layerK layerR
  rw [preK_eq]
  exact bnRow_eq _ g b

end Cert.KLayer

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.RegionLib.lean ====
/-
  One row block of each of the two bodies, index by index on the extended reals, and a row block as a part of the
  whole array.

  The node features are a [100000, 256] array cut into twenty blocks of 5000 rows. The projection body multiplies a
  block by a [256, 256] matrix: its result at row `p`, column `f` of the block is the inner product of the block's row
  `p` with the matrix's column `f`, and the host's product of the whole array with the same matrix has that inner product
  at row `b · 5000 + p` when the block is the `b`-th. The normalisation body works entry by entry on a block with four
  [1, 256] rows spread over the block's rows, so its result at `(p, f)` is the normalisation of the whole array at
  `(b · 5000 + p, f)`. The lemmas are stated over variables of the literal shapes; each body's payload is an instance.
-/
import proofs.«129831_j68247030334290_1_alg».proof.Proof.Spec
import proofs.«129831_j68247030334290_1_alg».proof.Proof.LibInnerProducts
import Idealize.ShloMosaic.PureOps.Ideal.Laws
import Idealize.ShloMosaic.Lib.ValueIdx
import Idealize.ShloMosaic.Lib.ValueLayout
import Idealize.ShloMosaic.Lib.Pipeline.Value

noncomputable section

namespace Cert.RowBlocks

open Idealize.ShloMosaic Idealize.ShloMosaic.ValueIdx
open scoped BigOperators

/-- The whole array of node features, a row block of it, a weight matrix, a per-column row. -/
abbrev SArr : Shape := ⟨2, ![100000, 256]⟩
abbrev SBlk : Shape := ⟨2, ![5000, 256]⟩
abbrev SMat : Shape := ⟨2, ![256, 256]⟩
abbrev SRow : Shape := ⟨2, ![1, 256]⟩

/-- The offsets of a load or store of a whole buffer are zero on both axes. -/
theorem zero_offsets : (![0, 0] : Fin 2 → Nat) = fun _ => 0 := funext fun a => by fin_cases a <;> rfl

/-! ## The projection -/

/-- The host's product of the features with a matrix, at row `r` and column `f`: the inner product of row `r` of the
    features with column `f` of the matrix. -/
theorem proj_apply (H : SArr.Idx → EReal) (W : SMat.Idx → EReal) (r : Fin 100000) (f : Fin 256) :
    Cert.Spec.proj (F := Ideal) H W (ix2 r f) = ∑ d : Fin 256, H (ix2 r d) * W (ix2 d f) := by
  unfold Cert.Spec.proj
  exact InnerProducts.dotGeneral_apply (φ₁ := .f32) (φ₂ := .f32) _ rfl none H W r f

/-- The projection body on one block: the block and the matrix, both narrowed (no change at the ideal values), multiplied
    into a zero accumulator. At `(p, f)` it is the inner product of the block's row `p` with the matrix's column `f`. -/
theorem dense_body_apply (D : DotDims SBlk SMat SBlk) (hD : D = DotDims.plain 5000 256 256)
    (hn : FTy.bits .bf16 < FTy.bits .f32) (hs : SMat.ShapeCasts SMat)
    (x : FVec Ideal SBlk .f32) (w : FVec Ideal SMat .f32) (p : Fin 5000) (f : Fin 256) :
    matmul D none (truncf .bf16 x hn) (truncf .bf16 (shapeCast SMat w hs) hn)
        (constant (F := Ideal) SBlk .f32 0x00000000#32) (ix2 p f)
      = ∑ d : Fin 256, x (ix2 p d) * w (ix2 d f) := by
  refine (InnerProducts.matmul_zero_apply D hD none _ _ p f).trans ?_
  rw [shapeCast_self]
  rfl

/-- A block's result is the block of the whole product: if `x` is the `b`-th row block of `H` and `w` is `W`, a payload
    that holds the inner products of `x`'s rows with `w`'s columns holds, at the block index `j`, the product of `H` with
    `W` at the array index `i` that `j` names (row `b · 5000 + j 0`, column `j 1`). -/
theorem dense_block_apply (H : SArr.Idx → EReal) (W : SMat.Idx → EReal)
    (x : FVec Ideal SBlk .f32) (w : FVec Ideal SMat .f32) (pay : FVec Ideal SBlk .f32)
    (hpay : ∀ (p : Fin 5000) (f : Fin 256), pay (ix2 p f) = ∑ d : Fin 256, x (ix2 p d) * w (ix2 d f))
    (b : Nat)
    (hx : ∀ (y : SBlk.Idx) (k : SArr.Idx), (k 0).val = b * 5000 + (y 0).val → (k 1).val = (y 1).val → x y = H k)
    (hw : ∀ y : SMat.Idx, w y = W y)
    (j : SBlk.Idx) (i : SArr.Idx) (hi0 : (i 0).val = b * 5000 + (j 0).val) (hi1 : (i 1).val = (j 1).val) :
    pay j = Cert.Spec.proj (F := Ideal) H W i := by
  obtain ⟨p, f, rfl⟩ : ∃ (p : Fin 5000) (f : Fin 256), j = ix2 p f := ⟨j 0, j 1, eq_ix2 j⟩
  obtain ⟨r, g, rfl⟩ : ∃ (r : Fin 100000) (g : Fin 256), i = ix2 r g := ⟨i 0, i 1, eq_ix2 i⟩
  have hg : g = f := Fin.ext hi1
  subst hg
  rw [hpay, proj_apply]
  refine Finset.sum_congr rfl fun d _ => ?_
  rw [hx (ix2 p d) (ix2 r d) hi0 rfl, hw]

/-! ## The normalisation -/

/-- The normalisation body on one block, with the scale `g`, shift `b`, mean `mu` and variance `v` given as rows spread
    over the block's rows: at `(p, f)` it is `max (g f · (x (p, f) − mu f) · rsqrt (v f + ε) + b f) 0`. -/
theorem bn_body_apply (hc : SBlk.ShapeCasts SBlk) (hr : SRow.ShapeCasts SRow) (hb : SRow.Broadcasts SBlk)
    (x : FVec Ideal SBlk .f32) (g b mu v : FVec Ideal SRow .f32) (p : Fin 5000) (f : Fin 256) :
    maximumf
        (addf
          (mulf
            (mulf (broadcastTo SBlk (shapeCast SRow g hr) hb)
              (subf (shapeCast SBlk x hc) (broadcastTo SBlk (shapeCast SRow mu hr) hb)))
            (broadcastTo SBlk
              (rsqrt (addf (shapeCast SRow v hr) (broadcast SRow (Scalar.ofBits (F := Ideal) .f32 0x3727C5AC#32)))) hb))
          (broadcastTo SBlk (shapeCast SRow b hr) hb))
        (broadcast SBlk (Scalar.ofBits (F := Ideal) .f32 0x00000000#32)) (ix2 p f)
      = max (g (ix2 (0 : Fin 1) f) * (x (ix2 p f) - mu (ix2 (0 : Fin 1) f))
            * Ideal.rsqrt (v (ix2 (0 : Fin 1) f) + Ideal.ofBits .f32 0x3727C5AC#32)
          + b (ix2 (0 : Fin 1) f))
        (Ideal.ofBits .f32 0x00000000#32) := by
  simp only [shapeCast_self]
  rw [maximumf_apply, addf_apply, mulf_apply, mulf_apply, subf_apply,
    broadcastTo_1b_ab_apply, broadcastTo_1b_ab_apply, broadcastTo_1b_ab_apply, broadcastTo_1b_ab_apply]
  rfl

/-- A block's result is the block of the whole normalisation: if `x` is the `b`-th row block of `P` and the four rows are
    `G`, `B`, `Mu`, `Vr`, a payload that holds the entrywise normalisation of `x` holds, at the block index `j`, the
    normalisation of `P` at the array index `i` that `j` names. -/
theorem bn_block_apply (P : SArr.Idx → EReal) (G B Mu Vr : SRow.Idx → EReal)
    (x : FVec Ideal SBlk .f32) (g b mu v : FVec Ideal SRow .f32) (pay : FVec Ideal SBlk .f32)
    (hpay : ∀ (p : Fin 5000) (f : Fin 256), pay (ix2 p f)
      = max (g (ix2 (0 : Fin 1) f) * (x (ix2 p f) - mu (ix2 (0 : Fin 1) f))
            * Ideal.rsqrt (v (ix2 (0 : Fin 1) f) + Ideal.ofBits .f32 0x3727C5AC#32)
          + b (ix2 (0 : Fin 1) f))
        (Ideal.ofBits .f32 0x00000000#32))
    (n : Nat)
    (hx : ∀ (y : SBlk.Idx) (k : SArr.Idx), (k 0).val = n * 5000 + (y 0).val → (k 1).val = (y 1).val → x y = P k)
    (hg : ∀ y : SRow.Idx, g y = G y) (hb : ∀ y : SRow.Idx, b y = B y)
    (hmu : ∀ y : SRow.Idx, mu y = Mu y) (hv : ∀ y : SRow.Idx, v y = Vr y)
    (j : SBlk.Idx) (i : SArr.Idx) (hi0 : (i 0).val = n * 5000 + (j 0).val) (hi1 : (i 1).val = (j 1).val) :
    pay j = Cert.Spec.bnRow P G B Mu Vr i := by
  obtain ⟨p, f, rfl⟩ : ∃ (p : Fin 5000) (f : Fin 256), j = ix2 p f := ⟨j 0, j 1, eq_ix2 j⟩
  obtain ⟨r, c, rfl⟩ : ∃ (r : Fin 100000) (c : Fin 256), i = ix2 r c := ⟨i 0, i 1, eq_ix2 i⟩
  have hc : c = f := Fin.ext hi1
  subst hc
  rw [hpay, hx (ix2 p c) (ix2 r c) hi0 rfl, hg, hb, hmu, hv]
  rfl

/-! ## The blocks tile the array -/

/-- Row `r` of the array lies in the block numbered `r / 5000`. -/
theorem row_in_block (r : Nat) (hr : r < 100000) : r / 5000 < 20 ∧ r / 5000 * 5000 ≤ r ∧ r < r / 5000 * 5000 + 5000 := by
  omega

end Cert.RowBlocks

end
-- ==== Proof.Region0.lean ====
/-
  What the projection body of the program's kernel call 0 leaves in its two output arrays.

  The call runs over twenty row blocks of 5000 rows. At block `t` the body multiplies rows `5000 t … 5000 t + 4999` of
  the features by each of the two matrices and stores the two products; each is written back to the same rows of its
  output array. So block `t` of each output is block `t` of the host's product of the whole features with that matrix,
  the blocks tile the array, and the array ends holding the whole product.
-/
import proofs.«129831_j68247030334290_1_alg».proof.Proof.Gen.KernelIdeal.Frame
import proofs.«129831_j68247030334290_1_alg».proof.Proof.RegionLib

noncomputable section

open Idealize.ShloMosaic Idealize.ShloMosaic.ValueIdx Idealize.ShloMosaic.TcCoe Idealize.SL.Sem
open Idealize.ShloMosaic.Pipeline (Dat)
open scoped BigOperators

namespace Cert.KernelIdeal.RegionValue

open Cert.KernelIdeal Cert.KernelIdeal.Gen Cert.RowBlocks

variable (V : (c : Dev nD) → (b : Ref sig .tc) → Buf (Elt Ideal) ((c : Thread nD τ).loc b))

/-- The first product's payload at `(p, f)`: row `p` of the block against column `f` of the first matrix. -/
theorem support_pay0 (x : Vec Ideal S5000x256 .f32) (w : Vec Ideal S256x256 .f32) (p : Fin 5000) (f : Fin 256) :
    Gen.k0_pay2 (F := Ideal) x w (ix2 p f) = ∑ d : Fin 256, x (ix2 p d) * w (ix2 d f) := by
  unfold Gen.k0_pay2 Gen.k0_pay1
  exact dense_body_apply _ rfl _ _ x w p f

/-- The second product's payload at `(p, f)`: row `p` of the block against column `f` of the second matrix. -/
theorem self_pay0 (x : Vec Ideal S5000x256 .f32) (w : Vec Ideal S256x256 .f32) (p : Fin 5000) (f : Fin 256) :
    Gen.k0_pay3 (F := Ideal) x w (ix2 p f) = ∑ d : Fin 256, x (ix2 p d) * w (ix2 d f) := by
  unfold Gen.k0_pay3 Gen.k0_pay1
  exact dense_body_apply _ rfl _ _ x w p f

/-- The index maps over the grid: the features' block and both outputs' blocks at point `t` are the `t`-th row block;
    the matrices' one block is the whole matrix. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The features' block at point `t` is rows `5000 t …` of the features. -/
theorem feat_block0 (c : Dev nD) (t : Fin cfg0.N) (y : S5000x256.Idx) (k : S100000x256.Idx)
    (hk0 : (k 0).val = t.val * 5000 + (y 0).val) (hk1 : (k 1).val = (y 1).val) :
    (Gen.iblk0 V c 0 t : Vec Ideal S5000x256 .f32) y = (V c (Pipeline.arrRef spec0 0) : S100000x256.Idx → EReal) k := by
  obtain ⟨e0, e1, -⟩ := index_facts0 t
  unfold Gen.iblk0
  rw [View.read_apply]
  show V c (Pipeline.arrRef spec0 0) _ = V c (Pipeline.arrRef spec0 0) _
  refine congrArg (V c (Pipeline.arrRef spec0 0)) (funext fun a => Fin.ext ?_)
  match a with
  | ⟨0, _⟩ => show win0_0.index t (0 : Fin 2) * 5000 + 1 * (y 0).val = (k 0).val; rw [e0, hk0]; omega
  | ⟨1, _⟩ => show win0_0.index t (1 : Fin 2) * 256 + 1 * (y 1).val = (k 1).val; rw [e1, hk1]; omega

/-- The first matrix's block at every point is the matrix. -/
theorem mat1_block0 (c : Dev nD) (t : Fin cfg0.N) (y : S256x256.Idx) :
    (Gen.iblk0 V c 1 t : Vec Ideal S256x256 .f32) y = (V c (Pipeline.arrRef spec0 1) : S256x256.Idx → EReal) y := by
  obtain ⟨-, -, e2, e3, -⟩ := index_facts0 t
  unfold Gen.iblk0
  rw [View.read_apply]
  show V c (Pipeline.arrRef spec0 1) _ = V c (Pipeline.arrRef spec0 1) _
  refine congrArg (V c (Pipeline.arrRef spec0 1)) (funext fun a => Fin.ext ?_)
  match a with
  | ⟨0, _⟩ => show win0_1.index t (0 : Fin 2) * 256 + 1 * (y 0).val = (y 0).val; rw [e2]; omega
  | ⟨1, _⟩ => show win0_1.index t (1 : Fin 2) * 256 + 1 * (y 1).val = (y 1).val; rw [e3]; omega

/-- The second matrix's block at every point is the matrix. -/
theorem mat2_block0 (c : Dev nD) (t : Fin cfg0.N) (y : S256x256.Idx) :
    (Gen.iblk0 V c 2 t : Vec Ideal S256x256 .f32) y = (V c (Pipeline.arrRef spec0 2) : S256x256.Idx → EReal) y := by
  obtain ⟨-, -, -, -, e4, e5, -⟩ := index_facts0 t
  unfold Gen.iblk0
  rw [View.read_apply]
  show V c (Pipeline.arrRef spec0 2) _ = V c (Pipeline.arrRef spec0 2) _
  refine congrArg (V c (Pipeline.arrRef spec0 2)) (funext fun a => Fin.ext ?_)
  match a with
  | ⟨0, _⟩ => show win0_2.index t (0 : Fin 2) * 256 + 1 * (y 0).val = (y 0).val; rw [e4]; omega
  | ⟨1, _⟩ => show win0_2.index t (1 : Fin 2) * 256 + 1 * (y 1).val = (y 1).val; rw [e5]; omega

/-- What point `t` writes back to the first output is block `t` of the product of the features with the first matrix. -/
theorem support_flushed0 (c : Dev nD) (t : Fin cfg0.N) :
    (Gen.dat0 (F := Ideal) V c).flushed 3 t
      = ((cfg0.win 3).blk t).view.read (Elt Ideal)
          (Cert.Spec.proj (F := Ideal) (V c (Pipeline.arrRef spec0 0)) (V c (Pipeline.arrRef spec0 1))) := by
  show (cfg0.win 3).cut (grid0.coords t) ((Gen.dat0 V c).after 3 t) = _
  rw [Gen.after0_3]
  unfold Gen.out0_3
  rw [View.canon_unit_zero zero_offsets]
  simp only [View.ld_unit_zero (S := S5000x256) zero_offsets, View.ld_unit_zero (S := S256x256) zero_offsets]
  obtain ⟨-, -, -, -, -, -, e6, e7, -⟩ := index_facts0 t
  funext j
  rw [View.read_apply]
  refine dense_block_apply _ _ (Gen.iblk0 V c 0 t) (Gen.iblk0 V c 1 t) _ (support_pay0 _ _) t.val
    (feat_block0 V c t) (mat1_block0 V c t) j _ ?_ ?_
  · show win0_3.index t (0 : Fin 2) * 5000 + 1 * (j 0).val = t.val * 5000 + (j 0).val; rw [e6]; omega
  · show win0_3.index t (1 : Fin 2) * 256 + 1 * (j 1).val = (j 1).val; rw [e7]; omega

/-- What point `t` writes back to the second output is block `t` of the product of the features with the second matrix. -/
theorem self_flushed0 (c : Dev nD) (t : Fin cfg0.N) :
    (Gen.dat0 (F := Ideal) V c).flushed 4 t
      = ((cfg0.win 4).blk t).view.read (Elt Ideal)
          (Cert.Spec.proj (F := Ideal) (V c (Pipeline.arrRef spec0 0)) (V c (Pipeline.arrRef spec0 2))) := by
  show (cfg0.win 4).cut (grid0.coords t) ((Gen.dat0 V c).after 4 t) = _
  rw [Gen.after0_4]
  unfold Gen.out0_4
  rw [View.canon_unit_zero zero_offsets]
  simp only [View.ld_unit_zero (S := S5000x256) zero_offsets, View.ld_unit_zero (S := S256x256) zero_offsets]
  obtain ⟨-, -, -, -, -, -, -, -, e8, e9⟩ := index_facts0 t
  funext j
  rw [View.read_apply]
  refine dense_block_apply _ _ (Gen.iblk0 V c 0 t) (Gen.iblk0 V c 2 t) _ (self_pay0 _ _) t.val
    (feat_block0 V c t) (mat2_block0 V c t) j _ ?_ ?_
  · show win0_4.index t (0 : Fin 2) * 5000 + 1 * (j 0).val = t.val * 5000 + (j 0).val; rw [e8]; omega
  · show win0_4.index t (1 : Fin 2) * 256 + 1 * (j 1).val = (j 1).val; rw [e9]; omega

/-- An index of the first output is in point `t`'s block iff each coordinate is in the block's range on its axis. -/
theorem support_mem0 (t : Fin cfg0.N) (i : S100000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole (Pipeline.arrRef spec0 3)).slice (win0_3.rect t)).set ↔ _
  rw [View.set_slice_whole, Rect.mem_set_unit]
  exact Iff.rfl

/-- The same for the second output. -/
theorem self_mem0 (t : Fin cfg0.N) (i : S100000x256.Idx) :
    i ∈ ((cfg0.win 4).blk t).view.set ↔ ∀ a : Fin 2, win0_4.index t a * S5000x256.size a ≤ (i a).val
      ∧ (i a).val < win0_4.index t a * S5000x256.size a + S5000x256.size a := by
  show i ∈ ((View.whole (Pipeline.arrRef spec0 4)).slice (win0_4.rect t)).set ↔ _
  rw [View.set_slice_whole, Rect.mem_set_unit]
  exact Iff.rfl

/-- Every index of the first output is in the block of the point numbered by its row divided by 5000. -/
theorem support_cover0 (i : S100000x256.Idx) :
    ∃ t : Fin cfg0.N, (cfg0.win 3).flush t = true ∧ i ∈ ((cfg0.win 3).blk t).view.set := by
  have hi0 : (i 0).val < 100000 := (i 0).isLt
  have hi1 : (i 1).val < 256 := (i 1).isLt
  have hN : cfg0.N = 20 := Gen.N_0
  obtain ⟨hq, hlo, hhi⟩ := row_in_block (i 0).val hi0
  refine ⟨⟨(i 0).val / 5000, by rw [hN]; exact hq⟩, Gen.flush0_3 _, ?_⟩
  rw [support_mem0]
  obtain ⟨-, -, -, -, -, -, e6, e7, -⟩ := index_facts0 ⟨(i 0).val / 5000, by rw [hN]; exact hq⟩
  intro a
  match a with
  | ⟨0, _⟩ =>
    show win0_3.index _ (0 : Fin 2) * 5000 ≤ (i 0).val ∧ (i 0).val < win0_3.index _ (0 : Fin 2) * 5000 + 5000
    rw [e6]; exact ⟨hlo, hhi⟩
  | ⟨1, _⟩ =>
    show win0_3.index _ (1 : Fin 2) * 256 ≤ (i 1).val ∧ (i 1).val < win0_3.index _ (1 : Fin 2) * 256 + 256
    rw [e7]; omega

/-- The same for the second output. -/
theorem self_cover0 (i : S100000x256.Idx) :
    ∃ t : Fin cfg0.N, (cfg0.win 4).flush t = true ∧ i ∈ ((cfg0.win 4).blk t).view.set := by
  have hi0 : (i 0).val < 100000 := (i 0).isLt
  have hi1 : (i 1).val < 256 := (i 1).isLt
  have hN : cfg0.N = 20 := Gen.N_0
  obtain ⟨hq, hlo, hhi⟩ := row_in_block (i 0).val hi0
  refine ⟨⟨(i 0).val / 5000, by rw [hN]; exact hq⟩, Gen.flush0_4 _, ?_⟩
  rw [self_mem0]
  obtain ⟨-, -, -, -, -, -, -, -, e8, e9⟩ := index_facts0 ⟨(i 0).val / 5000, by rw [hN]; exact hq⟩
  intro a
  match a with
  | ⟨0, _⟩ =>
    show win0_4.index _ (0 : Fin 2) * 5000 ≤ (i 0).val ∧ (i 0).val < win0_4.index _ (0 : Fin 2) * 5000 + 5000
    rw [e8]; exact ⟨hlo, hhi⟩
  | ⟨1, _⟩ =>
    show win0_4.index _ (1 : Fin 2) * 256 ≤ (i 1).val ∧ (i 1).val < win0_4.index _ (1 : Fin 2) * 256 + 256
    rw [e9]; omega

/-- The first output array after the call: the product of the features with the first matrix. -/
theorem support0 (c : Dev nD) :
    (Gen.dat0 (F := Ideal) V c).arrAt 3 cfg0.N
      = Cert.Spec.proj (F := Ideal) (V c (Pipeline.arrRef spec0 0)) (V c (Pipeline.arrRef spec0 1)) :=
  (Gen.dat0 (F := Ideal) V c).arrAt_eq_of_cover 3 _ (fun t _ => support_flushed0 V c t) support_cover0

/-- The second output array after the call: the product of the features with the second matrix. -/
theorem self0 (c : Dev nD) :
    (Gen.dat0 (F := Ideal) V c).arrAt 4 cfg0.N
      = Cert.Spec.proj (F := Ideal) (V c (Pipeline.arrRef spec0 0)) (V c (Pipeline.arrRef spec0 2)) :=
  (Gen.dat0 (F := Ideal) V c).arrAt_eq_of_cover 4 _ (fun t _ => self_flushed0 V c t) self_cover0

end Cert.KernelIdeal.RegionValue

end
-- ==== Proof.Region1.lean ====
/-
  What the normalisation body of the program's kernel call 1 leaves in its output array.

  The call runs over twenty row blocks of 5000 rows. At block `t` the body takes rows `5000 t … 5000 t + 4999` of its
  first operand and the four [1, 256] rows (scale, shift, mean, variance), spreads the rows over the block, and stores
  `max (scale · (x − mean) · rsqrt (variance + ε) + shift) 0` entry by entry; the block is written back to the same rows
  of the output array. So block `t` of the output is block `t` of the normalisation of the whole operand, the blocks tile
  the array, and the array ends holding the whole normalisation.
-/
import proofs.«129831_j68247030334290_1_alg».proof.Proof.Gen.KernelIdeal.Frame
import proofs.«129831_j68247030334290_1_alg».proof.Proof.RegionLib

noncomputable section

open Idealize.ShloMosaic Idealize.ShloMosaic.ValueIdx Idealize.ShloMosaic.TcCoe Idealize.SL.Sem
open Idealize.ShloMosaic.Pipeline (Dat)

namespace Cert.KernelIdeal.RegionValue

open Cert.KernelIdeal Cert.KernelIdeal.Gen Cert.RowBlocks

variable (V : (c : Dev nD) → (b : Ref sig .tc) → Buf (Elt Ideal) ((c : Thread nD τ).loc b))

/-- The body's payload at `(p, f)`: the entry normalised with column `f`'s scale, shift, mean and variance. -/
theorem norm_pay1 (x : Vec Ideal S5000x256 .f32) (g b mu v : Vec Ideal S1x256 .f32) (p : Fin 5000) (f : Fin 256) :
    Gen.k1_pay1 (F := Ideal) x g b mu v (ix2 p f)
      = max (g (ix2 (0 : Fin 1) f) * (x (ix2 p f) - mu (ix2 (0 : Fin 1) f))
            * Ideal.rsqrt (v (ix2 (0 : Fin 1) f) + Ideal.ofBits .f32 0x3727C5AC#32)
          + b (ix2 (0 : Fin 1) f))
        (Ideal.ofBits .f32 0x00000000#32) := by
  unfold Gen.k1_pay1
  exact bn_body_apply _ _ _ x g b mu v p f

/-- The index maps over the grid: the operand's block and the output's block at point `t` are the `t`-th row block; each
    row's one block is the whole row. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The operand's block at point `t` is rows `5000 t …` of the operand. -/
theorem pre_block1 (c : Dev nD) (t : Fin cfg1.N) (y : S5000x256.Idx) (k : S100000x256.Idx)
    (hk0 : (k 0).val = t.val * 5000 + (y 0).val) (hk1 : (k 1).val = (y 1).val) :
    (Gen.iblk1 V c 0 t : Vec Ideal S5000x256 .f32) y = (V c (Pipeline.arrRef spec1 0) : S100000x256.Idx → EReal) k := by
  obtain ⟨e0, e1, -⟩ := index_facts1 t
  unfold Gen.iblk1
  rw [View.read_apply]
  show V c (Pipeline.arrRef spec1 0) _ = V c (Pipeline.arrRef spec1 0) _
  refine congrArg (V c (Pipeline.arrRef spec1 0)) (funext fun a => Fin.ext ?_)
  match a with
  | ⟨0, _⟩ => show win1_0.index t (0 : Fin 2) * 5000 + 1 * (y 0).val = (k 0).val; rw [e0, hk0]; omega
  | ⟨1, _⟩ => show win1_0.index t (1 : Fin 2) * 256 + 1 * (y 1).val = (k 1).val; rw [e1, hk1]; omega

/-- The scale row's block at every point is the row. -/
theorem row1_block1 (c : Dev nD) (t : Fin cfg1.N) (y : S1x256.Idx) :
    (Gen.iblk1 V c 1 t : Vec Ideal S1x256 .f32) y = (V c (Pipeline.arrRef spec1 1) : S1x256.Idx → EReal) y := by
  have e := index_facts1 t
  have ea : win1_1.index t (0 : Fin 2) = 0 := e.2.2.1
  have eb : win1_1.index t (1 : Fin 2) = 0 := e.2.2.2.1
  unfold Gen.iblk1
  rw [View.read_apply]
  show V c (Pipeline.arrRef spec1 1) _ = V c (Pipeline.arrRef spec1 1) _
  refine congrArg (V c (Pipeline.arrRef spec1 1)) (funext fun a => Fin.ext ?_)
  match a with
  | ⟨0, _⟩ => show win1_1.index t (0 : Fin 2) * 1 + 1 * (y 0).val = (y 0).val; rw [ea]; omega
  | ⟨1, _⟩ => show win1_1.index t (1 : Fin 2) * 256 + 1 * (y 1).val = (y 1).val; rw [eb]; omega

/-- The shift row's block at every point is the row. -/
theorem row2_block1 (c : Dev nD) (t : Fin cfg1.N) (y : S1x256.Idx) :
    (Gen.iblk1 V c 2 t : Vec Ideal S1x256 .f32) y = (V c (Pipeline.arrRef spec1 2) : S1x256.Idx → EReal) y := by
  have e := index_facts1 t
  have ea : win1_2.index t (0 : Fin 2) = 0 := e.2.2.2.2.1
  have eb : win1_2.index t (1 : Fin 2) = 0 := e.2.2.2.2.2.1
  unfold Gen.iblk1
  rw [View.read_apply]
  show V c (Pipeline.arrRef spec1 2) _ = V c (Pipeline.arrRef spec1 2) _
  refine congrArg (V c (Pipeline.arrRef spec1 2)) (funext fun a => Fin.ext ?_)
  match a with
  | ⟨0, _⟩ => show win1_2.index t (0 : Fin 2) * 1 + 1 * (y 0).val = (y 0).val; rw [ea]; omega
  | ⟨1, _⟩ => show win1_2.index t (1 : Fin 2) * 256 + 1 * (y 1).val = (y 1).val; rw [eb]; omega

/-- The mean row's block at every point is the row. -/
theorem row3_block1 (c : Dev nD) (t : Fin cfg1.N) (y : S1x256.Idx) :
    (Gen.iblk1 V c 3 t : Vec Ideal S1x256 .f32) y = (V c (Pipeline.arrRef spec1 3) : S1x256.Idx → EReal) y := by
  have e := index_facts1 t
  have ea : win1_3.index t (0 : Fin 2) = 0 := e.2.2.2.2.2.2.1
  have eb : win1_3.index t (1 : Fin 2) = 0 := e.2.2.2.2.2.2.2.1
  unfold Gen.iblk1
  rw [View.read_apply]
  show V c (Pipeline.arrRef spec1 3) _ = V c (Pipeline.arrRef spec1 3) _
  refine congrArg (V c (Pipeline.arrRef spec1 3)) (funext fun a => Fin.ext ?_)
  match a with
  | ⟨0, _⟩ => show win1_3.index t (0 : Fin 2) * 1 + 1 * (y 0).val = (y 0).val; rw [ea]; omega
  | ⟨1, _⟩ => show win1_3.index t (1 : Fin 2) * 256 + 1 * (y 1).val = (y 1).val; rw [eb]; omega

/-- The variance row's block at every point is the row. -/
theorem row4_block1 (c : Dev nD) (t : Fin cfg1.N) (y : S1x256.Idx) :
    (Gen.iblk1 V c 4 t : Vec Ideal S1x256 .f32) y = (V c (Pipeline.arrRef spec1 4) : S1x256.Idx → EReal) y := by
  have e := index_facts1 t
  have ea : win1_4.index t (0 : Fin 2) = 0 := e.2.2.2.2.2.2.2.2.1
  have eb : win1_4.index t (1 : Fin 2) = 0 := e.2.2.2.2.2.2.2.2.2.1
  unfold Gen.iblk1
  rw [View.read_apply]
  show V c (Pipeline.arrRef spec1 4) _ = V c (Pipeline.arrRef spec1 4) _
  refine congrArg (V c (Pipeline.arrRef spec1 4)) (funext fun a => Fin.ext ?_)
  match a with
  | ⟨0, _⟩ => show win1_4.index t (0 : Fin 2) * 1 + 1 * (y 0).val = (y 0).val; rw [ea]; omega
  | ⟨1, _⟩ => show win1_4.index t (1 : Fin 2) * 256 + 1 * (y 1).val = (y 1).val; rw [eb]; omega

/-- What point `t` writes back is block `t` of the normalisation of the whole operand. -/
theorem norm_flushed1 (c : Dev nD) (t : Fin cfg1.N) :
    (Gen.dat1 (F := Ideal) V c).flushed 5 t
      = ((cfg1.win 5).blk t).view.read (Elt Ideal)
          (Cert.Spec.bnRow (V c (Pipeline.arrRef spec1 0)) (V c (Pipeline.arrRef spec1 1))
            (V c (Pipeline.arrRef spec1 2)) (V c (Pipeline.arrRef spec1 3)) (V c (Pipeline.arrRef spec1 4))) := by
  show (cfg1.win 5).cut (grid1.coords t) ((Gen.dat1 V c).after 5 t) = _
  rw [Gen.after1_5]
  unfold Gen.out1_5
  rw [View.canon_unit_zero zero_offsets]
  simp only [View.ld_unit_zero (S := S5000x256) zero_offsets, View.ld_unit_zero (S := S1x256) zero_offsets]
  have e := index_facts1 t
  have e10 : win1_5.index t (0 : Fin 2) = t.val := e.2.2.2.2.2.2.2.2.2.2.1
  have e11 : win1_5.index t (1 : Fin 2) = 0 := e.2.2.2.2.2.2.2.2.2.2.2
  funext j
  rw [View.read_apply]
  refine bn_block_apply _ _ _ _ _ (Gen.iblk1 V c 0 t) (Gen.iblk1 V c 1 t) (Gen.iblk1 V c 2 t) (Gen.iblk1 V c 3 t)
    (Gen.iblk1 V c 4 t) _ (norm_pay1 _ _ _ _ _) t.val
    (pre_block1 V c t) (row1_block1 V c t) (row2_block1 V c t) (row3_block1 V c t) (row4_block1 V c t) j _ ?_ ?_
  · show win1_5.index t (0 : Fin 2) * 5000 + 1 * (j 0).val = t.val * 5000 + (j 0).val; rw [e10]; omega
  · show win1_5.index t (1 : Fin 2) * 256 + 1 * (j 1).val = (j 1).val; rw [e11]; omega

/-- An index of the output is in point `t`'s block iff each coordinate is in the block's range on its axis. -/
theorem norm_mem1 (t : Fin cfg1.N) (i : S100000x256.Idx) :
    i ∈ ((cfg1.win 5).blk t).view.set ↔ ∀ a : Fin 2, win1_5.index t a * S5000x256.size a ≤ (i a).val
      ∧ (i a).val < win1_5.index t a * S5000x256.size a + S5000x256.size a := by
  show i ∈ ((View.whole (Pipeline.arrRef spec1 5)).slice (win1_5.rect t)).set ↔ _
  rw [View.set_slice_whole, Rect.mem_set_unit]
  exact Iff.rfl

/-- Every index of the output is in the block of the point numbered by its row divided by 5000. -/
theorem norm_cover1 (i : S100000x256.Idx) :
    ∃ t : Fin cfg1.N, (cfg1.win 5).flush t = true ∧ i ∈ ((cfg1.win 5).blk t).view.set := by
  have hi0 : (i 0).val < 100000 := (i 0).isLt
  have hi1 : (i 1).val < 256 := (i 1).isLt
  have hN : cfg1.N = 20 := Gen.N_1
  obtain ⟨hq, hlo, hhi⟩ := row_in_block (i 0).val hi0
  refine ⟨⟨(i 0).val / 5000, by rw [hN]; exact hq⟩, Gen.flush1_5 _, ?_⟩
  rw [norm_mem1]
  have e := index_facts1 ⟨(i 0).val / 5000, by rw [hN]; exact hq⟩
  have e10 := e.2.2.2.2.2.2.2.2.2.2.1
  have e11 := e.2.2.2.2.2.2.2.2.2.2.2
  intro a
  match a with
  | ⟨0, _⟩ =>
    show win1_5.index _ (0 : Fin 2) * 5000 ≤ (i 0).val ∧ (i 0).val < win1_5.index _ (0 : Fin 2) * 5000 + 5000
    rw [e10]; exact ⟨hlo, hhi⟩
  | ⟨1, _⟩ =>
    show win1_5.index _ (1 : Fin 2) * 256 ≤ (i 1).val ∧ (i 1).val < win1_5.index _ (1 : Fin 2) * 256 + 256
    rw [e11]; omega

/-- The output array after the call: the normalisation of the whole operand with the four rows. -/
theorem norm1 (c : Dev nD) :
    (Gen.dat1 (F := Ideal) V c).arrAt 5 cfg1.N
      = Cert.Spec.bnRow (V c (Pipeline.arrRef spec1 0)) (V c (Pipeline.arrRef spec1 1))
          (V c (Pipeline.arrRef spec1 2)) (V c (Pipeline.arrRef spec1 3)) (V c (Pipeline.arrRef spec1 4)) :=
  (Gen.dat1 (F := Ideal) V c).arrAt_eq_of_cover 5 _ (fun t _ => norm_flushed1 V c t) norm_cover1

end Cert.KernelIdeal.RegionValue

end
-- ==== Proof.KLayer0.lean ====
/-
  Layer 0 of the kernel program, read off its run.

  Between the boundary before the layer and the boundary after it the program slices the layer's two matrices out of
  the stacks, runs the projection kernel (both products of the incoming features, row block by row block), forms the
  pre-normalisation value and its column statistics with host operations, lays the scale, shift, mean and variance out
  as [1, 256] rows, and runs the normalisation kernel. Each host stretch is read at the buffers that matter as a
  function of the contents it started from; each kernel region leaves in its output arrays the whole-array function
  of its input arrays; nothing in the layer writes an argument of the program.
-/
import proofs.«129831_j68247030334290_1_alg».proof.Proof.Gen.KernelIdeal.Frame
import proofs.«129831_j68247030334290_1_alg».proof.Proof.KLayer
import proofs.«129831_j68247030334290_1_alg».proof.Proof.Region0
import proofs.«129831_j68247030334290_1_alg».proof.Proof.Region1
import Idealize.ShloMosaic.Lib.StableHlo.Run

set_option maxRecDepth 16384

noncomputable section

namespace Cert.KernelIdeal.Layer0

open Idealize.ShloMosaic Idealize.SL.Sem Cert.KernelIdeal Cert.KernelIdeal.Gen Cert.Spec Cert.KLayer

/-- No operation of a literal host stretch writes the buffer read. -/
macro "stretch_keeps" : tactic => `(tactic| (
  refine StableHlo.after_of_forall_not_mem _ _ (List.forall_iff_forall_mem.mp ?_)
  simp only [hostOps0, hostOps1, hostOps1_1, hostOps1_2, List.Forall, StableHlo.nullary_writes, StableHlo.unary_writes, StableHlo.binary_writes,
    StableHlo.ternary_writes, StableHlo.quaternary_writes, StableHlo.reshape_writes, Finset.mem_singleton]
  repeat' apply And.intro
  all_goals exact StableHlo.devRef_ne_of_ne (by decide)))

section Stretches

variable {F : FTy → Type} [FloatOps F] (W : Valuation τ sig (Elt F))

/-- The layer's matrices, sliced out of the stacks. -/
theorem weights_W : StableHlo.after (hostOps0 (F := F)) W (Proc.devRef .tc main_v1) = mat0 (W (Proc.devRef .tc main_arg2)) := by
  after_results
  rfl
theorem weights_SW : StableHlo.after (hostOps0 (F := F)) W (Proc.devRef .tc main_v3) = mat0 (W (Proc.devRef .tc main_arg3)) := by
  after_results
  rfl

/-- The contents after the three stretches between the two kernels. -/
abbrev mid : Valuation τ sig (Elt F) :=
  StableHlo.after (hostOps1_2 (F := F)) (StableHlo.after (hostOps1_1 (F := F)) (StableHlo.after (hostOps1 (F := F)) W))

attribute [local irreducible] Host.gather Host.scatterAdd Host.reduceAdd in
set_option maxHeartbeats 1000000 in
/-- The pre-normalisation value, from the two projections. -/
theorem mid_pre : mid W (Proc.devRef .tc main_v18)
    = preK (W (Proc.devRef .tc main_v4_0)) (W (Proc.devRef .tc main_v4_1)) (W (Proc.devRef .tc main_arg1))
        (W (Proc.devRef .tc main_arg6)) (W (Proc.devRef .tc main_arg7)) := by
  after_results_simp
  unfold preK segsum gath spread wrapIdx
  rfl

attribute [local irreducible] Host.gather Host.scatterAdd Host.reduceAdd in
set_option maxHeartbeats 1000000 in
/-- The scale and the shift as rows. -/
theorem mid_scale : mid W (Proc.devRef .tc main_v27) = rowOf (col0 (W (Proc.devRef .tc main_arg4))) := by
  after_results_simp
  unfold rowOf col0
  rfl
attribute [local irreducible] Host.gather Host.scatterAdd Host.reduceAdd in
set_option maxHeartbeats 1000000 in
theorem mid_shift : mid W (Proc.devRef .tc main_v28) = rowOf (col0 (W (Proc.devRef .tc main_arg5))) := by
  after_results_simp
  unfold rowOf col0
  rfl

attribute [local irreducible] Host.gather Host.scatterAdd Host.reduceAdd in
set_option maxHeartbeats 1000000 in
/-- The column means as a row. -/
theorem mid_mean : mid W (Proc.devRef .tc main_v29)
    = rowOf (meanOf (preK (W (Proc.devRef .tc main_v4_0)) (W (Proc.devRef .tc main_v4_1)) (W (Proc.devRef .tc main_arg1))
        (W (Proc.devRef .tc main_arg6)) (W (Proc.devRef .tc main_arg7)))) := by
  after_results_simp
  unfold rowOf meanOf preK segsum gath spread wrapIdx
  rfl

attribute [local irreducible] Host.gather Host.scatterAdd Host.reduceAdd in
set_option maxHeartbeats 1000000 in
/-- The column variances as a row. -/
theorem mid_var : mid W (Proc.devRef .tc main_v30)
    = rowOf (varOf (preK (W (Proc.devRef .tc main_v4_0)) (W (Proc.devRef .tc main_v4_1)) (W (Proc.devRef .tc main_arg1))
        (W (Proc.devRef .tc main_arg6)) (W (Proc.devRef .tc main_arg7)))) := by
  after_results_simp
  unfold rowOf varOf preK segsum gath spread wrapIdx
  rfl

end Stretches

variable (m : (ℓ : Loc nD τ sig) → Buf (Elt Ideal) ℓ) (ρ : Dev nD → PrngReg)

/-- The projection kernel's two results at the boundary after it. -/
theorem support_at (c : Dev nD) : W2 m ρ c (Proc.devRef .tc main_v4_0)
    = proj (W1 m ρ c (Proc.devRef .tc main_arg0)) (W1 m ρ c (Proc.devRef .tc main_v1)) :=
  (W2_arr m ρ c 3).trans (Cert.KernelIdeal.RegionValue.support0 (V1 m ρ) c)
theorem self_at (c : Dev nD) : W2 m ρ c (Proc.devRef .tc main_v4_1)
    = proj (W1 m ρ c (Proc.devRef .tc main_arg0)) (W1 m ρ c (Proc.devRef .tc main_v3)) :=
  (W2_arr m ρ c 4).trans (Cert.KernelIdeal.RegionValue.self0 (V1 m ρ) c)

/-- The normalisation kernel's result at the boundary after it. -/
theorem norm_at (c : Dev nD) : W6 m ρ c (Proc.devRef .tc main_v31)
    = bnRow (W5 m ρ c (Proc.devRef .tc main_v18)) (W5 m ρ c (Proc.devRef .tc main_v27)) (W5 m ρ c (Proc.devRef .tc main_v28))
        (W5 m ρ c (Proc.devRef .tc main_v29)) (W5 m ρ c (Proc.devRef .tc main_v30)) :=
  (W6_arr m ρ c 5).trans (Cert.KernelIdeal.RegionValue.norm1 (V5 m ρ) c)

/-- A buffer no operation and no kernel of the layer writes, from the boundary after the projection kernel back to the
    boundary before the layer. -/
theorem kept_front (c : Dev nD) (b : Ref sig .tc) (hb : b = main_arg1 ∨ b = main_arg2 ∨ b = main_arg3 ∨ b = main_arg4 ∨ b = main_arg5 ∨ b = main_arg6 ∨ b = main_arg7) :
    W2 m ρ c (Proc.devRef .tc b) = W0 m ρ c (Proc.devRef .tc b) := by
  rcases hb with rfl | rfl | rfl | rfl | rfl | rfl | rfl <;>
  · refine (W2_of_ne m ρ c _ (by decide)).trans ?_
    stretch_keeps

/-- The same from the boundary after the layer back to the boundary after the projection kernel. -/
theorem kept_back (c : Dev nD) (b : Ref sig .tc) (hb : b = main_arg0 ∨ b = main_arg1 ∨ b = main_arg2 ∨ b = main_arg3 ∨ b = main_arg4 ∨ b = main_arg5 ∨ b = main_arg6 ∨ b = main_arg7) :
    W6 m ρ c (Proc.devRef .tc b) = W2 m ρ c (Proc.devRef .tc b) := by
  rcases hb with rfl | rfl | rfl | rfl | rfl | rfl | rfl | rfl <;>
  · refine (W6_of_ne m ρ c _ (by decide)).trans ?_
    refine Eq.trans (b := W4 m ρ c _) (by stretch_keeps) ?_
    refine Eq.trans (b := W3 m ρ c _) (by stretch_keeps) ?_
    stretch_keeps

/-- The input features are the projection kernel's first window: it reads them and leaves them. -/
theorem kept_front_x (c : Dev nD) : W2 m ρ c (Proc.devRef .tc main_arg0) = W0 m ρ c (Proc.devRef .tc main_arg0) := by
  refine ((W2_arr m ρ c 0).trans (((dat0 (V1 m ρ) c).arrAt_in 0 rfl _).trans (A_eq0 (V1 m ρ) c 0))).trans ?_
  stretch_keeps

/-- Every argument of the program is, after the layer, what it was before it. -/
theorem kept (c : Dev nD) (b : Ref sig .tc) (hb : b = main_arg0 ∨ b = main_arg1 ∨ b = main_arg2 ∨ b = main_arg3 ∨ b = main_arg4 ∨ b = main_arg5 ∨ b = main_arg6 ∨ b = main_arg7) :
    W6 m ρ c (Proc.devRef .tc b) = W0 m ρ c (Proc.devRef .tc b) := by
  refine (kept_back m ρ c b hb).trans ?_
  rcases hb with rfl | hb
  · exact kept_front_x m ρ c
  · exact kept_front m ρ c b hb

/-- The layer's result, from the features and the arguments at the boundary before it. -/
theorem value (c : Dev nD) : W6 m ρ c (Proc.devRef .tc main_v31)
    = layerK (W0 m ρ c (Proc.devRef .tc main_arg0)) (mat0 (W0 m ρ c (Proc.devRef .tc main_arg2))) (mat0 (W0 m ρ c (Proc.devRef .tc main_arg3)))
        (col0 (W0 m ρ c (Proc.devRef .tc main_arg4))) (col0 (W0 m ρ c (Proc.devRef .tc main_arg5)))
        (W0 m ρ c (Proc.devRef .tc main_arg1)) (W0 m ρ c (Proc.devRef .tc main_arg6)) (W0 m ρ c (Proc.devRef .tc main_arg7)) := by
  -- the features and the two matrices at the projection kernel's entry
  have hx : W1 m ρ c (Proc.devRef .tc main_arg0) = W0 m ρ c (Proc.devRef .tc main_arg0) := by stretch_keeps
  have hw : W1 m ρ c (Proc.devRef .tc main_v1) = mat0 (W0 m ρ c (Proc.devRef .tc main_arg2)) := weights_W (W0 m ρ c)
  have hsw : W1 m ρ c (Proc.devRef .tc main_v3) = mat0 (W0 m ρ c (Proc.devRef .tc main_arg3)) := weights_SW (W0 m ρ c)
  -- the edge data and the stacked vectors at the projection kernel's exit
  have k1 := kept_front m ρ c main_arg1 (by simp)
  have k4 := kept_front m ρ c main_arg4 (by simp)
  have k5 := kept_front m ρ c main_arg5 (by simp)
  have k6 := kept_front m ρ c main_arg6 (by simp)
  have k7 := kept_front m ρ c main_arg7 (by simp)
  rw [norm_at, show W5 m ρ c = mid (W2 m ρ c) from rfl, mid_pre, mid_scale, mid_shift, mid_mean, mid_var,
    support_at, self_at, hx, hw, hsw, k1, k4, k5, k6, k7]
  rfl

end Cert.KernelIdeal.Layer0

end
-- ==== Proof.Region2.lean ====
/-
  What the projection body of the program's kernel call 2 leaves in its two output arrays.

  The call runs over twenty row blocks of 5000 rows. At block `t` the body multiplies rows `5000 t … 5000 t + 4999` of
  the features by each of the two matrices and stores the two products; each is written back to the same rows of its
  output array. So block `t` of each output is block `t` of the host's product of the whole features with that matrix,
  the blocks tile the array, and the array ends holding the whole product.
-/
import proofs.«129831_j68247030334290_1_alg».proof.Proof.Gen.KernelIdeal.Frame
import proofs.«129831_j68247030334290_1_alg».proof.Proof.RegionLib

noncomputable section

open Idealize.ShloMosaic Idealize.ShloMosaic.ValueIdx Idealize.ShloMosaic.TcCoe Idealize.SL.Sem
open Idealize.ShloMosaic.Pipeline (Dat)
open scoped BigOperators

namespace Cert.KernelIdeal.RegionValue

open Cert.KernelIdeal Cert.KernelIdeal.Gen Cert.RowBlocks

variable (V : (c : Dev nD) → (b : Ref sig .tc) → Buf (Elt Ideal) ((c : Thread nD τ).loc b))

/-- The first product's payload at `(p, f)`: row `p` of the block against column `f` of the first matrix. -/
theorem support_pay2 (x : Vec Ideal S5000x256 .f32) (w : Vec Ideal S256x256 .f32) (p : Fin 5000) (f : Fin 256) :
    Gen.k2_pay2 (F := Ideal) x w (ix2 p f) = ∑ d : Fin 256, x (ix2 p d) * w (ix2 d f) := by
  unfold Gen.k2_pay2 Gen.k2_pay1
  simp only [shapeCast_self (s := S5000x256)]
  exact dense_body_apply _ rfl _ _ x w p f

/-- The second product's payload at `(p, f)`: row `p` of the block against column `f` of the second matrix. -/
theorem self_pay2 (x : Vec Ideal S5000x256 .f32) (w : Vec Ideal S256x256 .f32) (p : Fin 5000) (f : Fin 256) :
    Gen.k2_pay3 (F := Ideal) x w (ix2 p f) = ∑ d : Fin 256, x (ix2 p d) * w (ix2 d f) := by
  unfold Gen.k2_pay3 Gen.k2_pay1
  simp only [shapeCast_self (s := S5000x256)]
  exact dense_body_apply _ rfl _ _ x w p f

/-- The index maps over the grid: the features' block and both outputs' blocks at point `t` are the `t`-th row block;
    the matrices' one block is the whole matrix. -/
theorem index_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The features' block at point `t` is rows `5000 t …` of the features. -/
theorem feat_block2 (c : Dev nD) (t : Fin cfg2.N) (y : S5000x256.Idx) (k : S100000x256.Idx)
    (hk0 : (k 0).val = t.val * 5000 + (y 0).val) (hk1 : (k 1).val = (y 1).val) :
    (Gen.iblk2 V c 0 t : Vec Ideal S5000x256 .f32) y = (V c (Pipeline.arrRef spec2 0) : S100000x256.Idx → EReal) k := by
  obtain ⟨e0, e1, -⟩ := index_facts2 t
  unfold Gen.iblk2
  rw [View.read_apply]
  show V c (Pipeline.arrRef spec2 0) _ = V c (Pipeline.arrRef spec2 0) _
  refine congrArg (V c (Pipeline.arrRef spec2 0)) (funext fun a => Fin.ext ?_)
  match a with
  | ⟨0, _⟩ => show win2_0.index t (0 : Fin 2) * 5000 + 1 * (y 0).val = (k 0).val; rw [e0, hk0]; omega
  | ⟨1, _⟩ => show win2_0.index t (1 : Fin 2) * 256 + 1 * (y 1).val = (k 1).val; rw [e1, hk1]; omega

/-- The first matrix's block at every point is the matrix. -/
theorem mat1_block2 (c : Dev nD) (t : Fin cfg2.N) (y : S256x256.Idx) :
    (Gen.iblk2 V c 1 t : Vec Ideal S256x256 .f32) y = (V c (Pipeline.arrRef spec2 1) : S256x256.Idx → EReal) y := by
  obtain ⟨-, -, e2, e3, -⟩ := index_facts2 t
  unfold Gen.iblk2
  rw [View.read_apply]
  show V c (Pipeline.arrRef spec2 1) _ = V c (Pipeline.arrRef spec2 1) _
  refine congrArg (V c (Pipeline.arrRef spec2 1)) (funext fun a => Fin.ext ?_)
  match a with
  | ⟨0, _⟩ => show win2_1.index t (0 : Fin 2) * 256 + 1 * (y 0).val = (y 0).val; rw [e2]; omega
  | ⟨1, _⟩ => show win2_1.index t (1 : Fin 2) * 256 + 1 * (y 1).val = (y 1).val; rw [e3]; omega

/-- The second matrix's block at every point is the matrix. -/
theorem mat2_block2 (c : Dev nD) (t : Fin cfg2.N) (y : S256x256.Idx) :
    (Gen.iblk2 V c 2 t : Vec Ideal S256x256 .f32) y = (V c (Pipeline.arrRef spec2 2) : S256x256.Idx → EReal) y := by
  obtain ⟨-, -, -, -, e4, e5, -⟩ := index_facts2 t
  unfold Gen.iblk2
  rw [View.read_apply]
  show V c (Pipeline.arrRef spec2 2) _ = V c (Pipeline.arrRef spec2 2) _
  refine congrArg (V c (Pipeline.arrRef spec2 2)) (funext fun a => Fin.ext ?_)
  match a with
  | ⟨0, _⟩ => show win2_2.index t (0 : Fin 2) * 256 + 1 * (y 0).val = (y 0).val; rw [e4]; omega
  | ⟨1, _⟩ => show win2_2.index t (1 : Fin 2) * 256 + 1 * (y 1).val = (y 1).val; rw [e5]; omega

/-- What point `t` writes back to the first output is block `t` of the product of the features with the first matrix. -/
theorem support_flushed2 (c : Dev nD) (t : Fin cfg2.N) :
    (Gen.dat2 (F := Ideal) V c).flushed 3 t
      = ((cfg2.win 3).blk t).view.read (Elt Ideal)
          (Cert.Spec.proj (F := Ideal) (V c (Pipeline.arrRef spec2 0)) (V c (Pipeline.arrRef spec2 1))) := by
  show (cfg2.win 3).cut (grid2.coords t) ((Gen.dat2 V c).after 3 t) = _
  rw [Gen.after2_3]
  unfold Gen.out2_3
  rw [View.canon_unit_zero zero_offsets]
  simp only [View.ld_unit_zero (S := S5000x256) zero_offsets, View.ld_unit_zero (S := S256x256) zero_offsets]
  obtain ⟨-, -, -, -, -, -, e6, e7, -⟩ := index_facts2 t
  funext j
  rw [View.read_apply]
  refine dense_block_apply _ _ (Gen.iblk2 V c 0 t) (Gen.iblk2 V c 1 t) _ (support_pay2 _ _) t.val
    (feat_block2 V c t) (mat1_block2 V c t) j _ ?_ ?_
  · show win2_3.index t (0 : Fin 2) * 5000 + 1 * (j 0).val = t.val * 5000 + (j 0).val; rw [e6]; omega
  · show win2_3.index t (1 : Fin 2) * 256 + 1 * (j 1).val = (j 1).val; rw [e7]; omega

/-- What point `t` writes back to the second output is block `t` of the product of the features with the second matrix. -/
theorem self_flushed2 (c : Dev nD) (t : Fin cfg2.N) :
    (Gen.dat2 (F := Ideal) V c).flushed 4 t
      = ((cfg2.win 4).blk t).view.read (Elt Ideal)
          (Cert.Spec.proj (F := Ideal) (V c (Pipeline.arrRef spec2 0)) (V c (Pipeline.arrRef spec2 2))) := by
  show (cfg2.win 4).cut (grid2.coords t) ((Gen.dat2 V c).after 4 t) = _
  rw [Gen.after2_4]
  unfold Gen.out2_4
  rw [View.canon_unit_zero zero_offsets]
  simp only [View.ld_unit_zero (S := S5000x256) zero_offsets, View.ld_unit_zero (S := S256x256) zero_offsets]
  obtain ⟨-, -, -, -, -, -, -, -, e8, e9⟩ := index_facts2 t
  funext j
  rw [View.read_apply]
  refine dense_block_apply _ _ (Gen.iblk2 V c 0 t) (Gen.iblk2 V c 2 t) _ (self_pay2 _ _) t.val
    (feat_block2 V c t) (mat2_block2 V c t) j _ ?_ ?_
  · show win2_4.index t (0 : Fin 2) * 5000 + 1 * (j 0).val = t.val * 5000 + (j 0).val; rw [e8]; omega
  · show win2_4.index t (1 : Fin 2) * 256 + 1 * (j 1).val = (j 1).val; rw [e9]; omega

/-- An index of the first output is in point `t`'s block iff each coordinate is in the block's range on its axis. -/
theorem support_mem2 (t : Fin cfg2.N) (i : S100000x256.Idx) :
    i ∈ ((cfg2.win 3).blk t).view.set ↔ ∀ a : Fin 2, win2_3.index t a * S5000x256.size a ≤ (i a).val
      ∧ (i a).val < win2_3.index t a * S5000x256.size a + S5000x256.size a := by
  show i ∈ ((View.whole (Pipeline.arrRef spec2 3)).slice (win2_3.rect t)).set ↔ _
  rw [View.set_slice_whole, Rect.mem_set_unit]
  exact Iff.rfl

/-- The same for the second output. -/
theorem self_mem2 (t : Fin cfg2.N) (i : S100000x256.Idx) :
    i ∈ ((cfg2.win 4).blk t).view.set ↔ ∀ a : Fin 2, win2_4.index t a * S5000x256.size a ≤ (i a).val
      ∧ (i a).val < win2_4.index t a * S5000x256.size a + S5000x256.size a := by
  show i ∈ ((View.whole (Pipeline.arrRef spec2 4)).slice (win2_4.rect t)).set ↔ _
  rw [View.set_slice_whole, Rect.mem_set_unit]
  exact Iff.rfl

/-- Every index of the first output is in the block of the point numbered by its row divided by 5000. -/
theorem support_cover2 (i : S100000x256.Idx) :
    ∃ t : Fin cfg2.N, (cfg2.win 3).flush t = true ∧ i ∈ ((cfg2.win 3).blk t).view.set := by
  have hi0 : (i 0).val < 100000 := (i 0).isLt
  have hi1 : (i 1).val < 256 := (i 1).isLt
  have hN : cfg2.N = 20 := Gen.N_2
  obtain ⟨hq, hlo, hhi⟩ := row_in_block (i 0).val hi0
  refine ⟨⟨(i 0).val / 5000, by rw [hN]; exact hq⟩, Gen.flush2_3 _, ?_⟩
  rw [support_mem2]
  obtain ⟨-, -, -, -, -, -, e6, e7, -⟩ := index_facts2 ⟨(i 0).val / 5000, by rw [hN]; exact hq⟩
  intro a
  match a with
  | ⟨0, _⟩ =>
    show win2_3.index _ (0 : Fin 2) * 5000 ≤ (i 0).val ∧ (i 0).val < win2_3.index _ (0 : Fin 2) * 5000 + 5000
    rw [e6]; exact ⟨hlo, hhi⟩
  | ⟨1, _⟩ =>
    show win2_3.index _ (1 : Fin 2) * 256 ≤ (i 1).val ∧ (i 1).val < win2_3.index _ (1 : Fin 2) * 256 + 256
    rw [e7]; omega

/-- The same for the second output. -/
theorem self_cover2 (i : S100000x256.Idx) :
    ∃ t : Fin cfg2.N, (cfg2.win 4).flush t = true ∧ i ∈ ((cfg2.win 4).blk t).view.set := by
  have hi0 : (i 0).val < 100000 := (i 0).isLt
  have hi1 : (i 1).val < 256 := (i 1).isLt
  have hN : cfg2.N = 20 := Gen.N_2
  obtain ⟨hq, hlo, hhi⟩ := row_in_block (i 0).val hi0
  refine ⟨⟨(i 0).val / 5000, by rw [hN]; exact hq⟩, Gen.flush2_4 _, ?_⟩
  rw [self_mem2]
  obtain ⟨-, -, -, -, -, -, -, -, e8, e9⟩ := index_facts2 ⟨(i 0).val / 5000, by rw [hN]; exact hq⟩
  intro a
  match a with
  | ⟨0, _⟩ =>
    show win2_4.index _ (0 : Fin 2) * 5000 ≤ (i 0).val ∧ (i 0).val < win2_4.index _ (0 : Fin 2) * 5000 + 5000
    rw [e8]; exact ⟨hlo, hhi⟩
  | ⟨1, _⟩ =>
    show win2_4.index _ (1 : Fin 2) * 256 ≤ (i 1).val ∧ (i 1).val < win2_4.index _ (1 : Fin 2) * 256 + 256
    rw [e9]; omega

/-- The first output array after the call: the product of the features with the first matrix. -/
theorem support2 (c : Dev nD) :
    (Gen.dat2 (F := Ideal) V c).arrAt 3 cfg2.N
      = Cert.Spec.proj (F := Ideal) (V c (Pipeline.arrRef spec2 0)) (V c (Pipeline.arrRef spec2 1)) :=
  (Gen.dat2 (F := Ideal) V c).arrAt_eq_of_cover 3 _ (fun t _ => support_flushed2 V c t) support_cover2

/-- The second output array after the call: the product of the features with the second matrix. -/
theorem self2 (c : Dev nD) :
    (Gen.dat2 (F := Ideal) V c).arrAt 4 cfg2.N
      = Cert.Spec.proj (F := Ideal) (V c (Pipeline.arrRef spec2 0)) (V c (Pipeline.arrRef spec2 2)) :=
  (Gen.dat2 (F := Ideal) V c).arrAt_eq_of_cover 4 _ (fun t _ => self_flushed2 V c t) self_cover2

end Cert.KernelIdeal.RegionValue

end
-- ==== Proof.Region3.lean ====
/-
  What the normalisation body of the program's kernel call 3 leaves in its output array.

  The call runs over twenty row blocks of 5000 rows. At block `t` the body takes rows `5000 t … 5000 t + 4999` of its
  first operand and the four [1, 256] rows (scale, shift, mean, variance), spreads the rows over the block, and stores
  `max (scale · (x − mean) · rsqrt (variance + ε) + shift) 0` entry by entry; the block is written back to the same rows
  of the output array. So block `t` of the output is block `t` of the normalisation of the whole operand, the blocks tile
  the array, and the array ends holding the whole normalisation.
-/
import proofs.«129831_j68247030334290_1_alg».proof.Proof.Gen.KernelIdeal.Frame
import proofs.«129831_j68247030334290_1_alg».proof.Proof.RegionLib

noncomputable section

open Idealize.ShloMosaic Idealize.ShloMosaic.ValueIdx Idealize.ShloMosaic.TcCoe Idealize.SL.Sem
open Idealize.ShloMosaic.Pipeline (Dat)

namespace Cert.KernelIdeal.RegionValue

open Cert.KernelIdeal Cert.KernelIdeal.Gen Cert.RowBlocks

variable (V : (c : Dev nD) → (b : Ref sig .tc) → Buf (Elt Ideal) ((c : Thread nD τ).loc b))

/-- The body's payload at `(p, f)`: the entry normalised with column `f`'s scale, shift, mean and variance. -/
theorem norm_pay3 (x : Vec Ideal S5000x256 .f32) (g b mu v : Vec Ideal S1x256 .f32) (p : Fin 5000) (f : Fin 256) :
    Gen.k3_pay1 (F := Ideal) x g b mu v (ix2 p f)
      = max (g (ix2 (0 : Fin 1) f) * (x (ix2 p f) - mu (ix2 (0 : Fin 1) f))
            * Ideal.rsqrt (v (ix2 (0 : Fin 1) f) + Ideal.ofBits .f32 0x3727C5AC#32)
          + b (ix2 (0 : Fin 1) f))
        (Ideal.ofBits .f32 0x00000000#32) := by
  unfold Gen.k3_pay1
  exact bn_body_apply _ _ _ x g b mu v p f

/-- The index maps over the grid: the operand's block and the output's block at point `t` are the `t`-th row block; each
    row's one block is the whole row. -/
theorem index_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The operand's block at point `t` is rows `5000 t …` of the operand. -/
theorem pre_block3 (c : Dev nD) (t : Fin cfg3.N) (y : S5000x256.Idx) (k : S100000x256.Idx)
    (hk0 : (k 0).val = t.val * 5000 + (y 0).val) (hk1 : (k 1).val = (y 1).val) :
    (Gen.iblk3 V c 0 t : Vec Ideal S5000x256 .f32) y = (V c (Pipeline.arrRef spec3 0) : S100000x256.Idx → EReal) k := by
  obtain ⟨e0, e1, -⟩ := index_facts3 t
  unfold Gen.iblk3
  rw [View.read_apply]
  show V c (Pipeline.arrRef spec3 0) _ = V c (Pipeline.arrRef spec3 0) _
  refine congrArg (V c (Pipeline.arrRef spec3 0)) (funext fun a => Fin.ext ?_)
  match a with
  | ⟨0, _⟩ => show win3_0.index t (0 : Fin 2) * 5000 + 1 * (y 0).val = (k 0).val; rw [e0, hk0]; omega
  | ⟨1, _⟩ => show win3_0.index t (1 : Fin 2) * 256 + 1 * (y 1).val = (k 1).val; rw [e1, hk1]; omega

/-- The scale row's block at every point is the row. -/
theorem row1_block3 (c : Dev nD) (t : Fin cfg3.N) (y : S1x256.Idx) :
    (Gen.iblk3 V c 1 t : Vec Ideal S1x256 .f32) y = (V c (Pipeline.arrRef spec3 1) : S1x256.Idx → EReal) y := by
  have e := index_facts3 t
  have ea : win3_1.index t (0 : Fin 2) = 0 := e.2.2.1
  have eb : win3_1.index t (1 : Fin 2) = 0 := e.2.2.2.1
  unfold Gen.iblk3
  rw [View.read_apply]
  show V c (Pipeline.arrRef spec3 1) _ = V c (Pipeline.arrRef spec3 1) _
  refine congrArg (V c (Pipeline.arrRef spec3 1)) (funext fun a => Fin.ext ?_)
  match a with
  | ⟨0, _⟩ => show win3_1.index t (0 : Fin 2) * 1 + 1 * (y 0).val = (y 0).val; rw [ea]; omega
  | ⟨1, _⟩ => show win3_1.index t (1 : Fin 2) * 256 + 1 * (y 1).val = (y 1).val; rw [eb]; omega

/-- The shift row's block at every point is the row. -/
theorem row2_block3 (c : Dev nD) (t : Fin cfg3.N) (y : S1x256.Idx) :
    (Gen.iblk3 V c 2 t : Vec Ideal S1x256 .f32) y = (V c (Pipeline.arrRef spec3 2) : S1x256.Idx → EReal) y := by
  have e := index_facts3 t
  have ea : win3_2.index t (0 : Fin 2) = 0 := e.2.2.2.2.1
  have eb : win3_2.index t (1 : Fin 2) = 0 := e.2.2.2.2.2.1
  unfold Gen.iblk3
  rw [View.read_apply]
  show V c (Pipeline.arrRef spec3 2) _ = V c (Pipeline.arrRef spec3 2) _
  refine congrArg (V c (Pipeline.arrRef spec3 2)) (funext fun a => Fin.ext ?_)
  match a with
  | ⟨0, _⟩ => show win3_2.index t (0 : Fin 2) * 1 + 1 * (y 0).val = (y 0).val; rw [ea]; omega
  | ⟨1, _⟩ => show win3_2.index t (1 : Fin 2) * 256 + 1 * (y 1).val = (y 1).val; rw [eb]; omega

/-- The mean row's block at every point is the row. -/
theorem row3_block3 (c : Dev nD) (t : Fin cfg3.N) (y : S1x256.Idx) :
    (Gen.iblk3 V c 3 t : Vec Ideal S1x256 .f32) y = (V c (Pipeline.arrRef spec3 3) : S1x256.Idx → EReal) y := by
  have e := index_facts3 t
  have ea : win3_3.index t (0 : Fin 2) = 0 := e.2.2.2.2.2.2.1
  have eb : win3_3.index t (1 : Fin 2) = 0 := e.2.2.2.2.2.2.2.1
  unfold Gen.iblk3
  rw [View.read_apply]
  show V c (Pipeline.arrRef spec3 3) _ = V c (Pipeline.arrRef spec3 3) _
  refine congrArg (V c (Pipeline.arrRef spec3 3)) (funext fun a => Fin.ext ?_)
  match a with
  | ⟨0, _⟩ => show win3_3.index t (0 : Fin 2) * 1 + 1 * (y 0).val = (y 0).val; rw [ea]; omega
  | ⟨1, _⟩ => show win3_3.index t (1 : Fin 2) * 256 + 1 * (y 1).val = (y 1).val; rw [eb]; omega

/-- The variance row's block at every point is the row. -/
theorem row4_block3 (c : Dev nD) (t : Fin cfg3.N) (y : S1x256.Idx) :
    (Gen.iblk3 V c 4 t : Vec Ideal S1x256 .f32) y = (V c (Pipeline.arrRef spec3 4) : S1x256.Idx → EReal) y := by
  have e := index_facts3 t
  have ea : win3_4.index t (0 : Fin 2) = 0 := e.2.2.2.2.2.2.2.2.1
  have eb : win3_4.index t (1 : Fin 2) = 0 := e.2.2.2.2.2.2.2.2.2.1
  unfold Gen.iblk3
  rw [View.read_apply]
  show V c (Pipeline.arrRef spec3 4) _ = V c (Pipeline.arrRef spec3 4) _
  refine congrArg (V c (Pipeline.arrRef spec3 4)) (funext fun a => Fin.ext ?_)
  match a with
  | ⟨0, _⟩ => show win3_4.index t (0 : Fin 2) * 1 + 1 * (y 0).val = (y 0).val; rw [ea]; omega
  | ⟨1, _⟩ => show win3_4.index t (1 : Fin 2) * 256 + 1 * (y 1).val = (y 1).val; rw [eb]; omega

/-- What point `t` writes back is block `t` of the normalisation of the whole operand. -/
theorem norm_flushed3 (c : Dev nD) (t : Fin cfg3.N) :
    (Gen.dat3 (F := Ideal) V c).flushed 5 t
      = ((cfg3.win 5).blk t).view.read (Elt Ideal)
          (Cert.Spec.bnRow (V c (Pipeline.arrRef spec3 0)) (V c (Pipeline.arrRef spec3 1))
            (V c (Pipeline.arrRef spec3 2)) (V c (Pipeline.arrRef spec3 3)) (V c (Pipeline.arrRef spec3 4))) := by
  show (cfg3.win 5).cut (grid3.coords t) ((Gen.dat3 V c).after 5 t) = _
  rw [Gen.after3_5]
  unfold Gen.out3_5
  rw [View.canon_unit_zero zero_offsets]
  simp only [View.ld_unit_zero (S := S5000x256) zero_offsets, View.ld_unit_zero (S := S1x256) zero_offsets]
  have e := index_facts3 t
  have e10 : win3_5.index t (0 : Fin 2) = t.val := e.2.2.2.2.2.2.2.2.2.2.1
  have e11 : win3_5.index t (1 : Fin 2) = 0 := e.2.2.2.2.2.2.2.2.2.2.2
  funext j
  rw [View.read_apply]
  refine bn_block_apply _ _ _ _ _ (Gen.iblk3 V c 0 t) (Gen.iblk3 V c 1 t) (Gen.iblk3 V c 2 t) (Gen.iblk3 V c 3 t)
    (Gen.iblk3 V c 4 t) _ (norm_pay3 _ _ _ _ _) t.val
    (pre_block3 V c t) (row1_block3 V c t) (row2_block3 V c t) (row3_block3 V c t) (row4_block3 V c t) j _ ?_ ?_
  · show win3_5.index t (0 : Fin 2) * 5000 + 1 * (j 0).val = t.val * 5000 + (j 0).val; rw [e10]; omega
  · show win3_5.index t (1 : Fin 2) * 256 + 1 * (j 1).val = (j 1).val; rw [e11]; omega

/-- An index of the output is in point `t`'s block iff each coordinate is in the block's range on its axis. -/
theorem norm_mem3 (t : Fin cfg3.N) (i : S100000x256.Idx) :
    i ∈ ((cfg3.win 5).blk t).view.set ↔ ∀ a : Fin 2, win3_5.index t a * S5000x256.size a ≤ (i a).val
      ∧ (i a).val < win3_5.index t a * S5000x256.size a + S5000x256.size a := by
  show i ∈ ((View.whole (Pipeline.arrRef spec3 5)).slice (win3_5.rect t)).set ↔ _
  rw [View.set_slice_whole, Rect.mem_set_unit]
  exact Iff.rfl

/-- Every index of the output is in the block of the point numbered by its row divided by 5000. -/
theorem norm_cover3 (i : S100000x256.Idx) :
    ∃ t : Fin cfg3.N, (cfg3.win 5).flush t = true ∧ i ∈ ((cfg3.win 5).blk t).view.set := by
  have hi0 : (i 0).val < 100000 := (i 0).isLt
  have hi1 : (i 1).val < 256 := (i 1).isLt
  have hN : cfg3.N = 20 := Gen.N_3
  obtain ⟨hq, hlo, hhi⟩ := row_in_block (i 0).val hi0
  refine ⟨⟨(i 0).val / 5000, by rw [hN]; exact hq⟩, Gen.flush3_5 _, ?_⟩
  rw [norm_mem3]
  have e := index_facts3 ⟨(i 0).val / 5000, by rw [hN]; exact hq⟩
  have e10 := e.2.2.2.2.2.2.2.2.2.2.1
  have e11 := e.2.2.2.2.2.2.2.2.2.2.2
  intro a
  match a with
  | ⟨0, _⟩ =>
    show win3_5.index _ (0 : Fin 2) * 5000 ≤ (i 0).val ∧ (i 0).val < win3_5.index _ (0 : Fin 2) * 5000 + 5000
    rw [e10]; exact ⟨hlo, hhi⟩
  | ⟨1, _⟩ =>
    show win3_5.index _ (1 : Fin 2) * 256 ≤ (i 1).val ∧ (i 1).val < win3_5.index _ (1 : Fin 2) * 256 + 256
    rw [e11]; omega

/-- The output array after the call: the normalisation of the whole operand with the four rows. -/
theorem norm3 (c : Dev nD) :
    (Gen.dat3 (F := Ideal) V c).arrAt 5 cfg3.N
      = Cert.Spec.bnRow (V c (Pipeline.arrRef spec3 0)) (V c (Pipeline.arrRef spec3 1))
          (V c (Pipeline.arrRef spec3 2)) (V c (Pipeline.arrRef spec3 3)) (V c (Pipeline.arrRef spec3 4)) :=
  (Gen.dat3 (F := Ideal) V c).arrAt_eq_of_cover 5 _ (fun t _ => norm_flushed3 V c t) norm_cover3

end Cert.KernelIdeal.RegionValue

end
-- ==== Proof.KLayer1.lean ====
/-
  Layer 1 of the kernel program, read off its run.

  Between the boundary before the layer and the boundary after it the program slices the layer's two matrices out of
  the stacks, runs the projection kernel (both products of the incoming features, row block by row block), forms the
  pre-normalisation value and its column statistics with host operations, lays the scale, shift, mean and variance out
  as [1, 256] rows, and runs the normalisation kernel. Each host stretch is read at the buffers that matter as a
  function of the contents it started from; each kernel region leaves in its output arrays the whole-array function
  of its input arrays; nothing in the layer writes an argument of the program.
-/
import proofs.«129831_j68247030334290_1_alg».proof.Proof.Gen.KernelIdeal.Frame
import proofs.«129831_j68247030334290_1_alg».proof.Proof.KLayer
import proofs.«129831_j68247030334290_1_alg».proof.Proof.Region2
import proofs.«129831_j68247030334290_1_alg».proof.Proof.Region3
import Idealize.ShloMosaic.Lib.StableHlo.Run

set_option maxRecDepth 16384

noncomputable section

namespace Cert.KernelIdeal.Layer1

open Idealize.ShloMosaic Idealize.SL.Sem Cert.KernelIdeal Cert.KernelIdeal.Gen Cert.Spec Cert.KLayer

/-- No operation of a literal host stretch writes the buffer read. -/
macro "stretch_keeps" : tactic => `(tactic| (
  refine StableHlo.after_of_forall_not_mem _ _ (List.forall_iff_forall_mem.mp ?_)
  simp only [hostOps2, hostOps3, hostOps3_1, hostOps3_2, List.Forall, StableHlo.nullary_writes, StableHlo.unary_writes, StableHlo.binary_writes,
    StableHlo.ternary_writes, StableHlo.quaternary_writes, StableHlo.reshape_writes, Finset.mem_singleton]
  repeat' apply And.intro
  all_goals exact StableHlo.devRef_ne_of_ne (by decide)))

section Stretches

variable {F : FTy → Type} [FloatOps F] (W : Valuation τ sig (Elt F))

/-- The layer's matrices, sliced out of the stacks. -/
theorem weights_W : StableHlo.after (hostOps2 (F := F)) W (Proc.devRef .tc main_v33) = mat1 (W (Proc.devRef .tc main_arg2)) := by
  after_results
  rfl
theorem weights_SW : StableHlo.after (hostOps2 (F := F)) W (Proc.devRef .tc main_v35) = mat1 (W (Proc.devRef .tc main_arg3)) := by
  after_results
  rfl

/-- The contents after the three stretches between the two kernels. -/
abbrev mid : Valuation τ sig (Elt F) :=
  StableHlo.after (hostOps3_2 (F := F)) (StableHlo.after (hostOps3_1 (F := F)) (StableHlo.after (hostOps3 (F := F)) W))

attribute [local irreducible] Host.gather Host.scatterAdd Host.reduceAdd in
set_option maxHeartbeats 1000000 in
/-- The pre-normalisation value, from the two projections. -/
theorem mid_pre : mid W (Proc.devRef .tc main_v50)
    = preK (W (Proc.devRef .tc main_v36_0)) (W (Proc.devRef .tc main_v36_1)) (W (Proc.devRef .tc main_arg1))
        (W (Proc.devRef .tc main_arg6)) (W (Proc.devRef .tc main_arg7)) := by
  after_results_simp
  unfold preK segsum gath spread wrapIdx
  rfl

attribute [local irreducible] Host.gather Host.scatterAdd Host.reduceAdd in
set_option maxHeartbeats 1000000 in
/-- The scale and the shift as rows. -/
theorem mid_scale : mid W (Proc.devRef .tc main_v59) = rowOf (col1 (W (Proc.devRef .tc main_arg4))) := by
  after_results_simp
  unfold rowOf col1
  rfl
attribute [local irreducible] Host.gather Host.scatterAdd Host.reduceAdd in
set_option maxHeartbeats 1000000 in
theorem mid_shift : mid W (Proc.devRef .tc main_v60) = rowOf (col1 (W (Proc.devRef .tc main_arg5))) := by
  after_results_simp
  unfold rowOf col1
  rfl

attribute [local irreducible] Host.gather Host.scatterAdd Host.reduceAdd in
set_option maxHeartbeats 1000000 in
/-- The column means as a row. -/
theorem mid_mean : mid W (Proc.devRef .tc main_v61)
    = rowOf (meanOf (preK (W (Proc.devRef .tc main_v36_0)) (W (Proc.devRef .tc main_v36_1)) (W (Proc.devRef .tc main_arg1))
        (W (Proc.devRef .tc main_arg6)) (W (Proc.devRef .tc main_arg7)))) := by
  after_results_simp
  unfold rowOf meanOf preK segsum gath spread wrapIdx
  rfl

attribute [local irreducible] Host.gather Host.scatterAdd Host.reduceAdd in
set_option maxHeartbeats 1000000 in
/-- The column variances as a row. -/
theorem mid_var : mid W (Proc.devRef .tc main_v62)
    = rowOf (varOf (preK (W (Proc.devRef .tc main_v36_0)) (W (Proc.devRef .tc main_v36_1)) (W (Proc.devRef .tc main_arg1))
        (W (Proc.devRef .tc main_arg6)) (W (Proc.devRef .tc main_arg7)))) := by
  after_results_simp
  unfold rowOf varOf preK segsum gath spread wrapIdx
  rfl

end Stretches

variable (m : (ℓ : Loc nD τ sig) → Buf (Elt Ideal) ℓ) (ρ : Dev nD → PrngReg)

/-- The projection kernel's two results at the boundary after it. -/
theorem support_at (c : Dev nD) : W8 m ρ c (Proc.devRef .tc main_v36_0)
    = proj (W7 m ρ c (Proc.devRef .tc main_v31)) (W7 m ρ c (Proc.devRef .tc main_v33)) :=
  (W8_arr m ρ c 3).trans (Cert.KernelIdeal.RegionValue.support2 (V7 m ρ) c)
theorem self_at (c : Dev nD) : W8 m ρ c (Proc.devRef .tc main_v36_1)
    = proj (W7 m ρ c (Proc.devRef .tc main_v31)) (W7 m ρ c (Proc.devRef .tc main_v35)) :=
  (W8_arr m ρ c 4).trans (Cert.KernelIdeal.RegionValue.self2 (V7 m ρ) c)

/-- The normalisation kernel's result at the boundary after it. -/
theorem norm_at (c : Dev nD) : W12 m ρ c (Proc.devRef .tc main_v63)
    = bnRow (W11 m ρ c (Proc.devRef .tc main_v50)) (W11 m ρ c (Proc.devRef .tc main_v59)) (W11 m ρ c (Proc.devRef .tc main_v60))
        (W11 m ρ c (Proc.devRef .tc main_v61)) (W11 m ρ c (Proc.devRef .tc main_v62)) :=
  (W12_arr m ρ c 5).trans (Cert.KernelIdeal.RegionValue.norm3 (V11 m ρ) c)

/-- A buffer no operation and no kernel of the layer writes, from the boundary after the projection kernel back to the
    boundary before the layer. -/
theorem kept_front (c : Dev nD) (b : Ref sig .tc) (hb : b = main_arg1 ∨ b = main_arg2 ∨ b = main_arg3 ∨ b = main_arg4 ∨ b = main_arg5 ∨ b = main_arg6 ∨ b = main_arg7 ∨ b = main_arg0) :
    W8 m ρ c (Proc.devRef .tc b) = W6 m ρ c (Proc.devRef .tc b) := by
  rcases hb with rfl | rfl | rfl | rfl | rfl | rfl | rfl | rfl <;>
  · refine (W8_of_ne m ρ c _ (by decide)).trans ?_
    stretch_keeps

/-- The same from the boundary after the layer back to the boundary after the projection kernel. -/
theorem kept_back (c : Dev nD) (b : Ref sig .tc) (hb : b = main_arg0 ∨ b = main_arg1 ∨ b = main_arg2 ∨ b = main_arg3 ∨ b = main_arg4 ∨ b = main_arg5 ∨ b = main_arg6 ∨ b = main_arg7) :
    W12 m ρ c (Proc.devRef .tc b) = W8 m ρ c (Proc.devRef .tc b) := by
  rcases hb with rfl | rfl | rfl | rfl | rfl | rfl | rfl | rfl <;>
  · refine (W12_of_ne m ρ c _ (by decide)).trans ?_
    refine Eq.trans (b := W10 m ρ c _) (by stretch_keeps) ?_
    refine Eq.trans (b := W9 m ρ c _) (by stretch_keeps) ?_
    stretch_keeps

/-- Every argument of the program is, after the layer, what it was before it. -/
theorem kept (c : Dev nD) (b : Ref sig .tc) (hb : b = main_arg0 ∨ b = main_arg1 ∨ b = main_arg2 ∨ b = main_arg3 ∨ b = main_arg4 ∨ b = main_arg5 ∨ b = main_arg6 ∨ b = main_arg7) :
    W12 m ρ c (Proc.devRef .tc b) = W6 m ρ c (Proc.devRef .tc b) := by
  refine (kept_back m ρ c b hb).trans ?_
  rcases hb with rfl | hb
  · exact kept_front m ρ c _ (by simp)
  · exact kept_front m ρ c b (by tauto)

/-- The layer's result, from the features and the arguments at the boundary before it. -/
theorem value (c : Dev nD) : W12 m ρ c (Proc.devRef .tc main_v63)
    = layerK (W6 m ρ c (Proc.devRef .tc main_v31)) (mat1 (W6 m ρ c (Proc.devRef .tc main_arg2))) (mat1 (W6 m ρ c (Proc.devRef .tc main_arg3)))
        (col1 (W6 m ρ c (Proc.devRef .tc main_arg4))) (col1 (W6 m ρ c (Proc.devRef .tc main_arg5)))
        (W6 m ρ c (Proc.devRef .tc main_arg1)) (W6 m ρ c (Proc.devRef .tc main_arg6)) (W6 m ρ c (Proc.devRef .tc main_arg7)) := by
  -- the features and the two matrices at the projection kernel's entry
  have hx : W7 m ρ c (Proc.devRef .tc main_v31) = W6 m ρ c (Proc.devRef .tc main_v31) := by stretch_keeps
  have hw : W7 m ρ c (Proc.devRef .tc main_v33) = mat1 (W6 m ρ c (Proc.devRef .tc main_arg2)) := weights_W (W6 m ρ c)
  have hsw : W7 m ρ c (Proc.devRef .tc main_v35) = mat1 (W6 m ρ c (Proc.devRef .tc main_arg3)) := weights_SW (W6 m ρ c)
  -- the edge data and the stacked vectors at the projection kernel's exit
  have k1 := kept_front m ρ c main_arg1 (by simp)
  have k4 := kept_front m ρ c main_arg4 (by simp)
  have k5 := kept_front m ρ c main_arg5 (by simp)
  have k6 := kept_front m ρ c main_arg6 (by simp)
  have k7 := kept_front m ρ c main_arg7 (by simp)
  rw [norm_at, show W11 m ρ c = mid (W8 m ρ c) from rfl, mid_pre, mid_scale, mid_shift, mid_mean, mid_var,
    support_at, self_at, hx, hw, hsw, k1, k4, k5, k6, k7]
  rfl

end Cert.KernelIdeal.Layer1

end
-- ==== Proof.Region4.lean ====
/-
  What the projection body of the program's kernel call 4 leaves in its two output arrays.

  The call runs over twenty row blocks of 5000 rows. At block `t` the body multiplies rows `5000 t … 5000 t + 4999` of
  the features by each of the two matrices and stores the two products; each is written back to the same rows of its
  output array. So block `t` of each output is block `t` of the host's product of the whole features with that matrix,
  the blocks tile the array, and the array ends holding the whole product.
-/
import proofs.«129831_j68247030334290_1_alg».proof.Proof.Gen.KernelIdeal.Frame
import proofs.«129831_j68247030334290_1_alg».proof.Proof.RegionLib

noncomputable section

open Idealize.ShloMosaic Idealize.ShloMosaic.ValueIdx Idealize.ShloMosaic.TcCoe Idealize.SL.Sem
open Idealize.ShloMosaic.Pipeline (Dat)
open scoped BigOperators

namespace Cert.KernelIdeal.RegionValue

open Cert.KernelIdeal Cert.KernelIdeal.Gen Cert.RowBlocks

variable (V : (c : Dev nD) → (b : Ref sig .tc) → Buf (Elt Ideal) ((c : Thread nD τ).loc b))

/-- The first product's payload at `(p, f)`: row `p` of the block against column `f` of the first matrix. -/
theorem support_pay4 (x : Vec Ideal S5000x256 .f32) (w : Vec Ideal S256x256 .f32) (p : Fin 5000) (f : Fin 256) :
    Gen.k4_pay2 (F := Ideal) x w (ix2 p f) = ∑ d : Fin 256, x (ix2 p d) * w (ix2 d f) := by
  unfold Gen.k4_pay2 Gen.k4_pay1
  simp only [shapeCast_self (s := S5000x256)]
  exact dense_body_apply _ rfl _ _ x w p f

/-- The second product's payload at `(p, f)`: row `p` of the block against column `f` of the second matrix. -/
theorem self_pay4 (x : Vec Ideal S5000x256 .f32) (w : Vec Ideal S256x256 .f32) (p : Fin 5000) (f : Fin 256) :
    Gen.k4_pay3 (F := Ideal) x w (ix2 p f) = ∑ d : Fin 256, x (ix2 p d) * w (ix2 d f) := by
  unfold Gen.k4_pay3 Gen.k4_pay1
  simp only [shapeCast_self (s := S5000x256)]
  exact dense_body_apply _ rfl _ _ x w p f

/-- The index maps over the grid: the features' block and both outputs' blocks at point `t` are the `t`-th row block;
    the matrices' one block is the whole matrix. -/
theorem index_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- The features' block at point `t` is rows `5000 t …` of the features. -/
theorem feat_block4 (c : Dev nD) (t : Fin cfg4.N) (y : S5000x256.Idx) (k : S100000x256.Idx)
    (hk0 : (k 0).val = t.val * 5000 + (y 0).val) (hk1 : (k 1).val = (y 1).val) :
    (Gen.iblk4 V c 0 t : Vec Ideal S5000x256 .f32) y = (V c (Pipeline.arrRef spec4 0) : S100000x256.Idx → EReal) k := by
  obtain ⟨e0, e1, -⟩ := index_facts4 t
  unfold Gen.iblk4
  rw [View.read_apply]
  show V c (Pipeline.arrRef spec4 0) _ = V c (Pipeline.arrRef spec4 0) _
  refine congrArg (V c (Pipeline.arrRef spec4 0)) (funext fun a => Fin.ext ?_)
  match a with
  | ⟨0, _⟩ => show win4_0.index t (0 : Fin 2) * 5000 + 1 * (y 0).val = (k 0).val; rw [e0, hk0]; omega
  | ⟨1, _⟩ => show win4_0.index t (1 : Fin 2) * 256 + 1 * (y 1).val = (k 1).val; rw [e1, hk1]; omega

/-- The first matrix's block at every point is the matrix. -/
theorem mat1_block4 (c : Dev nD) (t : Fin cfg4.N) (y : S256x256.Idx) :
    (Gen.iblk4 V c 1 t : Vec Ideal S256x256 .f32) y = (V c (Pipeline.arrRef spec4 1) : S256x256.Idx → EReal) y := by
  obtain ⟨-, -, e2, e3, -⟩ := index_facts4 t
  unfold Gen.iblk4
  rw [View.read_apply]
  show V c (Pipeline.arrRef spec4 1) _ = V c (Pipeline.arrRef spec4 1) _
  refine congrArg (V c (Pipeline.arrRef spec4 1)) (funext fun a => Fin.ext ?_)
  match a with
  | ⟨0, _⟩ => show win4_1.index t (0 : Fin 2) * 256 + 1 * (y 0).val = (y 0).val; rw [e2]; omega
  | ⟨1, _⟩ => show win4_1.index t (1 : Fin 2) * 256 + 1 * (y 1).val = (y 1).val; rw [e3]; omega

/-- The second matrix's block at every point is the matrix. -/
theorem mat2_block4 (c : Dev nD) (t : Fin cfg4.N) (y : S256x256.Idx) :
    (Gen.iblk4 V c 2 t : Vec Ideal S256x256 .f32) y = (V c (Pipeline.arrRef spec4 2) : S256x256.Idx → EReal) y := by
  obtain ⟨-, -, -, -, e4, e5, -⟩ := index_facts4 t
  unfold Gen.iblk4
  rw [View.read_apply]
  show V c (Pipeline.arrRef spec4 2) _ = V c (Pipeline.arrRef spec4 2) _
  refine congrArg (V c (Pipeline.arrRef spec4 2)) (funext fun a => Fin.ext ?_)
  match a with
  | ⟨0, _⟩ => show win4_2.index t (0 : Fin 2) * 256 + 1 * (y 0).val = (y 0).val; rw [e4]; omega
  | ⟨1, _⟩ => show win4_2.index t (1 : Fin 2) * 256 + 1 * (y 1).val = (y 1).val; rw [e5]; omega

/-- What point `t` writes back to the first output is block `t` of the product of the features with the first matrix. -/
theorem support_flushed4 (c : Dev nD) (t : Fin cfg4.N) :
    (Gen.dat4 (F := Ideal) V c).flushed 3 t
      = ((cfg4.win 3).blk t).view.read (Elt Ideal)
          (Cert.Spec.proj (F := Ideal) (V c (Pipeline.arrRef spec4 0)) (V c (Pipeline.arrRef spec4 1))) := by
  show (cfg4.win 3).cut (grid4.coords t) ((Gen.dat4 V c).after 3 t) = _
  rw [Gen.after4_3]
  unfold Gen.out4_3
  rw [View.canon_unit_zero zero_offsets]
  simp only [View.ld_unit_zero (S := S5000x256) zero_offsets, View.ld_unit_zero (S := S256x256) zero_offsets]
  obtain ⟨-, -, -, -, -, -, e6, e7, -⟩ := index_facts4 t
  funext j
  rw [View.read_apply]
  refine dense_block_apply _ _ (Gen.iblk4 V c 0 t) (Gen.iblk4 V c 1 t) _ (support_pay4 _ _) t.val
    (feat_block4 V c t) (mat1_block4 V c t) j _ ?_ ?_
  · show win4_3.index t (0 : Fin 2) * 5000 + 1 * (j 0).val = t.val * 5000 + (j 0).val; rw [e6]; omega
  · show win4_3.index t (1 : Fin 2) * 256 + 1 * (j 1).val = (j 1).val; rw [e7]; omega

/-- What point `t` writes back to the second output is block `t` of the product of the features with the second matrix. -/
theorem self_flushed4 (c : Dev nD) (t : Fin cfg4.N) :
    (Gen.dat4 (F := Ideal) V c).flushed 4 t
      = ((cfg4.win 4).blk t).view.read (Elt Ideal)
          (Cert.Spec.proj (F := Ideal) (V c (Pipeline.arrRef spec4 0)) (V c (Pipeline.arrRef spec4 2))) := by
  show (cfg4.win 4).cut (grid4.coords t) ((Gen.dat4 V c).after 4 t) = _
  rw [Gen.after4_4]
  unfold Gen.out4_4
  rw [View.canon_unit_zero zero_offsets]
  simp only [View.ld_unit_zero (S := S5000x256) zero_offsets, View.ld_unit_zero (S := S256x256) zero_offsets]
  obtain ⟨-, -, -, -, -, -, -, -, e8, e9⟩ := index_facts4 t
  funext j
  rw [View.read_apply]
  refine dense_block_apply _ _ (Gen.iblk4 V c 0 t) (Gen.iblk4 V c 2 t) _ (self_pay4 _ _) t.val
    (feat_block4 V c t) (mat2_block4 V c t) j _ ?_ ?_
  · show win4_4.index t (0 : Fin 2) * 5000 + 1 * (j 0).val = t.val * 5000 + (j 0).val; rw [e8]; omega
  · show win4_4.index t (1 : Fin 2) * 256 + 1 * (j 1).val = (j 1).val; rw [e9]; omega

/-- An index of the first output is in point `t`'s block iff each coordinate is in the block's range on its axis. -/
theorem support_mem4 (t : Fin cfg4.N) (i : S100000x256.Idx) :
    i ∈ ((cfg4.win 3).blk t).view.set ↔ ∀ a : Fin 2, win4_3.index t a * S5000x256.size a ≤ (i a).val
      ∧ (i a).val < win4_3.index t a * S5000x256.size a + S5000x256.size a := by
  show i ∈ ((View.whole (Pipeline.arrRef spec4 3)).slice (win4_3.rect t)).set ↔ _
  rw [View.set_slice_whole, Rect.mem_set_unit]
  exact Iff.rfl

/-- The same for the second output. -/
theorem self_mem4 (t : Fin cfg4.N) (i : S100000x256.Idx) :
    i ∈ ((cfg4.win 4).blk t).view.set ↔ ∀ a : Fin 2, win4_4.index t a * S5000x256.size a ≤ (i a).val
      ∧ (i a).val < win4_4.index t a * S5000x256.size a + S5000x256.size a := by
  show i ∈ ((View.whole (Pipeline.arrRef spec4 4)).slice (win4_4.rect t)).set ↔ _
  rw [View.set_slice_whole, Rect.mem_set_unit]
  exact Iff.rfl

/-- Every index of the first output is in the block of the point numbered by its row divided by 5000. -/
theorem support_cover4 (i : S100000x256.Idx) :
    ∃ t : Fin cfg4.N, (cfg4.win 3).flush t = true ∧ i ∈ ((cfg4.win 3).blk t).view.set := by
  have hi0 : (i 0).val < 100000 := (i 0).isLt
  have hi1 : (i 1).val < 256 := (i 1).isLt
  have hN : cfg4.N = 20 := Gen.N_4
  obtain ⟨hq, hlo, hhi⟩ := row_in_block (i 0).val hi0
  refine ⟨⟨(i 0).val / 5000, by rw [hN]; exact hq⟩, Gen.flush4_3 _, ?_⟩
  rw [support_mem4]
  obtain ⟨-, -, -, -, -, -, e6, e7, -⟩ := index_facts4 ⟨(i 0).val / 5000, by rw [hN]; exact hq⟩
  intro a
  match a with
  | ⟨0, _⟩ =>
    show win4_3.index _ (0 : Fin 2) * 5000 ≤ (i 0).val ∧ (i 0).val < win4_3.index _ (0 : Fin 2) * 5000 + 5000
    rw [e6]; exact ⟨hlo, hhi⟩
  | ⟨1, _⟩ =>
    show win4_3.index _ (1 : Fin 2) * 256 ≤ (i 1).val ∧ (i 1).val < win4_3.index _ (1 : Fin 2) * 256 + 256
    rw [e7]; omega

/-- The same for the second output. -/
theorem self_cover4 (i : S100000x256.Idx) :
    ∃ t : Fin cfg4.N, (cfg4.win 4).flush t = true ∧ i ∈ ((cfg4.win 4).blk t).view.set := by
  have hi0 : (i 0).val < 100000 := (i 0).isLt
  have hi1 : (i 1).val < 256 := (i 1).isLt
  have hN : cfg4.N = 20 := Gen.N_4
  obtain ⟨hq, hlo, hhi⟩ := row_in_block (i 0).val hi0
  refine ⟨⟨(i 0).val / 5000, by rw [hN]; exact hq⟩, Gen.flush4_4 _, ?_⟩
  rw [self_mem4]
  obtain ⟨-, -, -, -, -, -, -, -, e8, e9⟩ := index_facts4 ⟨(i 0).val / 5000, by rw [hN]; exact hq⟩
  intro a
  match a with
  | ⟨0, _⟩ =>
    show win4_4.index _ (0 : Fin 2) * 5000 ≤ (i 0).val ∧ (i 0).val < win4_4.index _ (0 : Fin 2) * 5000 + 5000
    rw [e8]; exact ⟨hlo, hhi⟩
  | ⟨1, _⟩ =>
    show win4_4.index _ (1 : Fin 2) * 256 ≤ (i 1).val ∧ (i 1).val < win4_4.index _ (1 : Fin 2) * 256 + 256
    rw [e9]; omega

/-- The first output array after the call: the product of the features with the first matrix. -/
theorem support4 (c : Dev nD) :
    (Gen.dat4 (F := Ideal) V c).arrAt 3 cfg4.N
      = Cert.Spec.proj (F := Ideal) (V c (Pipeline.arrRef spec4 0)) (V c (Pipeline.arrRef spec4 1)) :=
  (Gen.dat4 (F := Ideal) V c).arrAt_eq_of_cover 3 _ (fun t _ => support_flushed4 V c t) support_cover4

/-- The second output array after the call: the product of the features with the second matrix. -/
theorem self4 (c : Dev nD) :
    (Gen.dat4 (F := Ideal) V c).arrAt 4 cfg4.N
      = Cert.Spec.proj (F := Ideal) (V c (Pipeline.arrRef spec4 0)) (V c (Pipeline.arrRef spec4 2)) :=
  (Gen.dat4 (F := Ideal) V c).arrAt_eq_of_cover 4 _ (fun t _ => self_flushed4 V c t) self_cover4

end Cert.KernelIdeal.RegionValue

end
-- ==== Proof.Region5.lean ====
/-
  What the normalisation body of the program's kernel call 5 leaves in its output array.

  The call runs over twenty row blocks of 5000 rows. At block `t` the body takes rows `5000 t … 5000 t + 4999` of its
  first operand and the four [1, 256] rows (scale, shift, mean, variance), spreads the rows over the block, and stores
  `max (scale · (x − mean) · rsqrt (variance + ε) + shift) 0` entry by entry; the block is written back to the same rows
  of the output array. So block `t` of the output is block `t` of the normalisation of the whole operand, the blocks tile
  the array, and the array ends holding the whole normalisation.
-/
import proofs.«129831_j68247030334290_1_alg».proof.Proof.Gen.KernelIdeal.Frame
import proofs.«129831_j68247030334290_1_alg».proof.Proof.RegionLib

noncomputable section

open Idealize.ShloMosaic Idealize.ShloMosaic.ValueIdx Idealize.ShloMosaic.TcCoe Idealize.SL.Sem
open Idealize.ShloMosaic.Pipeline (Dat)

namespace Cert.KernelIdeal.RegionValue

open Cert.KernelIdeal Cert.KernelIdeal.Gen Cert.RowBlocks

variable (V : (c : Dev nD) → (b : Ref sig .tc) → Buf (Elt Ideal) ((c : Thread nD τ).loc b))

/-- The body's payload at `(p, f)`: the entry normalised with column `f`'s scale, shift, mean and variance. -/
theorem norm_pay5 (x : Vec Ideal S5000x256 .f32) (g b mu v : Vec Ideal S1x256 .f32) (p : Fin 5000) (f : Fin 256) :
    Gen.k5_pay1 (F := Ideal) x g b mu v (ix2 p f)
      = max (g (ix2 (0 : Fin 1) f) * (x (ix2 p f) - mu (ix2 (0 : Fin 1) f))
            * Ideal.rsqrt (v (ix2 (0 : Fin 1) f) + Ideal.ofBits .f32 0x3727C5AC#32)
          + b (ix2 (0 : Fin 1) f))
        (Ideal.ofBits .f32 0x00000000#32) := by
  unfold Gen.k5_pay1
  exact bn_body_apply _ _ _ x g b mu v p f

/-- The index maps over the grid: the operand's block and the output's block at point `t` are the `t`-th row block; each
    row's one block is the whole row. -/
theorem index_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The operand's block at point `t` is rows `5000 t …` of the operand. -/
theorem pre_block5 (c : Dev nD) (t : Fin cfg5.N) (y : S5000x256.Idx) (k : S100000x256.Idx)
    (hk0 : (k 0).val = t.val * 5000 + (y 0).val) (hk1 : (k 1).val = (y 1).val) :
    (Gen.iblk5 V c 0 t : Vec Ideal S5000x256 .f32) y = (V c (Pipeline.arrRef spec5 0) : S100000x256.Idx → EReal) k := by
  obtain ⟨e0, e1, -⟩ := index_facts5 t
  unfold Gen.iblk5
  rw [View.read_apply]
  show V c (Pipeline.arrRef spec5 0) _ = V c (Pipeline.arrRef spec5 0) _
  refine congrArg (V c (Pipeline.arrRef spec5 0)) (funext fun a => Fin.ext ?_)
  match a with
  | ⟨0, _⟩ => show win5_0.index t (0 : Fin 2) * 5000 + 1 * (y 0).val = (k 0).val; rw [e0, hk0]; omega
  | ⟨1, _⟩ => show win5_0.index t (1 : Fin 2) * 256 + 1 * (y 1).val = (k 1).val; rw [e1, hk1]; omega

/-- The scale row's block at every point is the row. -/
theorem row1_block5 (c : Dev nD) (t : Fin cfg5.N) (y : S1x256.Idx) :
    (Gen.iblk5 V c 1 t : Vec Ideal S1x256 .f32) y = (V c (Pipeline.arrRef spec5 1) : S1x256.Idx → EReal) y := by
  have e := index_facts5 t
  have ea : win5_1.index t (0 : Fin 2) = 0 := e.2.2.1
  have eb : win5_1.index t (1 : Fin 2) = 0 := e.2.2.2.1
  unfold Gen.iblk5
  rw [View.read_apply]
  show V c (Pipeline.arrRef spec5 1) _ = V c (Pipeline.arrRef spec5 1) _
  refine congrArg (V c (Pipeline.arrRef spec5 1)) (funext fun a => Fin.ext ?_)
  match a with
  | ⟨0, _⟩ => show win5_1.index t (0 : Fin 2) * 1 + 1 * (y 0).val = (y 0).val; rw [ea]; omega
  | ⟨1, _⟩ => show win5_1.index t (1 : Fin 2) * 256 + 1 * (y 1).val = (y 1).val; rw [eb]; omega

/-- The shift row's block at every point is the row. -/
theorem row2_block5 (c : Dev nD) (t : Fin cfg5.N) (y : S1x256.Idx) :
    (Gen.iblk5 V c 2 t : Vec Ideal S1x256 .f32) y = (V c (Pipeline.arrRef spec5 2) : S1x256.Idx → EReal) y := by
  have e := index_facts5 t
  have ea : win5_2.index t (0 : Fin 2) = 0 := e.2.2.2.2.1
  have eb : win5_2.index t (1 : Fin 2) = 0 := e.2.2.2.2.2.1
  unfold Gen.iblk5
  rw [View.read_apply]
  show V c (Pipeline.arrRef spec5 2) _ = V c (Pipeline.arrRef spec5 2) _
  refine congrArg (V c (Pipeline.arrRef spec5 2)) (funext fun a => Fin.ext ?_)
  match a with
  | ⟨0, _⟩ => show win5_2.index t (0 : Fin 2) * 1 + 1 * (y 0).val = (y 0).val; rw [ea]; omega
  | ⟨1, _⟩ => show win5_2.index t (1 : Fin 2) * 256 + 1 * (y 1).val = (y 1).val; rw [eb]; omega

/-- The mean row's block at every point is the row. -/
theorem row3_block5 (c : Dev nD) (t : Fin cfg5.N) (y : S1x256.Idx) :
    (Gen.iblk5 V c 3 t : Vec Ideal S1x256 .f32) y = (V c (Pipeline.arrRef spec5 3) : S1x256.Idx → EReal) y := by
  have e := index_facts5 t
  have ea : win5_3.index t (0 : Fin 2) = 0 := e.2.2.2.2.2.2.1
  have eb : win5_3.index t (1 : Fin 2) = 0 := e.2.2.2.2.2.2.2.1
  unfold Gen.iblk5
  rw [View.read_apply]
  show V c (Pipeline.arrRef spec5 3) _ = V c (Pipeline.arrRef spec5 3) _
  refine congrArg (V c (Pipeline.arrRef spec5 3)) (funext fun a => Fin.ext ?_)
  match a with
  | ⟨0, _⟩ => show win5_3.index t (0 : Fin 2) * 1 + 1 * (y 0).val = (y 0).val; rw [ea]; omega
  | ⟨1, _⟩ => show win5_3.index t (1 : Fin 2) * 256 + 1 * (y 1).val = (y 1).val; rw [eb]; omega

/-- The variance row's block at every point is the row. -/
theorem row4_block5 (c : Dev nD) (t : Fin cfg5.N) (y : S1x256.Idx) :
    (Gen.iblk5 V c 4 t : Vec Ideal S1x256 .f32) y = (V c (Pipeline.arrRef spec5 4) : S1x256.Idx → EReal) y := by
  have e := index_facts5 t
  have ea : win5_4.index t (0 : Fin 2) = 0 := e.2.2.2.2.2.2.2.2.1
  have eb : win5_4.index t (1 : Fin 2) = 0 := e.2.2.2.2.2.2.2.2.2.1
  unfold Gen.iblk5
  rw [View.read_apply]
  show V c (Pipeline.arrRef spec5 4) _ = V c (Pipeline.arrRef spec5 4) _
  refine congrArg (V c (Pipeline.arrRef spec5 4)) (funext fun a => Fin.ext ?_)
  match a with
  | ⟨0, _⟩ => show win5_4.index t (0 : Fin 2) * 1 + 1 * (y 0).val = (y 0).val; rw [ea]; omega
  | ⟨1, _⟩ => show win5_4.index t (1 : Fin 2) * 256 + 1 * (y 1).val = (y 1).val; rw [eb]; omega

/-- What point `t` writes back is block `t` of the normalisation of the whole operand. -/
theorem norm_flushed5 (c : Dev nD) (t : Fin cfg5.N) :
    (Gen.dat5 (F := Ideal) V c).flushed 5 t
      = ((cfg5.win 5).blk t).view.read (Elt Ideal)
          (Cert.Spec.bnRow (V c (Pipeline.arrRef spec5 0)) (V c (Pipeline.arrRef spec5 1))
            (V c (Pipeline.arrRef spec5 2)) (V c (Pipeline.arrRef spec5 3)) (V c (Pipeline.arrRef spec5 4))) := by
  show (cfg5.win 5).cut (grid5.coords t) ((Gen.dat5 V c).after 5 t) = _
  rw [Gen.after5_5]
  unfold Gen.out5_5
  rw [View.canon_unit_zero zero_offsets]
  simp only [View.ld_unit_zero (S := S5000x256) zero_offsets, View.ld_unit_zero (S := S1x256) zero_offsets]
  have e := index_facts5 t
  have e10 : win5_5.index t (0 : Fin 2) = t.val := e.2.2.2.2.2.2.2.2.2.2.1
  have e11 : win5_5.index t (1 : Fin 2) = 0 := e.2.2.2.2.2.2.2.2.2.2.2
  funext j
  rw [View.read_apply]
  refine bn_block_apply _ _ _ _ _ (Gen.iblk5 V c 0 t) (Gen.iblk5 V c 1 t) (Gen.iblk5 V c 2 t) (Gen.iblk5 V c 3 t)
    (Gen.iblk5 V c 4 t) _ (norm_pay5 _ _ _ _ _) t.val
    (pre_block5 V c t) (row1_block5 V c t) (row2_block5 V c t) (row3_block5 V c t) (row4_block5 V c t) j _ ?_ ?_
  · show win5_5.index t (0 : Fin 2) * 5000 + 1 * (j 0).val = t.val * 5000 + (j 0).val; rw [e10]; omega
  · show win5_5.index t (1 : Fin 2) * 256 + 1 * (j 1).val = (j 1).val; rw [e11]; omega

/-- An index of the output is in point `t`'s block iff each coordinate is in the block's range on its axis. -/
theorem norm_mem5 (t : Fin cfg5.N) (i : S100000x256.Idx) :
    i ∈ ((cfg5.win 5).blk t).view.set ↔ ∀ a : Fin 2, win5_5.index t a * S5000x256.size a ≤ (i a).val
      ∧ (i a).val < win5_5.index t a * S5000x256.size a + S5000x256.size a := by
  show i ∈ ((View.whole (Pipeline.arrRef spec5 5)).slice (win5_5.rect t)).set ↔ _
  rw [View.set_slice_whole, Rect.mem_set_unit]
  exact Iff.rfl

/-- Every index of the output is in the block of the point numbered by its row divided by 5000. -/
theorem norm_cover5 (i : S100000x256.Idx) :
    ∃ t : Fin cfg5.N, (cfg5.win 5).flush t = true ∧ i ∈ ((cfg5.win 5).blk t).view.set := by
  have hi0 : (i 0).val < 100000 := (i 0).isLt
  have hi1 : (i 1).val < 256 := (i 1).isLt
  have hN : cfg5.N = 20 := Gen.N_5
  obtain ⟨hq, hlo, hhi⟩ := row_in_block (i 0).val hi0
  refine ⟨⟨(i 0).val / 5000, by rw [hN]; exact hq⟩, Gen.flush5_5 _, ?_⟩
  rw [norm_mem5]
  have e := index_facts5 ⟨(i 0).val / 5000, by rw [hN]; exact hq⟩
  have e10 := e.2.2.2.2.2.2.2.2.2.2.1
  have e11 := e.2.2.2.2.2.2.2.2.2.2.2
  intro a
  match a with
  | ⟨0, _⟩ =>
    show win5_5.index _ (0 : Fin 2) * 5000 ≤ (i 0).val ∧ (i 0).val < win5_5.index _ (0 : Fin 2) * 5000 + 5000
    rw [e10]; exact ⟨hlo, hhi⟩
  | ⟨1, _⟩ =>
    show win5_5.index _ (1 : Fin 2) * 256 ≤ (i 1).val ∧ (i 1).val < win5_5.index _ (1 : Fin 2) * 256 + 256
    rw [e11]; omega

/-- The output array after the call: the normalisation of the whole operand with the four rows. -/
theorem norm5 (c : Dev nD) :
    (Gen.dat5 (F := Ideal) V c).arrAt 5 cfg5.N
      = Cert.Spec.bnRow (V c (Pipeline.arrRef spec5 0)) (V c (Pipeline.arrRef spec5 1))
          (V c (Pipeline.arrRef spec5 2)) (V c (Pipeline.arrRef spec5 3)) (V c (Pipeline.arrRef spec5 4)) :=
  (Gen.dat5 (F := Ideal) V c).arrAt_eq_of_cover 5 _ (fun t _ => norm_flushed5 V c t) norm_cover5

end Cert.KernelIdeal.RegionValue

end
-- ==== Proof.KLayer2.lean ====
/-
  Layer 2 of the kernel program, read off its run.

  Between the boundary before the layer and the boundary after it the program slices the layer's two matrices out of
  the stacks, runs the projection kernel (both products of the incoming features, row block by row block), forms the
  pre-normalisation value and its column statistics with host operations, lays the scale, shift, mean and variance out
  as [1, 256] rows, and runs the normalisation kernel. Each host stretch is read at the buffers that matter as a
  function of the contents it started from; each kernel region leaves in its output arrays the whole-array function
  of its input arrays; nothing in the layer writes an argument of the program.
-/
import proofs.«129831_j68247030334290_1_alg».proof.Proof.Gen.KernelIdeal.Frame
import proofs.«129831_j68247030334290_1_alg».proof.Proof.KLayer
import proofs.«129831_j68247030334290_1_alg».proof.Proof.Region4
import proofs.«129831_j68247030334290_1_alg».proof.Proof.Region5
import Idealize.ShloMosaic.Lib.StableHlo.Run

set_option maxRecDepth 16384

noncomputable section

namespace Cert.KernelIdeal.Layer2

open Idealize.ShloMosaic Idealize.SL.Sem Cert.KernelIdeal Cert.KernelIdeal.Gen Cert.Spec Cert.KLayer

/-- No operation of a literal host stretch writes the buffer read. -/
macro "stretch_keeps" : tactic => `(tactic| (
  refine StableHlo.after_of_forall_not_mem _ _ (List.forall_iff_forall_mem.mp ?_)
  simp only [hostOps4, hostOps5, hostOps5_1, hostOps5_2, List.Forall, StableHlo.nullary_writes, StableHlo.unary_writes, StableHlo.binary_writes,
    StableHlo.ternary_writes, StableHlo.quaternary_writes, StableHlo.reshape_writes, Finset.mem_singleton]
  repeat' apply And.intro
  all_goals exact StableHlo.devRef_ne_of_ne (by decide)))

section Stretches

variable {F : FTy → Type} [FloatOps F] (W : Valuation τ sig (Elt F))

/-- The layer's matrices, sliced out of the stacks. -/
theorem weights_W : StableHlo.after (hostOps4 (F := F)) W (Proc.devRef .tc main_v65) = mat2 (W (Proc.devRef .tc main_arg2)) := by
  after_results
  rfl
theorem weights_SW : StableHlo.after (hostOps4 (F := F)) W (Proc.devRef .tc main_v67) = mat2 (W (Proc.devRef .tc main_arg3)) := by
  after_results
  rfl

/-- The contents after the three stretches between the two kernels. -/
abbrev mid : Valuation τ sig (Elt F) :=
  StableHlo.after (hostOps5_2 (F := F)) (StableHlo.after (hostOps5_1 (F := F)) (StableHlo.after (hostOps5 (F := F)) W))

attribute [local irreducible] Host.gather Host.scatterAdd Host.reduceAdd in
set_option maxHeartbeats 1000000 in
/-- The pre-normalisation value, from the two projections. -/
theorem mid_pre : mid W (Proc.devRef .tc main_v82)
    = preK (W (Proc.devRef .tc main_v68_0)) (W (Proc.devRef .tc main_v68_1)) (W (Proc.devRef .tc main_arg1))
        (W (Proc.devRef .tc main_arg6)) (W (Proc.devRef .tc main_arg7)) := by
  after_results_simp
  unfold preK segsum gath spread wrapIdx
  rfl

attribute [local irreducible] Host.gather Host.scatterAdd Host.reduceAdd in
set_option maxHeartbeats 1000000 in
/-- The scale and the shift as rows. -/
theorem mid_scale : mid W (Proc.devRef .tc main_v91) = rowOf (col2 (W (Proc.devRef .tc main_arg4))) := by
  after_results_simp
  unfold rowOf col2
  rfl
attribute [local irreducible] Host.gather Host.scatterAdd Host.reduceAdd in
set_option maxHeartbeats 1000000 in
theorem mid_shift : mid W (Proc.devRef .tc main_v92) = rowOf (col2 (W (Proc.devRef .tc main_arg5))) := by
  after_results_simp
  unfold rowOf col2
  rfl

attribute [local irreducible] Host.gather Host.scatterAdd Host.reduceAdd in
set_option maxHeartbeats 1000000 in
/-- The column means as a row. -/
theorem mid_mean : mid W (Proc.devRef .tc main_v93)
    = rowOf (meanOf (preK (W (Proc.devRef .tc main_v68_0)) (W (Proc.devRef .tc main_v68_1)) (W (Proc.devRef .tc main_arg1))
        (W (Proc.devRef .tc main_arg6)) (W (Proc.devRef .tc main_arg7)))) := by
  after_results_simp
  unfold rowOf meanOf preK segsum gath spread wrapIdx
  rfl

attribute [local irreducible] Host.gather Host.scatterAdd Host.reduceAdd in
set_option maxHeartbeats 1000000 in
/-- The column variances as a row. -/
theorem mid_var : mid W (Proc.devRef .tc main_v94)
    = rowOf (varOf (preK (W (Proc.devRef .tc main_v68_0)) (W (Proc.devRef .tc main_v68_1)) (W (Proc.devRef .tc main_arg1))
        (W (Proc.devRef .tc main_arg6)) (W (Proc.devRef .tc main_arg7)))) := by
  after_results_simp
  unfold rowOf varOf preK segsum gath spread wrapIdx
  rfl

end Stretches

variable (m : (ℓ : Loc nD τ sig) → Buf (Elt Ideal) ℓ) (ρ : Dev nD → PrngReg)

/-- The projection kernel's two results at the boundary after it. -/
theorem support_at (c : Dev nD) : W14 m ρ c (Proc.devRef .tc main_v68_0)
    = proj (W13 m ρ c (Proc.devRef .tc main_v63)) (W13 m ρ c (Proc.devRef .tc main_v65)) :=
  (W14_arr m ρ c 3).trans (Cert.KernelIdeal.RegionValue.support4 (V13 m ρ) c)
theorem self_at (c : Dev nD) : W14 m ρ c (Proc.devRef .tc main_v68_1)
    = proj (W13 m ρ c (Proc.devRef .tc main_v63)) (W13 m ρ c (Proc.devRef .tc main_v67)) :=
  (W14_arr m ρ c 4).trans (Cert.KernelIdeal.RegionValue.self4 (V13 m ρ) c)

/-- The normalisation kernel's result at the boundary after it. -/
theorem norm_at (c : Dev nD) : W18 m ρ c (Proc.devRef .tc main_v95)
    = bnRow (W17 m ρ c (Proc.devRef .tc main_v82)) (W17 m ρ c (Proc.devRef .tc main_v91)) (W17 m ρ c (Proc.devRef .tc main_v92))
        (W17 m ρ c (Proc.devRef .tc main_v93)) (W17 m ρ c (Proc.devRef .tc main_v94)) :=
  (W18_arr m ρ c 5).trans (Cert.KernelIdeal.RegionValue.norm5 (V17 m ρ) c)

/-- A buffer no operation and no kernel of the layer writes, from the boundary after the projection kernel back to the
    boundary before the layer. -/
theorem kept_front (c : Dev nD) (b : Ref sig .tc) (hb : b = main_arg1 ∨ b = main_arg2 ∨ b = main_arg3 ∨ b = main_arg4 ∨ b = main_arg5 ∨ b = main_arg6 ∨ b = main_arg7 ∨ b = main_arg0) :
    W14 m ρ c (Proc.devRef .tc b) = W12 m ρ c (Proc.devRef .tc b) := by
  rcases hb with rfl | rfl | rfl | rfl | rfl | rfl | rfl | rfl <;>
  · refine (W14_of_ne m ρ c _ (by decide)).trans ?_
    stretch_keeps

/-- The same from the boundary after the layer back to the boundary after the projection kernel. -/
theorem kept_back (c : Dev nD) (b : Ref sig .tc) (hb : b = main_arg0 ∨ b = main_arg1 ∨ b = main_arg2 ∨ b = main_arg3 ∨ b = main_arg4 ∨ b = main_arg5 ∨ b = main_arg6 ∨ b = main_arg7) :
    W18 m ρ c (Proc.devRef .tc b) = W14 m ρ c (Proc.devRef .tc b) := by
  rcases hb with rfl | rfl | rfl | rfl | rfl | rfl | rfl | rfl <;>
  · refine (W18_of_ne m ρ c _ (by decide)).trans ?_
    refine Eq.trans (b := W16 m ρ c _) (by stretch_keeps) ?_
    refine Eq.trans (b := W15 m ρ c _) (by stretch_keeps) ?_
    stretch_keeps

/-- Every argument of the program is, after the layer, what it was before it. -/
theorem kept (c : Dev nD) (b : Ref sig .tc) (hb : b = main_arg0 ∨ b = main_arg1 ∨ b = main_arg2 ∨ b = main_arg3 ∨ b = main_arg4 ∨ b = main_arg5 ∨ b = main_arg6 ∨ b = main_arg7) :
    W18 m ρ c (Proc.devRef .tc b) = W12 m ρ c (Proc.devRef .tc b) := by
  refine (kept_back m ρ c b hb).trans ?_
  rcases hb with rfl | hb
  · exact kept_front m ρ c _ (by simp)
  · exact kept_front m ρ c b (by tauto)

/-- The layer's result, from the features and the arguments at the boundary before it. -/
theorem value (c : Dev nD) : W18 m ρ c (Proc.devRef .tc main_v95)
    = layerK (W12 m ρ c (Proc.devRef .tc main_v63)) (mat2 (W12 m ρ c (Proc.devRef .tc main_arg2))) (mat2 (W12 m ρ c (Proc.devRef .tc main_arg3)))
        (col2 (W12 m ρ c (Proc.devRef .tc main_arg4))) (col2 (W12 m ρ c (Proc.devRef .tc main_arg5)))
        (W12 m ρ c (Proc.devRef .tc main_arg1)) (W12 m ρ c (Proc.devRef .tc main_arg6)) (W12 m ρ c (Proc.devRef .tc main_arg7)) := by
  -- the features and the two matrices at the projection kernel's entry
  have hx : W13 m ρ c (Proc.devRef .tc main_v63) = W12 m ρ c (Proc.devRef .tc main_v63) := by stretch_keeps
  have hw : W13 m ρ c (Proc.devRef .tc main_v65) = mat2 (W12 m ρ c (Proc.devRef .tc main_arg2)) := weights_W (W12 m ρ c)
  have hsw : W13 m ρ c (Proc.devRef .tc main_v67) = mat2 (W12 m ρ c (Proc.devRef .tc main_arg3)) := weights_SW (W12 m ρ c)
  -- the edge data and the stacked vectors at the projection kernel's exit
  have k1 := kept_front m ρ c main_arg1 (by simp)
  have k4 := kept_front m ρ c main_arg4 (by simp)
  have k5 := kept_front m ρ c main_arg5 (by simp)
  have k6 := kept_front m ρ c main_arg6 (by simp)
  have k7 := kept_front m ρ c main_arg7 (by simp)
  rw [norm_at, show W17 m ρ c = mid (W14 m ρ c) from rfl, mid_pre, mid_scale, mid_shift, mid_mean, mid_var,
    support_at, self_at, hx, hw, hsw, k1, k4, k5, k6, k7]
  rfl

end Cert.KernelIdeal.Layer2

end
-- ==== Proof.Region6.lean ====
/-
  What the projection body of the program's kernel call 6 leaves in its two output arrays.

  The call runs over twenty row blocks of 5000 rows. At block `t` the body multiplies rows `5000 t … 5000 t + 4999` of
  the features by each of the two matrices and stores the two products; each is written back to the same rows of its
  output array. So block `t` of each output is block `t` of the host's product of the whole features with that matrix,
  the blocks tile the array, and the array ends holding the whole product.
-/
import proofs.«129831_j68247030334290_1_alg».proof.Proof.Gen.KernelIdeal.Frame
import proofs.«129831_j68247030334290_1_alg».proof.Proof.RegionLib

noncomputable section

open Idealize.ShloMosaic Idealize.ShloMosaic.ValueIdx Idealize.ShloMosaic.TcCoe Idealize.SL.Sem
open Idealize.ShloMosaic.Pipeline (Dat)
open scoped BigOperators

namespace Cert.KernelIdeal.RegionValue

open Cert.KernelIdeal Cert.KernelIdeal.Gen Cert.RowBlocks

variable (V : (c : Dev nD) → (b : Ref sig .tc) → Buf (Elt Ideal) ((c : Thread nD τ).loc b))

/-- The first product's payload at `(p, f)`: row `p` of the block against column `f` of the first matrix. -/
theorem support_pay6 (x : Vec Ideal S5000x256 .f32) (w : Vec Ideal S256x256 .f32) (p : Fin 5000) (f : Fin 256) :
    Gen.k6_pay2 (F := Ideal) x w (ix2 p f) = ∑ d : Fin 256, x (ix2 p d) * w (ix2 d f) := by
  unfold Gen.k6_pay2 Gen.k6_pay1
  simp only [shapeCast_self (s := S5000x256)]
  exact dense_body_apply _ rfl _ _ x w p f

/-- The second product's payload at `(p, f)`: row `p` of the block against column `f` of the second matrix. -/
theorem self_pay6 (x : Vec Ideal S5000x256 .f32) (w : Vec Ideal S256x256 .f32) (p : Fin 5000) (f : Fin 256) :
    Gen.k6_pay3 (F := Ideal) x w (ix2 p f) = ∑ d : Fin 256, x (ix2 p d) * w (ix2 d f) := by
  unfold Gen.k6_pay3 Gen.k6_pay1
  simp only [shapeCast_self (s := S5000x256)]
  exact dense_body_apply _ rfl _ _ x w p f

/-- The index maps over the grid: the features' block and both outputs' blocks at point `t` are the `t`-th row block;
    the matrices' one block is the whole matrix. -/
theorem index_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- The features' block at point `t` is rows `5000 t …` of the features. -/
theorem feat_block6 (c : Dev nD) (t : Fin cfg6.N) (y : S5000x256.Idx) (k : S100000x256.Idx)
    (hk0 : (k 0).val = t.val * 5000 + (y 0).val) (hk1 : (k 1).val = (y 1).val) :
    (Gen.iblk6 V c 0 t : Vec Ideal S5000x256 .f32) y = (V c (Pipeline.arrRef spec6 0) : S100000x256.Idx → EReal) k := by
  obtain ⟨e0, e1, -⟩ := index_facts6 t
  unfold Gen.iblk6
  rw [View.read_apply]
  show V c (Pipeline.arrRef spec6 0) _ = V c (Pipeline.arrRef spec6 0) _
  refine congrArg (V c (Pipeline.arrRef spec6 0)) (funext fun a => Fin.ext ?_)
  match a with
  | ⟨0, _⟩ => show win6_0.index t (0 : Fin 2) * 5000 + 1 * (y 0).val = (k 0).val; rw [e0, hk0]; omega
  | ⟨1, _⟩ => show win6_0.index t (1 : Fin 2) * 256 + 1 * (y 1).val = (k 1).val; rw [e1, hk1]; omega

/-- The first matrix's block at every point is the matrix. -/
theorem mat1_block6 (c : Dev nD) (t : Fin cfg6.N) (y : S256x256.Idx) :
    (Gen.iblk6 V c 1 t : Vec Ideal S256x256 .f32) y = (V c (Pipeline.arrRef spec6 1) : S256x256.Idx → EReal) y := by
  obtain ⟨-, -, e2, e3, -⟩ := index_facts6 t
  unfold Gen.iblk6
  rw [View.read_apply]
  show V c (Pipeline.arrRef spec6 1) _ = V c (Pipeline.arrRef spec6 1) _
  refine congrArg (V c (Pipeline.arrRef spec6 1)) (funext fun a => Fin.ext ?_)
  match a with
  | ⟨0, _⟩ => show win6_1.index t (0 : Fin 2) * 256 + 1 * (y 0).val = (y 0).val; rw [e2]; omega
  | ⟨1, _⟩ => show win6_1.index t (1 : Fin 2) * 256 + 1 * (y 1).val = (y 1).val; rw [e3]; omega

/-- The second matrix's block at every point is the matrix. -/
theorem mat2_block6 (c : Dev nD) (t : Fin cfg6.N) (y : S256x256.Idx) :
    (Gen.iblk6 V c 2 t : Vec Ideal S256x256 .f32) y = (V c (Pipeline.arrRef spec6 2) : S256x256.Idx → EReal) y := by
  obtain ⟨-, -, -, -, e4, e5, -⟩ := index_facts6 t
  unfold Gen.iblk6
  rw [View.read_apply]
  show V c (Pipeline.arrRef spec6 2) _ = V c (Pipeline.arrRef spec6 2) _
  refine congrArg (V c (Pipeline.arrRef spec6 2)) (funext fun a => Fin.ext ?_)
  match a with
  | ⟨0, _⟩ => show win6_2.index t (0 : Fin 2) * 256 + 1 * (y 0).val = (y 0).val; rw [e4]; omega
  | ⟨1, _⟩ => show win6_2.index t (1 : Fin 2) * 256 + 1 * (y 1).val = (y 1).val; rw [e5]; omega

/-- What point `t` writes back to the first output is block `t` of the product of the features with the first matrix. -/
theorem support_flushed6 (c : Dev nD) (t : Fin cfg6.N) :
    (Gen.dat6 (F := Ideal) V c).flushed 3 t
      = ((cfg6.win 3).blk t).view.read (Elt Ideal)
          (Cert.Spec.proj (F := Ideal) (V c (Pipeline.arrRef spec6 0)) (V c (Pipeline.arrRef spec6 1))) := by
  show (cfg6.win 3).cut (grid6.coords t) ((Gen.dat6 V c).after 3 t) = _
  rw [Gen.after6_3]
  unfold Gen.out6_3
  rw [View.canon_unit_zero zero_offsets]
  simp only [View.ld_unit_zero (S := S5000x256) zero_offsets, View.ld_unit_zero (S := S256x256) zero_offsets]
  obtain ⟨-, -, -, -, -, -, e6, e7, -⟩ := index_facts6 t
  funext j
  rw [View.read_apply]
  refine dense_block_apply _ _ (Gen.iblk6 V c 0 t) (Gen.iblk6 V c 1 t) _ (support_pay6 _ _) t.val
    (feat_block6 V c t) (mat1_block6 V c t) j _ ?_ ?_
  · show win6_3.index t (0 : Fin 2) * 5000 + 1 * (j 0).val = t.val * 5000 + (j 0).val; rw [e6]; omega
  · show win6_3.index t (1 : Fin 2) * 256 + 1 * (j 1).val = (j 1).val; rw [e7]; omega

/-- What point `t` writes back to the second output is block `t` of the product of the features with the second matrix. -/
theorem self_flushed6 (c : Dev nD) (t : Fin cfg6.N) :
    (Gen.dat6 (F := Ideal) V c).flushed 4 t
      = ((cfg6.win 4).blk t).view.read (Elt Ideal)
          (Cert.Spec.proj (F := Ideal) (V c (Pipeline.arrRef spec6 0)) (V c (Pipeline.arrRef spec6 2))) := by
  show (cfg6.win 4).cut (grid6.coords t) ((Gen.dat6 V c).after 4 t) = _
  rw [Gen.after6_4]
  unfold Gen.out6_4
  rw [View.canon_unit_zero zero_offsets]
  simp only [View.ld_unit_zero (S := S5000x256) zero_offsets, View.ld_unit_zero (S := S256x256) zero_offsets]
  obtain ⟨-, -, -, -, -, -, -, -, e8, e9⟩ := index_facts6 t
  funext j
  rw [View.read_apply]
  refine dense_block_apply _ _ (Gen.iblk6 V c 0 t) (Gen.iblk6 V c 2 t) _ (self_pay6 _ _) t.val
    (feat_block6 V c t) (mat2_block6 V c t) j _ ?_ ?_
  · show win6_4.index t (0 : Fin 2) * 5000 + 1 * (j 0).val = t.val * 5000 + (j 0).val; rw [e8]; omega
  · show win6_4.index t (1 : Fin 2) * 256 + 1 * (j 1).val = (j 1).val; rw [e9]; omega

/-- An index of the first output is in point `t`'s block iff each coordinate is in the block's range on its axis. -/
theorem support_mem6 (t : Fin cfg6.N) (i : S100000x256.Idx) :
    i ∈ ((cfg6.win 3).blk t).view.set ↔ ∀ a : Fin 2, win6_3.index t a * S5000x256.size a ≤ (i a).val
      ∧ (i a).val < win6_3.index t a * S5000x256.size a + S5000x256.size a := by
  show i ∈ ((View.whole (Pipeline.arrRef spec6 3)).slice (win6_3.rect t)).set ↔ _
  rw [View.set_slice_whole, Rect.mem_set_unit]
  exact Iff.rfl

/-- The same for the second output. -/
theorem self_mem6 (t : Fin cfg6.N) (i : S100000x256.Idx) :
    i ∈ ((cfg6.win 4).blk t).view.set ↔ ∀ a : Fin 2, win6_4.index t a * S5000x256.size a ≤ (i a).val
      ∧ (i a).val < win6_4.index t a * S5000x256.size a + S5000x256.size a := by
  show i ∈ ((View.whole (Pipeline.arrRef spec6 4)).slice (win6_4.rect t)).set ↔ _
  rw [View.set_slice_whole, Rect.mem_set_unit]
  exact Iff.rfl

/-- Every index of the first output is in the block of the point numbered by its row divided by 5000. -/
theorem support_cover6 (i : S100000x256.Idx) :
    ∃ t : Fin cfg6.N, (cfg6.win 3).flush t = true ∧ i ∈ ((cfg6.win 3).blk t).view.set := by
  have hi0 : (i 0).val < 100000 := (i 0).isLt
  have hi1 : (i 1).val < 256 := (i 1).isLt
  have hN : cfg6.N = 20 := Gen.N_6
  obtain ⟨hq, hlo, hhi⟩ := row_in_block (i 0).val hi0
  refine ⟨⟨(i 0).val / 5000, by rw [hN]; exact hq⟩, Gen.flush6_3 _, ?_⟩
  rw [support_mem6]
  obtain ⟨-, -, -, -, -, -, e6, e7, -⟩ := index_facts6 ⟨(i 0).val / 5000, by rw [hN]; exact hq⟩
  intro a
  match a with
  | ⟨0, _⟩ =>
    show win6_3.index _ (0 : Fin 2) * 5000 ≤ (i 0).val ∧ (i 0).val < win6_3.index _ (0 : Fin 2) * 5000 + 5000
    rw [e6]; exact ⟨hlo, hhi⟩
  | ⟨1, _⟩ =>
    show win6_3.index _ (1 : Fin 2) * 256 ≤ (i 1).val ∧ (i 1).val < win6_3.index _ (1 : Fin 2) * 256 + 256
    rw [e7]; omega

/-- The same for the second output. -/
theorem self_cover6 (i : S100000x256.Idx) :
    ∃ t : Fin cfg6.N, (cfg6.win 4).flush t = true ∧ i ∈ ((cfg6.win 4).blk t).view.set := by
  have hi0 : (i 0).val < 100000 := (i 0).isLt
  have hi1 : (i 1).val < 256 := (i 1).isLt
  have hN : cfg6.N = 20 := Gen.N_6
  obtain ⟨hq, hlo, hhi⟩ := row_in_block (i 0).val hi0
  refine ⟨⟨(i 0).val / 5000, by rw [hN]; exact hq⟩, Gen.flush6_4 _, ?_⟩
  rw [self_mem6]
  obtain ⟨-, -, -, -, -, -, -, -, e8, e9⟩ := index_facts6 ⟨(i 0).val / 5000, by rw [hN]; exact hq⟩
  intro a
  match a with
  | ⟨0, _⟩ =>
    show win6_4.index _ (0 : Fin 2) * 5000 ≤ (i 0).val ∧ (i 0).val < win6_4.index _ (0 : Fin 2) * 5000 + 5000
    rw [e8]; exact ⟨hlo, hhi⟩
  | ⟨1, _⟩ =>
    show win6_4.index _ (1 : Fin 2) * 256 ≤ (i 1).val ∧ (i 1).val < win6_4.index _ (1 : Fin 2) * 256 + 256
    rw [e9]; omega

/-- The first output array after the call: the product of the features with the first matrix. -/
theorem support6 (c : Dev nD) :
    (Gen.dat6 (F := Ideal) V c).arrAt 3 cfg6.N
      = Cert.Spec.proj (F := Ideal) (V c (Pipeline.arrRef spec6 0)) (V c (Pipeline.arrRef spec6 1)) :=
  (Gen.dat6 (F := Ideal) V c).arrAt_eq_of_cover 3 _ (fun t _ => support_flushed6 V c t) support_cover6

/-- The second output array after the call: the product of the features with the second matrix. -/
theorem self6 (c : Dev nD) :
    (Gen.dat6 (F := Ideal) V c).arrAt 4 cfg6.N
      = Cert.Spec.proj (F := Ideal) (V c (Pipeline.arrRef spec6 0)) (V c (Pipeline.arrRef spec6 2)) :=
  (Gen.dat6 (F := Ideal) V c).arrAt_eq_of_cover 4 _ (fun t _ => self_flushed6 V c t) self_cover6

end Cert.KernelIdeal.RegionValue

end
-- ==== Proof.Region7.lean ====
/-
  What the normalisation body of the program's kernel call 7 leaves in its output array.

  The call runs over twenty row blocks of 5000 rows. At block `t` the body takes rows `5000 t … 5000 t + 4999` of its
  first operand and the four [1, 256] rows (scale, shift, mean, variance), spreads the rows over the block, and stores
  `max (scale · (x − mean) · rsqrt (variance + ε) + shift) 0` entry by entry; the block is written back to the same rows
  of the output array. So block `t` of the output is block `t` of the normalisation of the whole operand, the blocks tile
  the array, and the array ends holding the whole normalisation.
-/
import proofs.«129831_j68247030334290_1_alg».proof.Proof.Gen.KernelIdeal.Frame
import proofs.«129831_j68247030334290_1_alg».proof.Proof.RegionLib

noncomputable section

open Idealize.ShloMosaic Idealize.ShloMosaic.ValueIdx Idealize.ShloMosaic.TcCoe Idealize.SL.Sem
open Idealize.ShloMosaic.Pipeline (Dat)

namespace Cert.KernelIdeal.RegionValue

open Cert.KernelIdeal Cert.KernelIdeal.Gen Cert.RowBlocks

variable (V : (c : Dev nD) → (b : Ref sig .tc) → Buf (Elt Ideal) ((c : Thread nD τ).loc b))

/-- The body's payload at `(p, f)`: the entry normalised with column `f`'s scale, shift, mean and variance. -/
theorem norm_pay7 (x : Vec Ideal S5000x256 .f32) (g b mu v : Vec Ideal S1x256 .f32) (p : Fin 5000) (f : Fin 256) :
    Gen.k7_pay1 (F := Ideal) x g b mu v (ix2 p f)
      = max (g (ix2 (0 : Fin 1) f) * (x (ix2 p f) - mu (ix2 (0 : Fin 1) f))
            * Ideal.rsqrt (v (ix2 (0 : Fin 1) f) + Ideal.ofBits .f32 0x3727C5AC#32)
          + b (ix2 (0 : Fin 1) f))
        (Ideal.ofBits .f32 0x00000000#32) := by
  unfold Gen.k7_pay1
  exact bn_body_apply _ _ _ x g b mu v p f

/-- The index maps over the grid: the operand's block and the output's block at point `t` are the `t`-th row block; each
    row's one block is the whole row. -/
theorem index_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- The operand's block at point `t` is rows `5000 t …` of the operand. -/
theorem pre_block7 (c : Dev nD) (t : Fin cfg7.N) (y : S5000x256.Idx) (k : S100000x256.Idx)
    (hk0 : (k 0).val = t.val * 5000 + (y 0).val) (hk1 : (k 1).val = (y 1).val) :
    (Gen.iblk7 V c 0 t : Vec Ideal S5000x256 .f32) y = (V c (Pipeline.arrRef spec7 0) : S100000x256.Idx → EReal) k := by
  obtain ⟨e0, e1, -⟩ := index_facts7 t
  unfold Gen.iblk7
  rw [View.read_apply]
  show V c (Pipeline.arrRef spec7 0) _ = V c (Pipeline.arrRef spec7 0) _
  refine congrArg (V c (Pipeline.arrRef spec7 0)) (funext fun a => Fin.ext ?_)
  match a with
  | ⟨0, _⟩ => show win7_0.index t (0 : Fin 2) * 5000 + 1 * (y 0).val = (k 0).val; rw [e0, hk0]; omega
  | ⟨1, _⟩ => show win7_0.index t (1 : Fin 2) * 256 + 1 * (y 1).val = (k 1).val; rw [e1, hk1]; omega

/-- The scale row's block at every point is the row. -/
theorem row1_block7 (c : Dev nD) (t : Fin cfg7.N) (y : S1x256.Idx) :
    (Gen.iblk7 V c 1 t : Vec Ideal S1x256 .f32) y = (V c (Pipeline.arrRef spec7 1) : S1x256.Idx → EReal) y := by
  have e := index_facts7 t
  have ea : win7_1.index t (0 : Fin 2) = 0 := e.2.2.1
  have eb : win7_1.index t (1 : Fin 2) = 0 := e.2.2.2.1
  unfold Gen.iblk7
  rw [View.read_apply]
  show V c (Pipeline.arrRef spec7 1) _ = V c (Pipeline.arrRef spec7 1) _
  refine congrArg (V c (Pipeline.arrRef spec7 1)) (funext fun a => Fin.ext ?_)
  match a with
  | ⟨0, _⟩ => show win7_1.index t (0 : Fin 2) * 1 + 1 * (y 0).val = (y 0).val; rw [ea]; omega
  | ⟨1, _⟩ => show win7_1.index t (1 : Fin 2) * 256 + 1 * (y 1).val = (y 1).val; rw [eb]; omega

/-- The shift row's block at every point is the row. -/
theorem row2_block7 (c : Dev nD) (t : Fin cfg7.N) (y : S1x256.Idx) :
    (Gen.iblk7 V c 2 t : Vec Ideal S1x256 .f32) y = (V c (Pipeline.arrRef spec7 2) : S1x256.Idx → EReal) y := by
  have e := index_facts7 t
  have ea : win7_2.index t (0 : Fin 2) = 0 := e.2.2.2.2.1
  have eb : win7_2.index t (1 : Fin 2) = 0 := e.2.2.2.2.2.1
  unfold Gen.iblk7
  rw [View.read_apply]
  show V c (Pipeline.arrRef spec7 2) _ = V c (Pipeline.arrRef spec7 2) _
  refine congrArg (V c (Pipeline.arrRef spec7 2)) (funext fun a => Fin.ext ?_)
  match a with
  | ⟨0, _⟩ => show win7_2.index t (0 : Fin 2) * 1 + 1 * (y 0).val = (y 0).val; rw [ea]; omega
  | ⟨1, _⟩ => show win7_2.index t (1 : Fin 2) * 256 + 1 * (y 1).val = (y 1).val; rw [eb]; omega

/-- The mean row's block at every point is the row. -/
theorem row3_block7 (c : Dev nD) (t : Fin cfg7.N) (y : S1x256.Idx) :
    (Gen.iblk7 V c 3 t : Vec Ideal S1x256 .f32) y = (V c (Pipeline.arrRef spec7 3) : S1x256.Idx → EReal) y := by
  have e := index_facts7 t
  have ea : win7_3.index t (0 : Fin 2) = 0 := e.2.2.2.2.2.2.1
  have eb : win7_3.index t (1 : Fin 2) = 0 := e.2.2.2.2.2.2.2.1
  unfold Gen.iblk7
  rw [View.read_apply]
  show V c (Pipeline.arrRef spec7 3) _ = V c (Pipeline.arrRef spec7 3) _
  refine congrArg (V c (Pipeline.arrRef spec7 3)) (funext fun a => Fin.ext ?_)
  match a with
  | ⟨0, _⟩ => show win7_3.index t (0 : Fin 2) * 1 + 1 * (y 0).val = (y 0).val; rw [ea]; omega
  | ⟨1, _⟩ => show win7_3.index t (1 : Fin 2) * 256 + 1 * (y 1).val = (y 1).val; rw [eb]; omega

/-- The variance row's block at every point is the row. -/
theorem row4_block7 (c : Dev nD) (t : Fin cfg7.N) (y : S1x256.Idx) :
    (Gen.iblk7 V c 4 t : Vec Ideal S1x256 .f32) y = (V c (Pipeline.arrRef spec7 4) : S1x256.Idx → EReal) y := by
  have e := index_facts7 t
  have ea : win7_4.index t (0 : Fin 2) = 0 := e.2.2.2.2.2.2.2.2.1
  have eb : win7_4.index t (1 : Fin 2) = 0 := e.2.2.2.2.2.2.2.2.2.1
  unfold Gen.iblk7
  rw [View.read_apply]
  show V c (Pipeline.arrRef spec7 4) _ = V c (Pipeline.arrRef spec7 4) _
  refine congrArg (V c (Pipeline.arrRef spec7 4)) (funext fun a => Fin.ext ?_)
  match a with
  | ⟨0, _⟩ => show win7_4.index t (0 : Fin 2) * 1 + 1 * (y 0).val = (y 0).val; rw [ea]; omega
  | ⟨1, _⟩ => show win7_4.index t (1 : Fin 2) * 256 + 1 * (y 1).val = (y 1).val; rw [eb]; omega

/-- What point `t` writes back is block `t` of the normalisation of the whole operand. -/
theorem norm_flushed7 (c : Dev nD) (t : Fin cfg7.N) :
    (Gen.dat7 (F := Ideal) V c).flushed 5 t
      = ((cfg7.win 5).blk t).view.read (Elt Ideal)
          (Cert.Spec.bnRow (V c (Pipeline.arrRef spec7 0)) (V c (Pipeline.arrRef spec7 1))
            (V c (Pipeline.arrRef spec7 2)) (V c (Pipeline.arrRef spec7 3)) (V c (Pipeline.arrRef spec7 4))) := by
  show (cfg7.win 5).cut (grid7.coords t) ((Gen.dat7 V c).after 5 t) = _
  rw [Gen.after7_5]
  unfold Gen.out7_5
  rw [View.canon_unit_zero zero_offsets]
  simp only [View.ld_unit_zero (S := S5000x256) zero_offsets, View.ld_unit_zero (S := S1x256) zero_offsets]
  have e := index_facts7 t
  have e10 : win7_5.index t (0 : Fin 2) = t.val := e.2.2.2.2.2.2.2.2.2.2.1
  have e11 : win7_5.index t (1 : Fin 2) = 0 := e.2.2.2.2.2.2.2.2.2.2.2
  funext j
  rw [View.read_apply]
  refine bn_block_apply _ _ _ _ _ (Gen.iblk7 V c 0 t) (Gen.iblk7 V c 1 t) (Gen.iblk7 V c 2 t) (Gen.iblk7 V c 3 t)
    (Gen.iblk7 V c 4 t) _ (norm_pay7 _ _ _ _ _) t.val
    (pre_block7 V c t) (row1_block7 V c t) (row2_block7 V c t) (row3_block7 V c t) (row4_block7 V c t) j _ ?_ ?_
  · show win7_5.index t (0 : Fin 2) * 5000 + 1 * (j 0).val = t.val * 5000 + (j 0).val; rw [e10]; omega
  · show win7_5.index t (1 : Fin 2) * 256 + 1 * (j 1).val = (j 1).val; rw [e11]; omega

/-- An index of the output is in point `t`'s block iff each coordinate is in the block's range on its axis. -/
theorem norm_mem7 (t : Fin cfg7.N) (i : S100000x256.Idx) :
    i ∈ ((cfg7.win 5).blk t).view.set ↔ ∀ a : Fin 2, win7_5.index t a * S5000x256.size a ≤ (i a).val
      ∧ (i a).val < win7_5.index t a * S5000x256.size a + S5000x256.size a := by
  show i ∈ ((View.whole (Pipeline.arrRef spec7 5)).slice (win7_5.rect t)).set ↔ _
  rw [View.set_slice_whole, Rect.mem_set_unit]
  exact Iff.rfl

/-- Every index of the output is in the block of the point numbered by its row divided by 5000. -/
theorem norm_cover7 (i : S100000x256.Idx) :
    ∃ t : Fin cfg7.N, (cfg7.win 5).flush t = true ∧ i ∈ ((cfg7.win 5).blk t).view.set := by
  have hi0 : (i 0).val < 100000 := (i 0).isLt
  have hi1 : (i 1).val < 256 := (i 1).isLt
  have hN : cfg7.N = 20 := Gen.N_7
  obtain ⟨hq, hlo, hhi⟩ := row_in_block (i 0).val hi0
  refine ⟨⟨(i 0).val / 5000, by rw [hN]; exact hq⟩, Gen.flush7_5 _, ?_⟩
  rw [norm_mem7]
  have e := index_facts7 ⟨(i 0).val / 5000, by rw [hN]; exact hq⟩
  have e10 := e.2.2.2.2.2.2.2.2.2.2.1
  have e11 := e.2.2.2.2.2.2.2.2.2.2.2
  intro a
  match a with
  | ⟨0, _⟩ =>
    show win7_5.index _ (0 : Fin 2) * 5000 ≤ (i 0).val ∧ (i 0).val < win7_5.index _ (0 : Fin 2) * 5000 + 5000
    rw [e10]; exact ⟨hlo, hhi⟩
  | ⟨1, _⟩ =>
    show win7_5.index _ (1 : Fin 2) * 256 ≤ (i 1).val ∧ (i 1).val < win7_5.index _ (1 : Fin 2) * 256 + 256
    rw [e11]; omega

/-- The output array after the call: the normalisation of the whole operand with the four rows. -/
theorem norm7 (c : Dev nD) :
    (Gen.dat7 (F := Ideal) V c).arrAt 5 cfg7.N
      = Cert.Spec.bnRow (V c (Pipeline.arrRef spec7 0)) (V c (Pipeline.arrRef spec7 1))
          (V c (Pipeline.arrRef spec7 2)) (V c (Pipeline.arrRef spec7 3)) (V c (Pipeline.arrRef spec7 4)) :=
  (Gen.dat7 (F := Ideal) V c).arrAt_eq_of_cover 5 _ (fun t _ => norm_flushed7 V c t) norm_cover7

end Cert.KernelIdeal.RegionValue

end
-- ==== Proof.KLayer3.lean ====
/-
  Layer 3 of the kernel program, read off its run.

  Between the boundary before the layer and the boundary after it the program slices the layer's two matrices out of
  the stacks, runs the projection kernel (both products of the incoming features, row block by row block), forms the
  pre-normalisation value and its column statistics with host operations, lays the scale, shift, mean and variance out
  as [1, 256] rows, and runs the normalisation kernel. Each host stretch is read at the buffers that matter as a
  function of the contents it started from; each kernel region leaves in its output arrays the whole-array function
  of its input arrays; nothing in the layer writes an argument of the program.
-/
import proofs.«129831_j68247030334290_1_alg».proof.Proof.Gen.KernelIdeal.Frame
import proofs.«129831_j68247030334290_1_alg».proof.Proof.KLayer
import proofs.«129831_j68247030334290_1_alg».proof.Proof.Region6
import proofs.«129831_j68247030334290_1_alg».proof.Proof.Region7
import Idealize.ShloMosaic.Lib.StableHlo.Run

set_option maxRecDepth 16384

noncomputable section

namespace Cert.KernelIdeal.Layer3

open Idealize.ShloMosaic Idealize.SL.Sem Cert.KernelIdeal Cert.KernelIdeal.Gen Cert.Spec Cert.KLayer

/-- No operation of a literal host stretch writes the buffer read. -/
macro "stretch_keeps" : tactic => `(tactic| (
  refine StableHlo.after_of_forall_not_mem _ _ (List.forall_iff_forall_mem.mp ?_)
  simp only [hostOps6, hostOps7, hostOps7_1, hostOps7_2, List.Forall, StableHlo.nullary_writes, StableHlo.unary_writes, StableHlo.binary_writes,
    StableHlo.ternary_writes, StableHlo.quaternary_writes, StableHlo.reshape_writes, Finset.mem_singleton]
  repeat' apply And.intro
  all_goals exact StableHlo.devRef_ne_of_ne (by decide)))

section Stretches

variable {F : FTy → Type} [FloatOps F] (W : Valuation τ sig (Elt F))

/-- The layer's matrices, sliced out of the stacks. -/
theorem weights_W : StableHlo.after (hostOps6 (F := F)) W (Proc.devRef .tc main_v97) = mat3 (W (Proc.devRef .tc main_arg2)) := by
  after_results
  rfl
theorem weights_SW : StableHlo.after (hostOps6 (F := F)) W (Proc.devRef .tc main_v99) = mat3 (W (Proc.devRef .tc main_arg3)) := by
  after_results
  rfl

/-- The contents after the three stretches between the two kernels. -/
abbrev mid : Valuation τ sig (Elt F) :=
  StableHlo.after (hostOps7_2 (F := F)) (StableHlo.after (hostOps7_1 (F := F)) (StableHlo.after (hostOps7 (F := F)) W))

attribute [local irreducible] Host.gather Host.scatterAdd Host.reduceAdd in
set_option maxHeartbeats 1000000 in
/-- The pre-normalisation value, from the two projections. -/
theorem mid_pre : mid W (Proc.devRef .tc main_v114)
    = preK (W (Proc.devRef .tc main_v100_0)) (W (Proc.devRef .tc main_v100_1)) (W (Proc.devRef .tc main_arg1))
        (W (Proc.devRef .tc main_arg6)) (W (Proc.devRef .tc main_arg7)) := by
  after_results_simp
  unfold preK segsum gath spread wrapIdx
  rfl

attribute [local irreducible] Host.gather Host.scatterAdd Host.reduceAdd in
set_option maxHeartbeats 1000000 in
/-- The scale and the shift as rows. -/
theorem mid_scale : mid W (Proc.devRef .tc main_v123) = rowOf (col3 (W (Proc.devRef .tc main_arg4))) := by
  after_results_simp
  unfold rowOf col3
  rfl
attribute [local irreducible] Host.gather Host.scatterAdd Host.reduceAdd in
set_option maxHeartbeats 1000000 in
theorem mid_shift : mid W (Proc.devRef .tc main_v124) = rowOf (col3 (W (Proc.devRef .tc main_arg5))) := by
  after_results_simp
  unfold rowOf col3
  rfl

attribute [local irreducible] Host.gather Host.scatterAdd Host.reduceAdd in
set_option maxHeartbeats 1000000 in
/-- The column means as a row. -/
theorem mid_mean : mid W (Proc.devRef .tc main_v125)
    = rowOf (meanOf (preK (W (Proc.devRef .tc main_v100_0)) (W (Proc.devRef .tc main_v100_1)) (W (Proc.devRef .tc main_arg1))
        (W (Proc.devRef .tc main_arg6)) (W (Proc.devRef .tc main_arg7)))) := by
  after_results_simp
  unfold rowOf meanOf preK segsum gath spread wrapIdx
  rfl

attribute [local irreducible] Host.gather Host.scatterAdd Host.reduceAdd in
set_option maxHeartbeats 1000000 in
/-- The column variances as a row. -/
theorem mid_var : mid W (Proc.devRef .tc main_v126)
    = rowOf (varOf (preK (W (Proc.devRef .tc main_v100_0)) (W (Proc.devRef .tc main_v100_1)) (W (Proc.devRef .tc main_arg1))
        (W (Proc.devRef .tc main_arg6)) (W (Proc.devRef .tc main_arg7)))) := by
  after_results_simp
  unfold rowOf varOf preK segsum gath spread wrapIdx
  rfl

end Stretches

variable (m : (ℓ : Loc nD τ sig) → Buf (Elt Ideal) ℓ) (ρ : Dev nD → PrngReg)

/-- The projection kernel's two results at the boundary after it. -/
theorem support_at (c : Dev nD) : W20 m ρ c (Proc.devRef .tc main_v100_0)
    = proj (W19 m ρ c (Proc.devRef .tc main_v95)) (W19 m ρ c (Proc.devRef .tc main_v97)) :=
  (W20_arr m ρ c 3).trans (Cert.KernelIdeal.RegionValue.support6 (V19 m ρ) c)
theorem self_at (c : Dev nD) : W20 m ρ c (Proc.devRef .tc main_v100_1)
    = proj (W19 m ρ c (Proc.devRef .tc main_v95)) (W19 m ρ c (Proc.devRef .tc main_v99)) :=
  (W20_arr m ρ c 4).trans (Cert.KernelIdeal.RegionValue.self6 (V19 m ρ) c)

/-- The normalisation kernel's result at the boundary after it. -/
theorem norm_at (c : Dev nD) : W24 m ρ c (Proc.devRef .tc main_v127)
    = bnRow (W23 m ρ c (Proc.devRef .tc main_v114)) (W23 m ρ c (Proc.devRef .tc main_v123)) (W23 m ρ c (Proc.devRef .tc main_v124))
        (W23 m ρ c (Proc.devRef .tc main_v125)) (W23 m ρ c (Proc.devRef .tc main_v126)) :=
  (W24_arr m ρ c 5).trans (Cert.KernelIdeal.RegionValue.norm7 (V23 m ρ) c)

/-- A buffer no operation and no kernel of the layer writes, from the boundary after the projection kernel back to the
    boundary before the layer. -/
theorem kept_front (c : Dev nD) (b : Ref sig .tc) (hb : b = main_arg1 ∨ b = main_arg2 ∨ b = main_arg3 ∨ b = main_arg4 ∨ b = main_arg5 ∨ b = main_arg6 ∨ b = main_arg7 ∨ b = main_arg0) :
    W20 m ρ c (Proc.devRef .tc b) = W18 m ρ c (Proc.devRef .tc b) := by
  rcases hb with rfl | rfl | rfl | rfl | rfl | rfl | rfl | rfl <;>
  · refine (W20_of_ne m ρ c _ (by decide)).trans ?_
    stretch_keeps

/-- The same from the boundary after the layer back to the boundary after the projection kernel. -/
theorem kept_back (c : Dev nD) (b : Ref sig .tc) (hb : b = main_arg0 ∨ b = main_arg1 ∨ b = main_arg2 ∨ b = main_arg3 ∨ b = main_arg4 ∨ b = main_arg5 ∨ b = main_arg6 ∨ b = main_arg7) :
    W24 m ρ c (Proc.devRef .tc b) = W20 m ρ c (Proc.devRef .tc b) := by
  rcases hb with rfl | rfl | rfl | rfl | rfl | rfl | rfl | rfl <;>
  · refine (W24_of_ne m ρ c _ (by decide)).trans ?_
    refine Eq.trans (b := W22 m ρ c _) (by stretch_keeps) ?_
    refine Eq.trans (b := W21 m ρ c _) (by stretch_keeps) ?_
    stretch_keeps

/-- Every argument of the program is, after the layer, what it was before it. -/
theorem kept (c : Dev nD) (b : Ref sig .tc) (hb : b = main_arg0 ∨ b = main_arg1 ∨ b = main_arg2 ∨ b = main_arg3 ∨ b = main_arg4 ∨ b = main_arg5 ∨ b = main_arg6 ∨ b = main_arg7) :
    W24 m ρ c (Proc.devRef .tc b) = W18 m ρ c (Proc.devRef .tc b) := by
  refine (kept_back m ρ c b hb).trans ?_
  rcases hb with rfl | hb
  · exact kept_front m ρ c _ (by simp)
  · exact kept_front m ρ c b (by tauto)

/-- The layer's result, from the features and the arguments at the boundary before it. -/
theorem value (c : Dev nD) : W24 m ρ c (Proc.devRef .tc main_v127)
    = layerK (W18 m ρ c (Proc.devRef .tc main_v95)) (mat3 (W18 m ρ c (Proc.devRef .tc main_arg2))) (mat3 (W18 m ρ c (Proc.devRef .tc main_arg3)))
        (col3 (W18 m ρ c (Proc.devRef .tc main_arg4))) (col3 (W18 m ρ c (Proc.devRef .tc main_arg5)))
        (W18 m ρ c (Proc.devRef .tc main_arg1)) (W18 m ρ c (Proc.devRef .tc main_arg6)) (W18 m ρ c (Proc.devRef .tc main_arg7)) := by
  -- the features and the two matrices at the projection kernel's entry
  have hx : W19 m ρ c (Proc.devRef .tc main_v95) = W18 m ρ c (Proc.devRef .tc main_v95) := by stretch_keeps
  have hw : W19 m ρ c (Proc.devRef .tc main_v97) = mat3 (W18 m ρ c (Proc.devRef .tc main_arg2)) := weights_W (W18 m ρ c)
  have hsw : W19 m ρ c (Proc.devRef .tc main_v99) = mat3 (W18 m ρ c (Proc.devRef .tc main_arg3)) := weights_SW (W18 m ρ c)
  -- the edge data and the stacked vectors at the projection kernel's exit
  have k1 := kept_front m ρ c main_arg1 (by simp)
  have k4 := kept_front m ρ c main_arg4 (by simp)
  have k5 := kept_front m ρ c main_arg5 (by simp)
  have k6 := kept_front m ρ c main_arg6 (by simp)
  have k7 := kept_front m ρ c main_arg7 (by simp)
  rw [norm_at, show W23 m ρ c = mid (W20 m ρ c) from rfl, mid_pre, mid_scale, mid_shift, mid_mean, mid_var,
    support_at, self_at, hx, hw, hsw, k1, k4, k5, k6, k7]
  rfl

end Cert.KernelIdeal.Layer3

end
-- ==== Proof.KValue.lean ====
/-
  The kernel program's result as one function of its arguments.

  The last host operation joins the fourth layer's features with the input features along the columns. The features
  after each layer are that layer's function of the features before it and of the program's arguments, which no layer
  writes; so the features after the fourth layer are the four-fold composition, and since each layer of the kernel
  program is the reference's layer, the result is the reference's result function of the arguments.
-/
import proofs.«129831_j68247030334290_1_alg».proof.Proof.KLayer0
import proofs.«129831_j68247030334290_1_alg».proof.Proof.KLayer1
import proofs.«129831_j68247030334290_1_alg».proof.Proof.KLayer2
import proofs.«129831_j68247030334290_1_alg».proof.Proof.KLayer3

set_option maxRecDepth 16384

noncomputable section

namespace Cert.KernelIdeal.Whole

open Idealize.ShloMosaic Idealize.ShloMosaic.TcCoe Idealize.SL.Sem Cert.KernelIdeal Cert.KernelIdeal.Gen Cert.Spec Cert.KLayer

variable (m : (ℓ : Loc nD τ sig) → Buf (Elt Ideal) ℓ) (ρ : Dev nD → PrngReg)

/-- The last host operation: the concatenation of the fourth layer's features with the input features. -/
theorem joined (c : Dev nD) : W25 m ρ c (Proc.devRef .tc main_v128)
    = concatenate Cert.ReferenceIdeal.S100000x512 1
        [⟨Cert.ReferenceIdeal.S100000x256, W24 m ρ c (Proc.devRef .tc main_v127)⟩,
         ⟨Cert.ReferenceIdeal.S100000x256, W24 m ρ c (Proc.devRef .tc main_arg0)⟩]
        Cert.ReferenceIdeal.Gen.concatenates_S100000x256_S100000x256_S100000x512_d1 := by
  show StableHlo.after (hostOps8 (F := Ideal)) (W24 m ρ c) (Proc.devRef .tc main_v128) = _
  after_results

/-- The launch contents at an argument are the launch memory there. -/
theorem launch_arg (c : Dev nD) (b : Ref sig .tc) : W0 m ρ c (Proc.devRef .tc b) = m ((c : Thread nD τ).loc b) := rfl

/-- The result buffer at the end of @main is the reference's result function of the arguments as launched. -/
theorem result_eq (c : Dev nD) : W25 m ρ c (Proc.devRef .tc main_v128)
    = outR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have a6_0 : W6 m ρ c (Proc.devRef .tc main_arg0) = (m ((c : Thread nD τ).loc main_arg0)) := Layer0.kept m ρ c main_arg0 (by simp)
  have a12_0 : W12 m ρ c (Proc.devRef .tc main_arg0) = (m ((c : Thread nD τ).loc main_arg0)) := (Layer1.kept m ρ c main_arg0 (by simp)).trans a6_0
  have a18_0 : W18 m ρ c (Proc.devRef .tc main_arg0) = (m ((c : Thread nD τ).loc main_arg0)) := (Layer2.kept m ρ c main_arg0 (by simp)).trans a12_0
  have a6_1 : W6 m ρ c (Proc.devRef .tc main_arg1) = (m ((c : Thread nD τ).loc main_arg1)) := Layer0.kept m ρ c main_arg1 (by simp)
  have a12_1 : W12 m ρ c (Proc.devRef .tc main_arg1) = (m ((c : Thread nD τ).loc main_arg1)) := (Layer1.kept m ρ c main_arg1 (by simp)).trans a6_1
  have a18_1 : W18 m ρ c (Proc.devRef .tc main_arg1) = (m ((c : Thread nD τ).loc main_arg1)) := (Layer2.kept m ρ c main_arg1 (by simp)).trans a12_1
  have a6_2 : W6 m ρ c (Proc.devRef .tc main_arg2) = (m ((c : Thread nD τ).loc main_arg2)) := Layer0.kept m ρ c main_arg2 (by simp)
  have a12_2 : W12 m ρ c (Proc.devRef .tc main_arg2) = (m ((c : Thread nD τ).loc main_arg2)) := (Layer1.kept m ρ c main_arg2 (by simp)).trans a6_2
  have a18_2 : W18 m ρ c (Proc.devRef .tc main_arg2) = (m ((c : Thread nD τ).loc main_arg2)) := (Layer2.kept m ρ c main_arg2 (by simp)).trans a12_2
  have a6_3 : W6 m ρ c (Proc.devRef .tc main_arg3) = (m ((c : Thread nD τ).loc main_arg3)) := Layer0.kept m ρ c main_arg3 (by simp)
  have a12_3 : W12 m ρ c (Proc.devRef .tc main_arg3) = (m ((c : Thread nD τ).loc main_arg3)) := (Layer1.kept m ρ c main_arg3 (by simp)).trans a6_3
  have a18_3 : W18 m ρ c (Proc.devRef .tc main_arg3) = (m ((c : Thread nD τ).loc main_arg3)) := (Layer2.kept m ρ c main_arg3 (by simp)).trans a12_3
  have a6_4 : W6 m ρ c (Proc.devRef .tc main_arg4) = (m ((c : Thread nD τ).loc main_arg4)) := Layer0.kept m ρ c main_arg4 (by simp)
  have a12_4 : W12 m ρ c (Proc.devRef .tc main_arg4) = (m ((c : Thread nD τ).loc main_arg4)) := (Layer1.kept m ρ c main_arg4 (by simp)).trans a6_4
  have a18_4 : W18 m ρ c (Proc.devRef .tc main_arg4) = (m ((c : Thread nD τ).loc main_arg4)) := (Layer2.kept m ρ c main_arg4 (by simp)).trans a12_4
  have a6_5 : W6 m ρ c (Proc.devRef .tc main_arg5) = (m ((c : Thread nD τ).loc main_arg5)) := Layer0.kept m ρ c main_arg5 (by simp)
  have a12_5 : W12 m ρ c (Proc.devRef .tc main_arg5) = (m ((c : Thread nD τ).loc main_arg5)) := (Layer1.kept m ρ c main_arg5 (by simp)).trans a6_5
  have a18_5 : W18 m ρ c (Proc.devRef .tc main_arg5) = (m ((c : Thread nD τ).loc main_arg5)) := (Layer2.kept m ρ c main_arg5 (by simp)).trans a12_5
  have a6_6 : W6 m ρ c (Proc.devRef .tc main_arg6) = (m ((c : Thread nD τ).loc main_arg6)) := Layer0.kept m ρ c main_arg6 (by simp)
  have a12_6 : W12 m ρ c (Proc.devRef .tc main_arg6) = (m ((c : Thread nD τ).loc main_arg6)) := (Layer1.kept m ρ c main_arg6 (by simp)).trans a6_6
  have a18_6 : W18 m ρ c (Proc.devRef .tc main_arg6) = (m ((c : Thread nD τ).loc main_arg6)) := (Layer2.kept m ρ c main_arg6 (by simp)).trans a12_6
  have a6_7 : W6 m ρ c (Proc.devRef .tc main_arg7) = (m ((c : Thread nD τ).loc main_arg7)) := Layer0.kept m ρ c main_arg7 (by simp)
  have a12_7 : W12 m ρ c (Proc.devRef .tc main_arg7) = (m ((c : Thread nD τ).loc main_arg7)) := (Layer1.kept m ρ c main_arg7 (by simp)).trans a6_7
  have a18_7 : W18 m ρ c (Proc.devRef .tc main_arg7) = (m ((c : Thread nD τ).loc main_arg7)) := (Layer2.kept m ρ c main_arg7 (by simp)).trans a12_7
  have a24_0 : W24 m ρ c (Proc.devRef .tc main_arg0) = (m ((c : Thread nD τ).loc main_arg0)) := (Layer3.kept m ρ c main_arg0 (by simp)).trans a18_0
  rw [joined, a24_0, Layer3.value, Layer2.value, Layer1.value, Layer0.value,
    a18_2, a18_3, a18_4, a18_5, a18_1, a18_6, a18_7, a12_2, a12_3, a12_4, a12_5, a12_1, a12_6, a12_7, a6_2, a6_3, a6_4, a6_5, a6_1, a6_6, a6_7,
    launch_arg, launch_arg, launch_arg, launch_arg, launch_arg, launch_arg, launch_arg, launch_arg,
    layerK_eq, layerK_eq, layerK_eq, layerK_eq]
  rfl

end Cert.KernelIdeal.Whole

end
-- ==== Proof.RefOpsList.lean ====
/-
  The operations of the reference's @main in order, the three module-local functions' operations written
  at each call over that call's buffers, as eight consecutive segments: segments 2K and 2K+1 together are
  the statements of the K-th window of @main; segment 0, segments 1-2, 3-4, 5-6 are the four layers (each
  ends with its rectifier) and segment 7 is the final concatenation.
-/
import proofs.«129831_j68247030334290_1_alg».proof.Proof.Gen.ReferenceIdeal
import Idealize.ShloMosaic.Lib.StableHlo

noncomputable section

namespace Cert.ReferenceIdeal.RefRun

open Idealize.ShloMosaic Idealize.ShloMosaic.TcCoe Idealize.SL.Sem Cert.ReferenceIdeal.Gen

variable {F : FTy → Type} [FloatOps F]

/-- Segment 0: 74 operations. -/
abbrev seg0 : List (HloOp τ sig (Elt F)) :=
  [ StableHlo.unary main_arg2 main_v0 ((extractStridedSlice S1x256x256 ![0, 0, 0] · slices_S4x256x256_S1x256x256_0_0_0) : (⟨S4x256x256, .f32⟩ : BufTy).Contents (Elt F) → (⟨S1x256x256, .f32⟩ : BufTy).Contents (Elt F)),
    StableHlo.reshape main_v0 main_v1 rfl shapeCasts_S1x256x256_S256x256,
    StableHlo.unary main_arg3 main_v2 ((extractStridedSlice S1x256x256 ![0, 0, 0] · slices_S4x256x256_S1x256x256_0_0_0) : (⟨S4x256x256, .f32⟩ : BufTy).Contents (Elt F) → (⟨S1x256x256, .f32⟩ : BufTy).Contents (Elt F)),
    StableHlo.reshape main_v2 main_v3 rfl shapeCasts_S1x256x256_S256x256,
    StableHlo.unary main_arg4 main_v4 ((extractStridedSlice S1x256 ![0, 0] · slices_S4x256_S1x256_0_0) : (⟨S4x256, .f32⟩ : BufTy).Contents (Elt F) → (⟨S1x256, .f32⟩ : BufTy).Contents (Elt F)),
    StableHlo.reshape main_v4 main_v5 rfl shapeCasts_S1x256_S256,
    StableHlo.unary main_arg5 main_v6 ((extractStridedSlice S1x256 ![0, 0] · slices_S4x256_S1x256_0_0) : (⟨S4x256, .f32⟩ : BufTy).Contents (Elt F) → (⟨S1x256, .f32⟩ : BufTy).Contents (Elt F)),
    StableHlo.reshape main_v6 main_v7 rfl shapeCasts_S1x256_S256,
    StableHlo.binary main_arg0 main_v1 main_v8 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.unary main_arg1 main_v9 (broadcastInDim S300000x1 ![0] bcast_S300000_S300000x1_0 : (⟨S300000, .f32⟩ : BufTy).Contents (Elt F) → (⟨S300000x1, .f32⟩ : BufTy).Contents (Elt F)),
    StableHlo.nullary main_c (constantI S_ 32 0#32),
    StableHlo.unary main_c main_v10 (broadcastInDim S300000 ![] bcast_S_S300000 : (⟨S_, .i32⟩ : BufTy).Contents (Elt F) → (⟨S300000, .i32⟩ : BufTy).Contents (Elt F)),
    StableHlo.binary main_arg7 main_v10 main_v11 (cmpi .slt : (⟨S300000, .i32⟩ : BufTy).Contents (Elt F) → (⟨S300000, .i32⟩ : BufTy).Contents (Elt F) → (⟨S300000, .i1⟩ : BufTy).Contents (Elt F)),
    StableHlo.nullary main_c_0 (constantI S_ 32 100000#32),
    StableHlo.unary main_c_0 main_v12 (broadcastInDim S300000 ![] bcast_S_S300000 : (⟨S_, .i32⟩ : BufTy).Contents (Elt F) → (⟨S300000, .i32⟩ : BufTy).Contents (Elt F)),
    StableHlo.binary main_arg7 main_v12 main_v13 (addi : (⟨S300000, .i32⟩ : BufTy).Contents (Elt F) → (⟨S300000, .i32⟩ : BufTy).Contents (Elt F) → (⟨S300000, .i32⟩ : BufTy).Contents (Elt F)),
    StableHlo.ternary main_v11 main_v13 main_arg7 main_v14 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v14 main_v15 (broadcastInDim S300000x1 ![0] bcast_S300000_S300000x1_0 : (⟨S300000, .i32⟩ : BufTy).Contents (Elt F) → (⟨S300000x1, .i32⟩ : BufTy).Contents (Elt F)),
    StableHlo.binary main_v8 main_v15 main_v16 ((fun x i => Host.gather gather_S100000x256_S300000x1_S300000x256_1_0_n_n_0_1_1256 x i) : (⟨S100000x256, .f32⟩ : BufTy).Contents (Elt F) → (⟨S300000x1, .i32⟩ : BufTy).Contents (Elt F) → (⟨S300000x256, .f32⟩ : BufTy).Contents (Elt F)),
    StableHlo.unary main_v9 main_v17 (broadcastInDim S300000x256 ![0, 1] bcast_S300000x1_S300000x256_0_1 : (⟨S300000x1, .f32⟩ : BufTy).Contents (Elt F) → (⟨S300000x256, .f32⟩ : BufTy).Contents (Elt F)),
    StableHlo.binary main_v17 main_v16 main_v18 (mulf : (⟨S300000x256, .f32⟩ : BufTy).Contents (Elt F) → (⟨S300000x256, .f32⟩ : BufTy).Contents (Elt F) → (⟨S300000x256, .f32⟩ : BufTy).Contents (Elt F)),
    StableHlo.nullary main_cst (constant S_ .f32 0x00000000#32),
    StableHlo.unary main_cst main_v19 (broadcastInDim S100000x256 ![] bcast_S_S100000x256 : (⟨S_, .f32⟩ : BufTy).Contents (Elt F) → (⟨S100000x256, .f32⟩ : BufTy).Contents (Elt F)),
    StableHlo.unary main_arg6 main_v20 (broadcastInDim S300000x1 ![0] bcast_S300000_S300000x1_0 : (⟨S300000, .i32⟩ : BufTy).Contents (Elt F) → (⟨S300000x1, .i32⟩ : BufTy).Contents (Elt F)),
    StableHlo.ternary main_v19 main_v20 main_v18 main_v21 ((fun x i u => Host.scatterAdd scatter_S100000x256_S300000x1_S300000x256_1_0_0_1 x i u) : (⟨S100000x256, .f32⟩ : BufTy).Contents (Elt F) → (⟨S300000x1, .i32⟩ : BufTy).Contents (Elt F) → (⟨S300000x256, .f32⟩ : BufTy).Contents (Elt F) → (⟨S100000x256, .f32⟩ : BufTy).Contents (Elt F)),
    StableHlo.binary main_arg0 main_v3 main_v22 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.binary main_v21 main_v22 main_v23 (addf : (⟨S100000x256, .f32⟩ : BufTy).Contents (Elt F) → (⟨S100000x256, .f32⟩ : BufTy).Contents (Elt F) → (⟨S100000x256, .f32⟩ : BufTy).Contents (Elt F)),
    StableHlo.nullary main_cst_1 (constant S_ .f32 0x00000000#32),
    StableHlo.binary main_v23 main_cst_1 main_v24 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    StableHlo.nullary main_cst_2 (constant S_ .f32 0x47C35000#32),
    StableHlo.unary main_cst_2 main_v25 (broadcastInDim S256 ![] bcast_S_S256 : (⟨S_, .f32⟩ : BufTy).Contents (Elt F) → (⟨S256, .f32⟩ : BufTy).Contents (Elt F)),
    StableHlo.binary main_v24 main_v25 main_v26 (Host.divf : (⟨S256, .f32⟩ : BufTy).Contents (Elt F) → (⟨S256, .f32⟩ : BufTy).Contents (Elt F) → (⟨S256, .f32⟩ : BufTy).Contents (Elt F)),
    StableHlo.nullary main_c_3 (constantI S_ 32 0#32),
    StableHlo.TRef.nullary (.of main_call0_cst : StableHlo.TRef sig ⟨S_, .f32⟩) (constant S_ .f32 0x00000000#32),
    StableHlo.TRef.binary (.of main_v23 : StableHlo.TRef sig ⟨S100000x256, .f32⟩) (.of main_call0_cst : StableHlo.TRef sig ⟨S_, .f32⟩) (.of main_call0_v0 : StableHlo.TRef sig ⟨S256, .f32⟩) (fun x v => Host.reduceAdd x v reducesTo_S100000x256_S256_d0 h_S_),
    StableHlo.TRef.unary (.of main_call0_v0 : StableHlo.TRef sig ⟨S256, .f32⟩) (.of main_call0_v1 : StableHlo.TRef sig ⟨S1x256, .f32⟩) (broadcastInDim S1x256 ![1] bcast_S256_S1x256_1),
    StableHlo.TRef.nullary (.of main_call0_cst_0 : StableHlo.TRef sig ⟨S_, .f32⟩) (constant S_ .f32 0x47C35000#32),
    StableHlo.TRef.unary (.of main_call0_cst_0 : StableHlo.TRef sig ⟨S_, .f32⟩) (.of main_call0_v2 : StableHlo.TRef sig ⟨S1x256, .f32⟩) (broadcastInDim S1x256 ![] bcast_S_S1x256),
    StableHlo.TRef.binary (.of main_call0_v1 : StableHlo.TRef sig ⟨S1x256, .f32⟩) (.of main_call0_v2 : StableHlo.TRef sig ⟨S1x256, .f32⟩) (.of main_call0_v3 : StableHlo.TRef sig ⟨S1x256, .f32⟩) Host.divf,
    StableHlo.TRef.unary (.of main_call0_v3 : StableHlo.TRef sig ⟨S1x256, .f32⟩) (.of main_call0_v4 : StableHlo.TRef sig ⟨S100000x256, .f32⟩) (broadcastInDim S100000x256 ![0, 1] bcast_S1x256_S100000x256_0_1),
    StableHlo.TRef.binary (.of main_v23 : StableHlo.TRef sig ⟨S100000x256, .f32⟩) (.of main_call0_v4 : StableHlo.TRef sig ⟨S100000x256, .f32⟩) (.of main_call0_v5 : StableHlo.TRef sig ⟨S100000x256, .f32⟩) subf,
    StableHlo.TRef.binary (.of main_call0_v5 : StableHlo.TRef sig ⟨S100000x256, .f32⟩) (.of main_call0_v5 : StableHlo.TRef sig ⟨S100000x256, .f32⟩) (.of main_call0_v6 : StableHlo.TRef sig ⟨S100000x256, .f32⟩) mulf,
    StableHlo.TRef.unary (.of main_c_3 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47C35000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S100000x256, .f32⟩) (.of main_call0_cst_2 : StableHlo.TRef sig ⟨S_, .f32⟩) (.of main_call0_v9 : StableHlo.TRef sig ⟨S256, .f32⟩) (fun x v => Host.reduceAdd x v reducesTo_S100000x256_S256_d0 h_S_),
    StableHlo.TRef.unary (.of main_call0_v8 : StableHlo.TRef sig ⟨S_, .f32⟩) (.of main_call0_v10 : StableHlo.TRef sig ⟨S256, .f32⟩) (broadcastInDim S256 ![] bcast_S_S256),
    StableHlo.TRef.binary (.of main_call0_v9 : StableHlo.TRef sig ⟨S256, .f32⟩) (.of main_call0_v10 : StableHlo.TRef sig ⟨S256, .f32⟩) (.of main_call0_v11 : StableHlo.TRef sig ⟨S256, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S256, .f32⟩) (broadcastInDim S256 ![] bcast_S_S256),
    StableHlo.TRef.ternary (.of main_call0_v12 : StableHlo.TRef sig ⟨S_, .i1⟩) (.of main_call0_v11 : StableHlo.TRef sig ⟨S256, .f32⟩) (.of main_call0_call0_v1 : StableHlo.TRef sig ⟨S256, .f32⟩) (.of main_v27 : StableHlo.TRef sig ⟨S256, .f32⟩) (fun p a b => select (broadcastInDim S256 ![] bcast_S_S256 p) a b),
    StableHlo.unary main_v26 main_v28 (broadcastInDim S1x256 ![1] bcast_S256_S1x256_1 : (⟨S256, .f32⟩ : BufTy).Contents (Elt F) → (⟨S1x256, .f32⟩ : BufTy).Contents (Elt F)),
    StableHlo.unary main_v28 main_v29 (broadcastInDim S100000x256 ![0, 1] bcast_S1x256_S100000x256_0_1 : (⟨S1x256, .f32⟩ : BufTy).Contents (Elt F) → (⟨S100000x256, .f32⟩ : BufTy).Contents (Elt F)),
    StableHlo.binary main_v23 main_v29 main_v30 (subf : (⟨S100000x256, .f32⟩ : BufTy).Contents (Elt F) → (⟨S100000x256, .f32⟩ : BufTy).Contents (Elt F) → (⟨S100000x256, .f32⟩ : BufTy).Contents (Elt F)),
    StableHlo.unary main_v5 main_v31 (broadcastInDim S1x256 ![1] bcast_S256_S1x256_1 : (⟨S256, .f32⟩ : BufTy).Contents (Elt F) → (⟨S1x256, .f32⟩ : BufTy).Contents (Elt F)),
    StableHlo.unary main_v31 main_v32 (broadcastInDim S100000x256 ![0, 1] bcast_S1x256_S100000x256_0_1 : (⟨S1x256, .f32⟩ : BufTy).Contents (Elt F) → (⟨S100000x256, .f32⟩ : BufTy).Contents (Elt F)),
    StableHlo.binary main_v32 main_v30 main_v33 (mulf : (⟨S100000x256, .f32⟩ : BufTy).Contents (Elt F) → (⟨S100000x256, .f32⟩ : BufTy).Contents (Elt F) → (⟨S100000x256, .f32⟩ : BufTy).Contents (Elt F)),
    StableHlo.nullary main_cst_4 (constant S_ .f32 0x3727C5AC#32),
    StableHlo.unary main_cst_4 main_v34 (broadcastInDim S256 ![] bcast_S_S256 : (⟨S_, .f32⟩ : BufTy).Contents (Elt F) → (⟨S256, .f32⟩ : BufTy).Contents (Elt F)),
    StableHlo.binary main_v27 main_v34 main_v35 (addf : (⟨S256, .f32⟩ : BufTy).Contents (Elt F) → (⟨S256, .f32⟩ : BufTy).Contents (Elt F) → (⟨S256, .f32⟩ : BufTy).Contents (Elt F)),
    StableHlo.unary main_v35 main_v36 (Host.rsqrt : (⟨S256, .f32⟩ : BufTy).Contents (Elt F) → (⟨S256, .f32⟩ : BufTy).Contents (Elt F)),
    StableHlo.unary main_v36 main_v37 (broadcastInDim S1x256 ![1] bcast_S256_S1x256_1 : (⟨S256, .f32⟩ : BufTy).Contents (Elt F) → (⟨S1x256, .f32⟩ : BufTy).Contents (Elt F)),
    StableHlo.unary main_v37 main_v38 (broadcastInDim S100000x256 ![0, 1] bcast_S1x256_S100000x256_0_1 : (⟨S1x256, .f32⟩ : BufTy).Contents (Elt F) → (⟨S100000x256, .f32⟩ : BufTy).Contents (Elt F)),
    StableHlo.binary main_v33 main_v38 main_v39 (mulf : (⟨S100000x256, .f32⟩ : BufTy).Contents (Elt F) → (⟨S100000x256, .f32⟩ : BufTy).Contents (Elt F) → (⟨S100000x256, .f32⟩ : BufTy).Contents (Elt F)),
    StableHlo.unary main_v7 main_v40 (broadcastInDim S1x256 ![1] bcast_S256_S1x256_1 : (⟨S256, .f32⟩ : BufTy).Contents (Elt F) → (⟨S1x256, .f32⟩ : BufTy).Contents (Elt F)),
    StableHlo.unary main_v40 main_v41 (broadcastInDim S100000x256 ![0, 1] bcast_S1x256_S100000x256_0_1 : (⟨S1x256, .f32⟩ : BufTy).Contents (Elt F) → (⟨S100000x256, .f32⟩ : BufTy).Contents (Elt F)),
    StableHlo.binary main_v39 main_v41 main_v42 (addf : (⟨S100000x256, .f32⟩ : BufTy).Contents (Elt F) → (⟨S100000x256, .f32⟩ : BufTy).Contents (Elt F) → (⟨S100000x256, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x256, .f32⟩) (broadcastInDim S100000x256 ![] bcast_S_S100000x256),
    StableHlo.TRef.binary (.of main_v42 : StableHlo.TRef sig ⟨S100000x256, .f32⟩) (.of main_call1_v0 : StableHlo.TRef sig ⟨S100000x256, .f32⟩) (.of main_v43 : StableHlo.TRef sig ⟨S100000x256, .f32⟩) maximumf ]

/-- Segment 1: 9 operations. -/
abbrev seg1 : List (HloOp τ sig (Elt F)) :=
  [ StableHlo.unary main_arg2 main_v44 ((extractStridedSlice S1x256x256 ![1, 0, 0] · slices_S4x256x256_S1x256x256_1_0_0) : (⟨S4x256x256, .f32⟩ : BufTy).Contents (Elt F) → (⟨S1x256x256, .f32⟩ : BufTy).Contents (Elt F)),
    StableHlo.reshape main_v44 main_v45 rfl shapeCasts_S1x256x256_S256x256,
    StableHlo.unary main_arg3 main_v46 ((extractStridedSlice S1x256x256 ![1, 0, 0] · slices_S4x256x256_S1x256x256_1_0_0) : (⟨S4x256x256, .f32⟩ : BufTy).Contents (Elt F) → (⟨S1x256x256, .f32⟩ : BufTy).Contents (Elt F)),
    StableHlo.reshape main_v46 main_v47 rfl shapeCasts_S1x256x256_S256x256,
    StableHlo.unary main_arg4 main_v48 ((extractStridedSlice S1x256 ![1, 0] · slices_S4x256_S1x256_1_0) : (⟨S4x256, .f32⟩ : BufTy).Contents (Elt F) → (⟨S1x256, .f32⟩ : BufTy).Contents (Elt F)),
    StableHlo.reshape main_v48 main_v49 rfl shapeCasts_S1x256_S256,
    StableHlo.unary main_arg5 main_v50 ((extractStridedSlice S1x256 ![1, 0] · slices_S4x256_S1x256_1_0) : (⟨S4x256, .f32⟩ : BufTy).Contents (Elt F) → (⟨S1x256, .f32⟩ : BufTy).Contents (Elt F)),
    StableHlo.reshape main_v50 main_v51 rfl shapeCasts_S1x256_S256,
    StableHlo.binary main_v43 main_v45 main_v52 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)) ]

/-- Segment 2: 65 operations. -/
abbrev seg2 : List (HloOp τ sig (Elt F)) :=
  [ StableHlo.unary main_arg1 main_v53 (broadcastInDim S300000x1 ![0] bcast_S300000_S300000x1_0 : (⟨S300000, .f32⟩ : BufTy).Contents (Elt F) → (⟨S300000x1, .f32⟩ : BufTy).Contents (Elt F)),
    StableHlo.nullary main_c_5 (constantI S_ 32 0#32),
    StableHlo.unary main_c_5 main_v54 (broadcastInDim S300000 ![] bcast_S_S300000 : (⟨S_, .i32⟩ : BufTy).Contents (Elt F) → (⟨S300000, .i32⟩ : BufTy).Contents (Elt F)),
    StableHlo.binary main_arg7 main_v54 main_v55 (cmpi .slt : (⟨S300000, .i32⟩ : BufTy).Contents (Elt F) → (⟨S300000, .i32⟩ : BufTy).Contents (Elt F) → (⟨S300000, .i1⟩ : BufTy).Contents (Elt F)),
    StableHlo.nullary main_c_6 (constantI S_ 32 100000#32),
    StableHlo.unary main_c_6 main_v56 (broadcastInDim S300000 ![] bcast_S_S300000 : (⟨S_, .i32⟩ : BufTy).Contents (Elt F) → (⟨S300000, .i32⟩ : BufTy).Contents (Elt F)),
    StableHlo.binary main_arg7 main_v56 main_v57 (addi : (⟨S300000, .i32⟩ : BufTy).Contents (Elt F) → (⟨S300000, .i32⟩ : BufTy).Contents (Elt F) → (⟨S300000, .i32⟩ : BufTy).Contents (Elt F)),
    StableHlo.ternary main_v55 main_v57 main_arg7 main_v58 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v58 main_v59 (broadcastInDim S300000x1 ![0] bcast_S300000_S300000x1_0 : (⟨S300000, .i32⟩ : BufTy).Contents (Elt F) → (⟨S300000x1, .i32⟩ : BufTy).Contents (Elt F)),
    StableHlo.binary main_v52 main_v59 main_v60 ((fun x i => Host.gather gather_S100000x256_S300000x1_S300000x256_1_0_n_n_0_1_1256 x i) : (⟨S100000x256, .f32⟩ : BufTy).Contents (Elt F) → (⟨S300000x1, .i32⟩ : BufTy).Contents (Elt F) → (⟨S300000x256, .f32⟩ : BufTy).Contents (Elt F)),
    StableHlo.unary main_v53 main_v61 (broadcastInDim S300000x256 ![0, 1] bcast_S300000x1_S300000x256_0_1 : (⟨S300000x1, .f32⟩ : BufTy).Contents (Elt F) → (⟨S300000x256, .f32⟩ : BufTy).Contents (Elt F)),
    StableHlo.binary main_v61 main_v60 main_v62 (mulf : (⟨S300000x256, .f32⟩ : BufTy).Contents (Elt F) → (⟨S300000x256, .f32⟩ : BufTy).Contents (Elt F) → (⟨S300000x256, .f32⟩ : BufTy).Contents (Elt F)),
    StableHlo.nullary main_cst_7 (constant S_ .f32 0x00000000#32),
    StableHlo.unary main_cst_7 main_v63 (broadcastInDim S100000x256 ![] bcast_S_S100000x256 : (⟨S_, .f32⟩ : BufTy).Contents (Elt F) → (⟨S100000x256, .f32⟩ : BufTy).Contents (Elt F)),
    StableHlo.unary main_arg6 main_v64 (broadcastInDim S300000x1 ![0] bcast_S300000_S300000x1_0 : (⟨S300000, .i32⟩ : BufTy).Contents (Elt F) → (⟨S300000x1, .i32⟩ : BufTy).Contents (Elt F)),
    StableHlo.ternary main_v63 main_v64 main_v62 main_v65 ((fun x i u => Host.scatterAdd scatter_S100000x256_S300000x1_S300000x256_1_0_0_1 x i u) : (⟨S100000x256, .f32⟩ : BufTy).Contents (Elt F) → (⟨S300000x1, .i32⟩ : BufTy).Contents (Elt F) → (⟨S300000x256, .f32⟩ : BufTy).Contents (Elt F) → (⟨S100000x256, .f32⟩ : BufTy).Contents (Elt F)),
    StableHlo.binary main_v43 main_v47 main_v66 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.binary main_v65 main_v66 main_v67 (addf : (⟨S100000x256, .f32⟩ : BufTy).Contents (Elt F) → (⟨S100000x256, .f32⟩ : BufTy).Contents (Elt F) → (⟨S100000x256, .f32⟩ : BufTy).Contents (Elt F)),
    StableHlo.nullary main_cst_8 (constant S_ .f32 0x00000000#32),
    StableHlo.binary main_v67 main_cst_8 main_v68 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    StableHlo.nullary main_cst_9 (constant S_ .f32 0x47C35000#32),
    StableHlo.unary main_cst_9 main_v69 (broadcastInDim S256 ![] bcast_S_S256 : (⟨S_, .f32⟩ : BufTy).Contents (Elt F) → (⟨S256, .f32⟩ : BufTy).Contents (Elt F)),
    StableHlo.binary main_v68 main_v69 main_v70 (Host.divf : (⟨S256, .f32⟩ : BufTy).Contents (Elt F) → (⟨S256, .f32⟩ : BufTy).Contents (Elt F) → (⟨S256, .f32⟩ : BufTy).Contents (Elt F)),
    StableHlo.nullary main_c_10 (constantI S_ 32 0#32),
    StableHlo.TRef.nullary (.of main_call2_cst : StableHlo.TRef sig ⟨S_, .f32⟩) (constant S_ .f32 0x00000000#32),
    StableHlo.TRef.binary (.of main_v67 : StableHlo.TRef sig ⟨S100000x256, .f32⟩) (.of main_call2_cst : StableHlo.TRef sig ⟨S_, .f32⟩) (.of main_call2_v0 : StableHlo.TRef sig ⟨S256, .f32⟩) (fun x v => Host.reduceAdd x v reducesTo_S100000x256_S256_d0 h_S_),
    StableHlo.TRef.unary (.of main_call2_v0 : StableHlo.TRef sig ⟨S256, .f32⟩) (.of main_call2_v1 : StableHlo.TRef sig ⟨S1x256, .f32⟩) (broadcastInDim S1x256 ![1] bcast_S256_S1x256_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x256, .f32⟩) (broadcastInDim S1x256 ![] bcast_S_S1x256),
    StableHlo.TRef.binary (.of main_call2_v1 : StableHlo.TRef sig ⟨S1x256, .f32⟩) (.of main_call2_v2 : StableHlo.TRef sig ⟨S1x256, .f32⟩) (.of main_call2_v3 : StableHlo.TRef sig ⟨S1x256, .f32⟩) Host.divf,
    StableHlo.TRef.unary (.of main_call2_v3 : StableHlo.TRef sig ⟨S1x256, .f32⟩) (.of main_call2_v4 : StableHlo.TRef sig ⟨S100000x256, .f32⟩) (broadcastInDim S100000x256 ![0, 1] bcast_S1x256_S100000x256_0_1),
    StableHlo.TRef.binary (.of main_v67 : StableHlo.TRef sig ⟨S100000x256, .f32⟩) (.of main_call2_v4 : StableHlo.TRef sig ⟨S100000x256, .f32⟩) (.of main_call2_v5 : StableHlo.TRef sig ⟨S100000x256, .f32⟩) subf,
    StableHlo.TRef.binary (.of main_call2_v5 : StableHlo.TRef sig ⟨S100000x256, .f32⟩) (.of main_call2_v5 : StableHlo.TRef sig ⟨S100000x256, .f32⟩) (.of main_call2_v6 : StableHlo.TRef sig ⟨S100000x256, .f32⟩) mulf,
    StableHlo.TRef.unary (.of main_c_10 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x256, .f32⟩) (.of main_call2_cst_2 : StableHlo.TRef sig ⟨S_, .f32⟩) (.of main_call2_v9 : StableHlo.TRef sig ⟨S256, .f32⟩) (fun x v => Host.reduceAdd x v reducesTo_S100000x256_S256_d0 h_S_),
    StableHlo.TRef.unary (.of main_call2_v8 : StableHlo.TRef sig ⟨S_, .f32⟩) (.of main_call2_v10 : StableHlo.TRef sig ⟨S256, .f32⟩) (broadcastInDim S256 ![] bcast_S_S256),
    StableHlo.TRef.binary (.of main_call2_v9 : StableHlo.TRef sig ⟨S256, .f32⟩) (.of main_call2_v10 : StableHlo.TRef sig ⟨S256, .f32⟩) (.of main_call2_v11 : StableHlo.TRef sig ⟨S256, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S256, .f32⟩) (broadcastInDim S256 ![] bcast_S_S256),
    StableHlo.TRef.ternary (.of main_call2_v12 : StableHlo.TRef sig ⟨S_, .i1⟩) (.of main_call2_v11 : StableHlo.TRef sig ⟨S256, .f32⟩) (.of main_call2_call0_v1 : StableHlo.TRef sig ⟨S256, .f32⟩) (.of main_v71 : StableHlo.TRef sig ⟨S256, .f32⟩) (fun p a b => select (broadcastInDim S256 ![] bcast_S_S256 p) a b),
    StableHlo.unary main_v70 main_v72 (broadcastInDim S1x256 ![1] bcast_S256_S1x256_1 : (⟨S256, .f32⟩ : BufTy).Contents (Elt F) → (⟨S1x256, .f32⟩ : BufTy).Contents (Elt F)),
    StableHlo.unary main_v72 main_v73 (broadcastInDim S100000x256 ![0, 1] bcast_S1x256_S100000x256_0_1 : (⟨S1x256, .f32⟩ : BufTy).Contents (Elt F) → (⟨S100000x256, .f32⟩ : BufTy).Contents (Elt F)),
    StableHlo.binary main_v67 main_v73 main_v74 (subf : (⟨S100000x256, .f32⟩ : BufTy).Contents (Elt F) → (⟨S100000x256, .f32⟩ : BufTy).Contents (Elt F) → (⟨S100000x256, .f32⟩ : BufTy).Contents (Elt F)),
    StableHlo.unary main_v49 main_v75 (broadcastInDim S1x256 ![1] bcast_S256_S1x256_1 : (⟨S256, .f32⟩ : BufTy).Contents (Elt F) → (⟨S1x256, .f32⟩ : BufTy).Contents (Elt F)),
    StableHlo.unary main_v75 main_v76 (broadcastInDim S100000x256 ![0, 1] bcast_S1x256_S100000x256_0_1 : (⟨S1x256, .f32⟩ : BufTy).Contents (Elt F) → (⟨S100000x256, .f32⟩ : BufTy).Contents (Elt F)),
    StableHlo.binary main_v76 main_v74 main_v77 (mulf : (⟨S100000x256, .f32⟩ : BufTy).Contents (Elt F) → (⟨S100000x256, .f32⟩ : BufTy).Contents (Elt F) → (⟨S100000x256, .f32⟩ : BufTy).Contents (Elt F)),
    StableHlo.nullary main_cst_11 (constant S_ .f32 0x3727C5AC#32),
    StableHlo.unary main_cst_11 main_v78 (broadcastInDim S256 ![] bcast_S_S256 : (⟨S_, .f32⟩ : BufTy).Contents (Elt F) → (⟨S256, .f32⟩ : BufTy).Contents (Elt F)),
    StableHlo.binary main_v71 main_v78 main_v79 (addf : (⟨S256, .f32⟩ : BufTy).Contents (Elt F) → (⟨S256, .f32⟩ : BufTy).Contents (Elt F) → (⟨S256, .f32⟩ : BufTy).Contents (Elt F)),
    StableHlo.unary main_v79 main_v80 (Host.rsqrt : (⟨S256, .f32⟩ : BufTy).Contents (Elt F) → (⟨S256, .f32⟩ : BufTy).Contents (Elt F)),
    StableHlo.unary main_v80 main_v81 (broadcastInDim S1x256 ![1] bcast_S256_S1x256_1 : (⟨S256, .f32⟩ : BufTy).Contents (Elt F) → (⟨S1x256, .f32⟩ : BufTy).Contents (Elt F)),
    StableHlo.unary main_v81 main_v82 (broadcastInDim S100000x256 ![0, 1] bcast_S1x256_S100000x256_0_1 : (⟨S1x256, .f32⟩ : BufTy).Contents (Elt F) → (⟨S100000x256, .f32⟩ : BufTy).Contents (Elt F)),
    StableHlo.binary main_v77 main_v82 main_v83 (mulf : (⟨S100000x256, .f32⟩ : BufTy).Contents (Elt F) → (⟨S100000x256, .f32⟩ : BufTy).Contents (Elt F) → (⟨S100000x256, .f32⟩ : BufTy).Contents (Elt F)),
    StableHlo.unary main_v51 main_v84 (broadcastInDim S1x256 ![1] bcast_S256_S1x256_1 : (⟨S256, .f32⟩ : BufTy).Contents (Elt F) → (⟨S1x256, .f32⟩ : BufTy).Contents (Elt F)),
    StableHlo.unary main_v84 main_v85 (broadcastInDim S100000x256 ![0, 1] bcast_S1x256_S100000x256_0_1 : (⟨S1x256, .f32⟩ : BufTy).Contents (Elt F) → (⟨S100000x256, .f32⟩ : BufTy).Contents (Elt F)),
    StableHlo.binary main_v83 main_v85 main_v86 (addf : (⟨S100000x256, .f32⟩ : BufTy).Contents (Elt F) → (⟨S100000x256, .f32⟩ : BufTy).Contents (Elt F) → (⟨S100000x256, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x256, .f32⟩) (broadcastInDim S100000x256 ![] bcast_S_S100000x256),
    StableHlo.TRef.binary (.of main_v86 : StableHlo.TRef sig ⟨S100000x256, .f32⟩) (.of main_call3_v0 : StableHlo.TRef sig ⟨S100000x256, .f32⟩) (.of main_v87 : StableHlo.TRef sig ⟨S100000x256, .f32⟩) maximumf ]

/-- Segment 3: 18 operations. -/
abbrev seg3 : List (HloOp τ sig (Elt F)) :=
  [ StableHlo.unary main_arg2 main_v88 ((extractStridedSlice S1x256x256 ![2, 0, 0] · slices_S4x256x256_S1x256x256_2_0_0) : (⟨S4x256x256, .f32⟩ : BufTy).Contents (Elt F) → (⟨S1x256x256, .f32⟩ : BufTy).Contents (Elt F)),
    StableHlo.reshape main_v88 main_v89 rfl shapeCasts_S1x256x256_S256x256,
    StableHlo.unary main_arg3 main_v90 ((extractStridedSlice S1x256x256 ![2, 0, 0] · slices_S4x256x256_S1x256x256_2_0_0) : (⟨S4x256x256, .f32⟩ : BufTy).Contents (Elt F) → (⟨S1x256x256, .f32⟩ : BufTy).Contents (Elt F)),
    StableHlo.reshape main_v90 main_v91 rfl shapeCasts_S1x256x256_S256x256,
    StableHlo.unary main_arg4 main_v92 ((extractStridedSlice S1x256 ![2, 0] · slices_S4x256_S1x256_2_0) : (⟨S4x256, .f32⟩ : BufTy).Contents (Elt F) → (⟨S1x256, .f32⟩ : BufTy).Contents (Elt F)),
    StableHlo.reshape main_v92 main_v93 rfl shapeCasts_S1x256_S256,
    StableHlo.unary main_arg5 main_v94 ((extractStridedSlice S1x256 ![2, 0] · slices_S4x256_S1x256_2_0) : (⟨S4x256, .f32⟩ : BufTy).Contents (Elt F) → (⟨S1x256, .f32⟩ : BufTy).Contents (Elt F)),
    StableHlo.reshape main_v94 main_v95 rfl shapeCasts_S1x256_S256,
    StableHlo.binary main_v87 main_v89 main_v96 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.unary main_arg1 main_v97 (broadcastInDim S300000x1 ![0] bcast_S300000_S300000x1_0 : (⟨S300000, .f32⟩ : BufTy).Contents (Elt F) → (⟨S300000x1, .f32⟩ : BufTy).Contents (Elt F)),
    StableHlo.nullary main_c_12 (constantI S_ 32 0#32),
    StableHlo.unary main_c_12 main_v98 (broadcastInDim S300000 ![] bcast_S_S300000 : (⟨S_, .i32⟩ : BufTy).Contents (Elt F) → (⟨S300000, .i32⟩ : BufTy).Contents (Elt F)),
    StableHlo.binary main_arg7 main_v98 main_v99 (cmpi .slt : (⟨S300000, .i32⟩ : BufTy).Contents (Elt F) → (⟨S300000, .i32⟩ : BufTy).Contents (Elt F) → (⟨S300000, .i1⟩ : BufTy).Contents (Elt F)),
    StableHlo.nullary main_c_13 (constantI S_ 32 100000#32),
    StableHlo.unary main_c_13 main_v100 (broadcastInDim S300000 ![] bcast_S_S300000 : (⟨S_, .i32⟩ : BufTy).Contents (Elt F) → (⟨S300000, .i32⟩ : BufTy).Contents (Elt F)),
    StableHlo.binary main_arg7 main_v100 main_v101 (addi : (⟨S300000, .i32⟩ : BufTy).Contents (Elt F) → (⟨S300000, .i32⟩ : BufTy).Contents (Elt F) → (⟨S300000, .i32⟩ : BufTy).Contents (Elt F)),
    StableHlo.ternary main_v99 main_v101 main_arg7 main_v102 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v102 main_v103 (broadcastInDim S300000x1 ![0] bcast_S300000_S300000x1_0 : (⟨S300000, .i32⟩ : BufTy).Contents (Elt F) → (⟨S300000x1, .i32⟩ : BufTy).Contents (Elt F)) ]

/-- Segment 4: 56 operations. -/
abbrev seg4 : List (HloOp τ sig (Elt F)) :=
  [ StableHlo.binary main_v96 main_v103 main_v104 ((fun x i => Host.gather gather_S100000x256_S300000x1_S300000x256_1_0_n_n_0_1_1256 x i) : (⟨S100000x256, .f32⟩ : BufTy).Contents (Elt F) → (⟨S300000x1, .i32⟩ : BufTy).Contents (Elt F) → (⟨S300000x256, .f32⟩ : BufTy).Contents (Elt F)),
    StableHlo.unary main_v97 main_v105 (broadcastInDim S300000x256 ![0, 1] bcast_S300000x1_S300000x256_0_1 : (⟨S300000x1, .f32⟩ : BufTy).Contents (Elt F) → (⟨S300000x256, .f32⟩ : BufTy).Contents (Elt F)),
    StableHlo.binary main_v105 main_v104 main_v106 (mulf : (⟨S300000x256, .f32⟩ : BufTy).Contents (Elt F) → (⟨S300000x256, .f32⟩ : BufTy).Contents (Elt F) → (⟨S300000x256, .f32⟩ : BufTy).Contents (Elt F)),
    StableHlo.nullary main_cst_14 (constant S_ .f32 0x00000000#32),
    StableHlo.unary main_cst_14 main_v107 (broadcastInDim S100000x256 ![] bcast_S_S100000x256 : (⟨S_, .f32⟩ : BufTy).Contents (Elt F) → (⟨S100000x256, .f32⟩ : BufTy).Contents (Elt F)),
    StableHlo.unary main_arg6 main_v108 (broadcastInDim S300000x1 ![0] bcast_S300000_S300000x1_0 : (⟨S300000, .i32⟩ : BufTy).Contents (Elt F) → (⟨S300000x1, .i32⟩ : BufTy).Contents (Elt F)),
    StableHlo.ternary main_v107 main_v108 main_v106 main_v109 ((fun x i u => Host.scatterAdd scatter_S100000x256_S300000x1_S300000x256_1_0_0_1 x i u) : (⟨S100000x256, .f32⟩ : BufTy).Contents (Elt F) → (⟨S300000x1, .i32⟩ : BufTy).Contents (Elt F) → (⟨S300000x256, .f32⟩ : BufTy).Contents (Elt F) → (⟨S100000x256, .f32⟩ : BufTy).Contents (Elt F)),
    StableHlo.binary main_v87 main_v91 main_v110 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.binary main_v109 main_v110 main_v111 (addf : (⟨S100000x256, .f32⟩ : BufTy).Contents (Elt F) → (⟨S100000x256, .f32⟩ : BufTy).Contents (Elt F) → (⟨S100000x256, .f32⟩ : BufTy).Contents (Elt F)),
    StableHlo.nullary main_cst_15 (constant S_ .f32 0x00000000#32),
    StableHlo.binary main_v111 main_cst_15 main_v112 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    StableHlo.nullary main_cst_16 (constant S_ .f32 0x47C35000#32),
    StableHlo.unary main_cst_16 main_v113 (broadcastInDim S256 ![] bcast_S_S256 : (⟨S_, .f32⟩ : BufTy).Contents (Elt F) → (⟨S256, .f32⟩ : BufTy).Contents (Elt F)),
    StableHlo.binary main_v112 main_v113 main_v114 (Host.divf : (⟨S256, .f32⟩ : BufTy).Contents (Elt F) → (⟨S256, .f32⟩ : BufTy).Contents (Elt F) → (⟨S256, .f32⟩ : BufTy).Contents (Elt F)),
    StableHlo.nullary main_c_17 (constantI S_ 32 0#32),
    StableHlo.TRef.nullary (.of main_call4_cst : StableHlo.TRef sig ⟨S_, .f32⟩) (constant S_ .f32 0x00000000#32),
    StableHlo.TRef.binary (.of main_v111 : StableHlo.TRef sig ⟨S100000x256, .f32⟩) (.of main_call4_cst : StableHlo.TRef sig ⟨S_, .f32⟩) (.of main_call4_v0 : StableHlo.TRef sig ⟨S256, .f32⟩) (fun x v => Host.reduceAdd x v reducesTo_S100000x256_S256_d0 h_S_),
    StableHlo.TRef.unary (.of main_call4_v0 : StableHlo.TRef sig ⟨S256, .f32⟩) (.of main_call4_v1 : StableHlo.TRef sig ⟨S1x256, .f32⟩) (broadcastInDim S1x256 ![1] bcast_S256_S1x256_1),
    StableHlo.TRef.nullary (.of main_call4_cst_0 : StableHlo.TRef sig ⟨S_, .f32⟩) (constant S_ .f32 0x47C35000#32),
    StableHlo.TRef.unary (.of main_call4_cst_0 : StableHlo.TRef sig ⟨S_, .f32⟩) (.of main_call4_v2 : StableHlo.TRef sig ⟨S1x256, .f32⟩) (broadcastInDim S1x256 ![] bcast_S_S1x256),
    StableHlo.TRef.binary (.of main_call4_v1 : StableHlo.TRef sig ⟨S1x256, .f32⟩) (.of main_call4_v2 : StableHlo.TRef sig ⟨S1x256, .f32⟩) (.of main_call4_v3 : StableHlo.TRef sig ⟨S1x256, .f32⟩) Host.divf,
    StableHlo.TRef.unary (.of main_call4_v3 : StableHlo.TRef sig ⟨S1x256, .f32⟩) (.of main_call4_v4 : StableHlo.TRef sig ⟨S100000x256, .f32⟩) (broadcastInDim S100000x256 ![0, 1] bcast_S1x256_S100000x256_0_1),
    StableHlo.TRef.binary (.of main_v111 : StableHlo.TRef sig ⟨S100000x256, .f32⟩) (.of main_call4_v4 : StableHlo.TRef sig ⟨S100000x256, .f32⟩) (.of main_call4_v5 : StableHlo.TRef sig ⟨S100000x256, .f32⟩) subf,
    StableHlo.TRef.binary (.of main_call4_v5 : StableHlo.TRef sig ⟨S100000x256, .f32⟩) (.of main_call4_v5 : StableHlo.TRef sig ⟨S100000x256, .f32⟩) (.of main_call4_v6 : StableHlo.TRef sig ⟨S100000x256, .f32⟩) mulf,
    StableHlo.TRef.unary (.of main_c_17 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47C35000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S100000x256, .f32⟩) (.of main_call4_cst_2 : StableHlo.TRef sig ⟨S_, .f32⟩) (.of main_call4_v9 : StableHlo.TRef sig ⟨S256, .f32⟩) (fun x v => Host.reduceAdd x v reducesTo_S100000x256_S256_d0 h_S_),
    StableHlo.TRef.unary (.of main_call4_v8 : StableHlo.TRef sig ⟨S_, .f32⟩) (.of main_call4_v10 : StableHlo.TRef sig ⟨S256, .f32⟩) (broadcastInDim S256 ![] bcast_S_S256),
    StableHlo.TRef.binary (.of main_call4_v9 : StableHlo.TRef sig ⟨S256, .f32⟩) (.of main_call4_v10 : StableHlo.TRef sig ⟨S256, .f32⟩) (.of main_call4_v11 : StableHlo.TRef sig ⟨S256, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S256, .f32⟩) (broadcastInDim S256 ![] bcast_S_S256),
    StableHlo.TRef.ternary (.of main_call4_v12 : StableHlo.TRef sig ⟨S_, .i1⟩) (.of main_call4_v11 : StableHlo.TRef sig ⟨S256, .f32⟩) (.of main_call4_call0_v1 : StableHlo.TRef sig ⟨S256, .f32⟩) (.of main_v115 : StableHlo.TRef sig ⟨S256, .f32⟩) (fun p a b => select (broadcastInDim S256 ![] bcast_S_S256 p) a b),
    StableHlo.unary main_v114 main_v116 (broadcastInDim S1x256 ![1] bcast_S256_S1x256_1 : (⟨S256, .f32⟩ : BufTy).Contents (Elt F) → (⟨S1x256, .f32⟩ : BufTy).Contents (Elt F)),
    StableHlo.unary main_v116 main_v117 (broadcastInDim S100000x256 ![0, 1] bcast_S1x256_S100000x256_0_1 : (⟨S1x256, .f32⟩ : BufTy).Contents (Elt F) → (⟨S100000x256, .f32⟩ : BufTy).Contents (Elt F)),
    StableHlo.binary main_v111 main_v117 main_v118 (subf : (⟨S100000x256, .f32⟩ : BufTy).Contents (Elt F) → (⟨S100000x256, .f32⟩ : BufTy).Contents (Elt F) → (⟨S100000x256, .f32⟩ : BufTy).Contents (Elt F)),
    StableHlo.unary main_v93 main_v119 (broadcastInDim S1x256 ![1] bcast_S256_S1x256_1 : (⟨S256, .f32⟩ : BufTy).Contents (Elt F) → (⟨S1x256, .f32⟩ : BufTy).Contents (Elt F)),
    StableHlo.unary main_v119 main_v120 (broadcastInDim S100000x256 ![0, 1] bcast_S1x256_S100000x256_0_1 : (⟨S1x256, .f32⟩ : BufTy).Contents (Elt F) → (⟨S100000x256, .f32⟩ : BufTy).Contents (Elt F)),
    StableHlo.binary main_v120 main_v118 main_v121 (mulf : (⟨S100000x256, .f32⟩ : BufTy).Contents (Elt F) → (⟨S100000x256, .f32⟩ : BufTy).Contents (Elt F) → (⟨S100000x256, .f32⟩ : BufTy).Contents (Elt F)),
    StableHlo.nullary main_cst_18 (constant S_ .f32 0x3727C5AC#32),
    StableHlo.unary main_cst_18 main_v122 (broadcastInDim S256 ![] bcast_S_S256 : (⟨S_, .f32⟩ : BufTy).Contents (Elt F) → (⟨S256, .f32⟩ : BufTy).Contents (Elt F)),
    StableHlo.binary main_v115 main_v122 main_v123 (addf : (⟨S256, .f32⟩ : BufTy).Contents (Elt F) → (⟨S256, .f32⟩ : BufTy).Contents (Elt F) → (⟨S256, .f32⟩ : BufTy).Contents (Elt F)),
    StableHlo.unary main_v123 main_v124 (Host.rsqrt : (⟨S256, .f32⟩ : BufTy).Contents (Elt F) → (⟨S256, .f32⟩ : BufTy).Contents (Elt F)),
    StableHlo.unary main_v124 main_v125 (broadcastInDim S1x256 ![1] bcast_S256_S1x256_1 : (⟨S256, .f32⟩ : BufTy).Contents (Elt F) → (⟨S1x256, .f32⟩ : BufTy).Contents (Elt F)),
    StableHlo.unary main_v125 main_v126 (broadcastInDim S100000x256 ![0, 1] bcast_S1x256_S100000x256_0_1 : (⟨S1x256, .f32⟩ : BufTy).Contents (Elt F) → (⟨S100000x256, .f32⟩ : BufTy).Contents (Elt F)),
    StableHlo.binary main_v121 main_v126 main_v127 (mulf : (⟨S100000x256, .f32⟩ : BufTy).Contents (Elt F) → (⟨S100000x256, .f32⟩ : BufTy).Contents (Elt F) → (⟨S100000x256, .f32⟩ : BufTy).Contents (Elt F)),
    StableHlo.unary main_v95 main_v128 (broadcastInDim S1x256 ![1] bcast_S256_S1x256_1 : (⟨S256, .f32⟩ : BufTy).Contents (Elt F) → (⟨S1x256, .f32⟩ : BufTy).Contents (Elt F)),
    StableHlo.unary main_v128 main_v129 (broadcastInDim S100000x256 ![0, 1] bcast_S1x256_S100000x256_0_1 : (⟨S1x256, .f32⟩ : BufTy).Contents (Elt F) → (⟨S100000x256, .f32⟩ : BufTy).Contents (Elt F)),
    StableHlo.binary main_v127 main_v129 main_v130 (addf : (⟨S100000x256, .f32⟩ : BufTy).Contents (Elt F) → (⟨S100000x256, .f32⟩ : BufTy).Contents (Elt F) → (⟨S100000x256, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S100000x256, .f32⟩) (broadcastInDim S100000x256 ![] bcast_S_S100000x256),
    StableHlo.TRef.binary (.of main_v130 : StableHlo.TRef sig ⟨S100000x256, .f32⟩) (.of main_call5_v0 : StableHlo.TRef sig ⟨S100000x256, .f32⟩) (.of main_v131 : StableHlo.TRef sig ⟨S100000x256, .f32⟩) maximumf ]

/-- Segment 5: 27 operations. -/
abbrev seg5 : List (HloOp τ sig (Elt F)) :=
  [ StableHlo.unary main_arg2 main_v132 ((extractStridedSlice S1x256x256 ![3, 0, 0] · slices_S4x256x256_S1x256x256_3_0_0) : (⟨S4x256x256, .f32⟩ : BufTy).Contents (Elt F) → (⟨S1x256x256, .f32⟩ : BufTy).Contents (Elt F)),
    StableHlo.reshape main_v132 main_v133 rfl shapeCasts_S1x256x256_S256x256,
    StableHlo.unary main_arg3 main_v134 ((extractStridedSlice S1x256x256 ![3, 0, 0] · slices_S4x256x256_S1x256x256_3_0_0) : (⟨S4x256x256, .f32⟩ : BufTy).Contents (Elt F) → (⟨S1x256x256, .f32⟩ : BufTy).Contents (Elt F)),
    StableHlo.reshape main_v134 main_v135 rfl shapeCasts_S1x256x256_S256x256,
    StableHlo.unary main_arg4 main_v136 ((extractStridedSlice S1x256 ![3, 0] · slices_S4x256_S1x256_3_0) : (⟨S4x256, .f32⟩ : BufTy).Contents (Elt F) → (⟨S1x256, .f32⟩ : BufTy).Contents (Elt F)),
    StableHlo.reshape main_v136 main_v137 rfl shapeCasts_S1x256_S256,
    StableHlo.unary main_arg5 main_v138 ((extractStridedSlice S1x256 ![3, 0] · slices_S4x256_S1x256_3_0) : (⟨S4x256, .f32⟩ : BufTy).Contents (Elt F) → (⟨S1x256, .f32⟩ : BufTy).Contents (Elt F)),
    StableHlo.reshape main_v138 main_v139 rfl shapeCasts_S1x256_S256,
    StableHlo.binary main_v131 main_v133 main_v140 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.unary main_arg1 main_v141 (broadcastInDim S300000x1 ![0] bcast_S300000_S300000x1_0 : (⟨S300000, .f32⟩ : BufTy).Contents (Elt F) → (⟨S300000x1, .f32⟩ : BufTy).Contents (Elt F)),
    StableHlo.nullary main_c_19 (constantI S_ 32 0#32),
    StableHlo.unary main_c_19 main_v142 (broadcastInDim S300000 ![] bcast_S_S300000 : (⟨S_, .i32⟩ : BufTy).Contents (Elt F) → (⟨S300000, .i32⟩ : BufTy).Contents (Elt F)),
    StableHlo.binary main_arg7 main_v142 main_v143 (cmpi .slt : (⟨S300000, .i32⟩ : BufTy).Contents (Elt F) → (⟨S300000, .i32⟩ : BufTy).Contents (Elt F) → (⟨S300000, .i1⟩ : BufTy).Contents (Elt F)),
    StableHlo.nullary main_c_20 (constantI S_ 32 100000#32),
    StableHlo.unary main_c_20 main_v144 (broadcastInDim S300000 ![] bcast_S_S300000 : (⟨S_, .i32⟩ : BufTy).Contents (Elt F) → (⟨S300000, .i32⟩ : BufTy).Contents (Elt F)),
    StableHlo.binary main_arg7 main_v144 main_v145 (addi : (⟨S300000, .i32⟩ : BufTy).Contents (Elt F) → (⟨S300000, .i32⟩ : BufTy).Contents (Elt F) → (⟨S300000, .i32⟩ : BufTy).Contents (Elt F)),
    StableHlo.ternary main_v143 main_v145 main_arg7 main_v146 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v146 main_v147 (broadcastInDim S300000x1 ![0] bcast_S300000_S300000x1_0 : (⟨S300000, .i32⟩ : BufTy).Contents (Elt F) → (⟨S300000x1, .i32⟩ : BufTy).Contents (Elt F)),
    StableHlo.binary main_v140 main_v147 main_v148 ((fun x i => Host.gather gather_S100000x256_S300000x1_S300000x256_1_0_n_n_0_1_1256 x i) : (⟨S100000x256, .f32⟩ : BufTy).Contents (Elt F) → (⟨S300000x1, .i32⟩ : BufTy).Contents (Elt F) → (⟨S300000x256, .f32⟩ : BufTy).Contents (Elt F)),
    StableHlo.unary main_v141 main_v149 (broadcastInDim S300000x256 ![0, 1] bcast_S300000x1_S300000x256_0_1 : (⟨S300000x1, .f32⟩ : BufTy).Contents (Elt F) → (⟨S300000x256, .f32⟩ : BufTy).Contents (Elt F)),
    StableHlo.binary main_v149 main_v148 main_v150 (mulf : (⟨S300000x256, .f32⟩ : BufTy).Contents (Elt F) → (⟨S300000x256, .f32⟩ : BufTy).Contents (Elt F) → (⟨S300000x256, .f32⟩ : BufTy).Contents (Elt F)),
    StableHlo.nullary main_cst_21 (constant S_ .f32 0x00000000#32),
    StableHlo.unary main_cst_21 main_v151 (broadcastInDim S100000x256 ![] bcast_S_S100000x256 : (⟨S_, .f32⟩ : BufTy).Contents (Elt F) → (⟨S100000x256, .f32⟩ : BufTy).Contents (Elt F)),
    StableHlo.unary main_arg6 main_v152 (broadcastInDim S300000x1 ![0] bcast_S300000_S300000x1_0 : (⟨S300000, .i32⟩ : BufTy).Contents (Elt F) → (⟨S300000x1, .i32⟩ : BufTy).Contents (Elt F)),
    StableHlo.ternary main_v151 main_v152 main_v150 main_v153 ((fun x i u => Host.scatterAdd scatter_S100000x256_S300000x1_S300000x256_1_0_0_1 x i u) : (⟨S100000x256, .f32⟩ : BufTy).Contents (Elt F) → (⟨S300000x1, .i32⟩ : BufTy).Contents (Elt F) → (⟨S300000x256, .f32⟩ : BufTy).Contents (Elt F) → (⟨S100000x256, .f32⟩ : BufTy).Contents (Elt F)),
    StableHlo.binary main_v131 main_v135 main_v154 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.binary main_v153 main_v154 main_v155 (addf : (⟨S100000x256, .f32⟩ : BufTy).Contents (Elt F) → (⟨S100000x256, .f32⟩ : BufTy).Contents (Elt F) → (⟨S100000x256, .f32⟩ : BufTy).Contents (Elt F)) ]

/-- Segment 6: 47 operations. -/
abbrev seg6 : List (HloOp τ sig (Elt F)) :=
  [ StableHlo.nullary main_cst_22 (constant S_ .f32 0x00000000#32),
    StableHlo.binary main_v155 main_cst_22 main_v156 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    StableHlo.nullary main_cst_23 (constant S_ .f32 0x47C35000#32),
    StableHlo.unary main_cst_23 main_v157 (broadcastInDim S256 ![] bcast_S_S256 : (⟨S_, .f32⟩ : BufTy).Contents (Elt F) → (⟨S256, .f32⟩ : BufTy).Contents (Elt F)),
    StableHlo.binary main_v156 main_v157 main_v158 (Host.divf : (⟨S256, .f32⟩ : BufTy).Contents (Elt F) → (⟨S256, .f32⟩ : BufTy).Contents (Elt F) → (⟨S256, .f32⟩ : BufTy).Contents (Elt F)),
    StableHlo.nullary main_c_24 (constantI S_ 32 0#32),
    StableHlo.TRef.nullary (.of main_call6_cst : StableHlo.TRef sig ⟨S_, .f32⟩) (constant S_ .f32 0x00000000#32),
    StableHlo.TRef.binary (.of main_v155 : StableHlo.TRef sig ⟨S100000x256, .f32⟩) (.of main_call6_cst : StableHlo.TRef sig ⟨S_, .f32⟩) (.of main_call6_v0 : StableHlo.TRef sig ⟨S256, .f32⟩) (fun x v => Host.reduceAdd x v reducesTo_S100000x256_S256_d0 h_S_),
    StableHlo.TRef.unary (.of main_call6_v0 : StableHlo.TRef sig ⟨S256, .f32⟩) (.of main_call6_v1 : StableHlo.TRef sig ⟨S1x256, .f32⟩) (broadcastInDim S1x256 ![1] bcast_S256_S1x256_1),
    StableHlo.TRef.nullary (.of main_call6_cst_0 : StableHlo.TRef sig ⟨S_, .f32⟩) (constant S_ .f32 0x47C35000#32),
    StableHlo.TRef.unary (.of main_call6_cst_0 : StableHlo.TRef sig ⟨S_, .f32⟩) (.of main_call6_v2 : StableHlo.TRef sig ⟨S1x256, .f32⟩) (broadcastInDim S1x256 ![] bcast_S_S1x256),
    StableHlo.TRef.binary (.of main_call6_v1 : StableHlo.TRef sig ⟨S1x256, .f32⟩) (.of main_call6_v2 : StableHlo.TRef sig ⟨S1x256, .f32⟩) (.of main_call6_v3 : StableHlo.TRef sig ⟨S1x256, .f32⟩) Host.divf,
    StableHlo.TRef.unary (.of main_call6_v3 : StableHlo.TRef sig ⟨S1x256, .f32⟩) (.of main_call6_v4 : StableHlo.TRef sig ⟨S100000x256, .f32⟩) (broadcastInDim S100000x256 ![0, 1] bcast_S1x256_S100000x256_0_1),
    StableHlo.TRef.binary (.of main_v155 : StableHlo.TRef sig ⟨S100000x256, .f32⟩) (.of main_call6_v4 : StableHlo.TRef sig ⟨S100000x256, .f32⟩) (.of main_call6_v5 : StableHlo.TRef sig ⟨S100000x256, .f32⟩) subf,
    StableHlo.TRef.binary (.of main_call6_v5 : StableHlo.TRef sig ⟨S100000x256, .f32⟩) (.of main_call6_v5 : StableHlo.TRef sig ⟨S100000x256, .f32⟩) (.of main_call6_v6 : StableHlo.TRef sig ⟨S100000x256, .f32⟩) mulf,
    StableHlo.TRef.unary (.of main_c_24 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x47C35000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S100000x256, .f32⟩) (.of main_call6_cst_2 : StableHlo.TRef sig ⟨S_, .f32⟩) (.of main_call6_v9 : StableHlo.TRef sig ⟨S256, .f32⟩) (fun x v => Host.reduceAdd x v reducesTo_S100000x256_S256_d0 h_S_),
    StableHlo.TRef.unary (.of main_call6_v8 : StableHlo.TRef sig ⟨S_, .f32⟩) (.of main_call6_v10 : StableHlo.TRef sig ⟨S256, .f32⟩) (broadcastInDim S256 ![] bcast_S_S256),
    StableHlo.TRef.binary (.of main_call6_v9 : StableHlo.TRef sig ⟨S256, .f32⟩) (.of main_call6_v10 : StableHlo.TRef sig ⟨S256, .f32⟩) (.of main_call6_v11 : StableHlo.TRef sig ⟨S256, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S256, .f32⟩) (broadcastInDim S256 ![] bcast_S_S256),
    StableHlo.TRef.ternary (.of main_call6_v12 : StableHlo.TRef sig ⟨S_, .i1⟩) (.of main_call6_v11 : StableHlo.TRef sig ⟨S256, .f32⟩) (.of main_call6_call0_v1 : StableHlo.TRef sig ⟨S256, .f32⟩) (.of main_v159 : StableHlo.TRef sig ⟨S256, .f32⟩) (fun p a b => select (broadcastInDim S256 ![] bcast_S_S256 p) a b),
    StableHlo.unary main_v158 main_v160 (broadcastInDim S1x256 ![1] bcast_S256_S1x256_1 : (⟨S256, .f32⟩ : BufTy).Contents (Elt F) → (⟨S1x256, .f32⟩ : BufTy).Contents (Elt F)),
    StableHlo.unary main_v160 main_v161 (broadcastInDim S100000x256 ![0, 1] bcast_S1x256_S100000x256_0_1 : (⟨S1x256, .f32⟩ : BufTy).Contents (Elt F) → (⟨S100000x256, .f32⟩ : BufTy).Contents (Elt F)),
    StableHlo.binary main_v155 main_v161 main_v162 (subf : (⟨S100000x256, .f32⟩ : BufTy).Contents (Elt F) → (⟨S100000x256, .f32⟩ : BufTy).Contents (Elt F) → (⟨S100000x256, .f32⟩ : BufTy).Contents (Elt F)),
    StableHlo.unary main_v137 main_v163 (broadcastInDim S1x256 ![1] bcast_S256_S1x256_1 : (⟨S256, .f32⟩ : BufTy).Contents (Elt F) → (⟨S1x256, .f32⟩ : BufTy).Contents (Elt F)),
    StableHlo.unary main_v163 main_v164 (broadcastInDim S100000x256 ![0, 1] bcast_S1x256_S100000x256_0_1 : (⟨S1x256, .f32⟩ : BufTy).Contents (Elt F) → (⟨S100000x256, .f32⟩ : BufTy).Contents (Elt F)),
    StableHlo.binary main_v164 main_v162 main_v165 (mulf : (⟨S100000x256, .f32⟩ : BufTy).Contents (Elt F) → (⟨S100000x256, .f32⟩ : BufTy).Contents (Elt F) → (⟨S100000x256, .f32⟩ : BufTy).Contents (Elt F)),
    StableHlo.nullary main_cst_25 (constant S_ .f32 0x3727C5AC#32),
    StableHlo.unary main_cst_25 main_v166 (broadcastInDim S256 ![] bcast_S_S256 : (⟨S_, .f32⟩ : BufTy).Contents (Elt F) → (⟨S256, .f32⟩ : BufTy).Contents (Elt F)),
    StableHlo.binary main_v159 main_v166 main_v167 (addf : (⟨S256, .f32⟩ : BufTy).Contents (Elt F) → (⟨S256, .f32⟩ : BufTy).Contents (Elt F) → (⟨S256, .f32⟩ : BufTy).Contents (Elt F)),
    StableHlo.unary main_v167 main_v168 (Host.rsqrt : (⟨S256, .f32⟩ : BufTy).Contents (Elt F) → (⟨S256, .f32⟩ : BufTy).Contents (Elt F)),
    StableHlo.unary main_v168 main_v169 (broadcastInDim S1x256 ![1] bcast_S256_S1x256_1 : (⟨S256, .f32⟩ : BufTy).Contents (Elt F) → (⟨S1x256, .f32⟩ : BufTy).Contents (Elt F)),
    StableHlo.unary main_v169 main_v170 (broadcastInDim S100000x256 ![0, 1] bcast_S1x256_S100000x256_0_1 : (⟨S1x256, .f32⟩ : BufTy).Contents (Elt F) → (⟨S100000x256, .f32⟩ : BufTy).Contents (Elt F)),
    StableHlo.binary main_v165 main_v170 main_v171 (mulf : (⟨S100000x256, .f32⟩ : BufTy).Contents (Elt F) → (⟨S100000x256, .f32⟩ : BufTy).Contents (Elt F) → (⟨S100000x256, .f32⟩ : BufTy).Contents (Elt F)),
    StableHlo.unary main_v139 main_v172 (broadcastInDim S1x256 ![1] bcast_S256_S1x256_1 : (⟨S256, .f32⟩ : BufTy).Contents (Elt F) → (⟨S1x256, .f32⟩ : BufTy).Contents (Elt F)),
    StableHlo.unary main_v172 main_v173 (broadcastInDim S100000x256 ![0, 1] bcast_S1x256_S100000x256_0_1 : (⟨S1x256, .f32⟩ : BufTy).Contents (Elt F) → (⟨S100000x256, .f32⟩ : BufTy).Contents (Elt F)),
    StableHlo.binary main_v171 main_v173 main_v174 (addf : (⟨S100000x256, .f32⟩ : BufTy).Contents (Elt F) → (⟨S100000x256, .f32⟩ : BufTy).Contents (Elt F) → (⟨S100000x256, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S100000x256, .f32⟩) (broadcastInDim S100000x256 ![] bcast_S_S100000x256),
    StableHlo.TRef.binary (.of main_v174 : StableHlo.TRef sig ⟨S100000x256, .f32⟩) (.of main_call7_v0 : StableHlo.TRef sig ⟨S100000x256, .f32⟩) (.of main_v175 : StableHlo.TRef sig ⟨S100000x256, .f32⟩) maximumf ]

/-- Segment 7: 1 operations. -/
abbrev seg7 : List (HloOp τ sig (Elt F)) :=
  [ StableHlo.binary main_v175 main_arg0 main_v176 ((fun a b => concatenate S100000x512 1 [⟨S100000x256, a⟩, ⟨S100000x256, b⟩] concatenates_S100000x256_S100000x256_S100000x512_d1) : (⟨S100000x256, .f32⟩ : BufTy).Contents (Elt F) → (⟨S100000x256, .f32⟩ : BufTy).Contents (Elt F) → (⟨S100000x512, .f32⟩ : BufTy).Contents (Elt F)) ]

/-- @main as one straight line: 297 operations. -/
abbrev ops : List (HloOp τ sig (Elt F)) :=
  seg0 ++ (seg1 ++ (seg2 ++ (seg3 ++ (seg4 ++ (seg5 ++ (seg6 ++ seg7))))))

end Cert.ReferenceIdeal.RefRun

end
-- ==== Proof.RefOps.lean ====
/-
  The reference program's run.

  The reference's @main is a straight line of StableHLO operations: 197 of its own and, at each of its eight calls,
  the callee's — the variance helper's twenty-two (nineteen of its own and the three of the select helper it calls)
  and the rectifier's three — 297 in all. A call means its callee's body over the call's buffers, so once the three
  bodies are unfolded at their call sites and the calls' buffer records at their fields, @main is one chain of
  operation steps: StableHlo.seq of the list ops (the eight segments seg0 .. seg7 one after the other). @main is
  printed as four windows run in order; each window is the chain of two consecutive segments (main_partK_eq), and
  chains run one after the other are the chain of the concatenation (StableHlo.seq_append), which gives main_eq.

  Every operation of the list touches TensorCore references only and determines all it writes (ops_sub, ops_fresh),
  and the signature scopes no buffer and no semaphore, so the library's run of a straight line applies (run_main):
  every weakly fair execution terminates with each TensorCore buffer at the fold of the operations over the launch
  contents, StableHlo.after ops.
-/
import proofs.«129831_j68247030334290_1_alg».proof.Proof.RefOpsList
import Idealize.ShloMosaic.Lib.StableHlo.Run

noncomputable section

namespace Cert.ReferenceIdeal.RefRun

open Idealize.ShloMosaic Idealize.ShloMosaic.TcCoe Idealize.ShloMosaic.StableHlo Idealize.SL.Sem Cert.ReferenceIdeal.Gen

variable {F : FTy → Type} [FloatOps F]

/-! ## @main is the straight line -/

/-- The first window: segments 0 and 1. The helpers' bodies unfold at their calls, the segments at their entries;
    both sides are then one chain of operation steps once sequencing is reassociated. -/
theorem main_part0_eq (c : Dev nD) : main_part0 (F := F) c = seq (seg0 ++ seg1) := by
  simp only [main_part0, fn_var.body, fn_where.body, fn_relu.body, seg0, seg1, List.cons_append, List.nil_append,
    seq, bind_assoc, pure_bind] <;> rfl

/-- The second window: segments 2 and 3. -/
theorem main_part1_eq (c : Dev nD) : main_part1 (F := F) c = seq (seg2 ++ seg3) := by
  simp only [main_part1, fn_var.body, fn_where.body, fn_relu.body, seg2, seg3, List.cons_append, List.nil_append,
    seq, bind_assoc, pure_bind] <;> rfl

/-- The third window: segments 4 and 5. -/
theorem main_part2_eq (c : Dev nD) : main_part2 (F := F) c = seq (seg4 ++ seg5) := by
  simp only [main_part2, fn_var.body, fn_where.body, fn_relu.body, seg4, seg5, List.cons_append, List.nil_append,
    seq, bind_assoc, pure_bind] <;> rfl

/-- The fourth window: segments 6 and 7. -/
theorem main_part3_eq (c : Dev nD) : main_part3 (F := F) c = seq (seg6 ++ seg7) := by
  simp only [main_part3, fn_var.body, fn_where.body, fn_relu.body, seg6, seg7, List.cons_append, List.nil_append,
    seq, bind_assoc, pure_bind] <;> rfl

/-- @main runs its four windows in order, so it is the chain of all eight segments. -/
theorem main_eq (c : Dev nD) : main (F := F) c = seq ops := by
  simp only [main, ops, main_part0_eq, main_part1_eq, main_part2_eq, main_part3_eq, seq_append, bind_assoc]

/-! ## The side conditions of the library's run -/

/-- Each operation of a literal list of the builders touches TensorCore references only: the list's conjunction,
    each conjunct the builder's own fact. -/
macro "bufs_sub_list" : tactic =>
  `(tactic| simp only [List.Forall, nullary_bufs_sub, unary_bufs_sub, binary_bufs_sub, ternary_bufs_sub, reshape_bufs_sub,
      and_self])

/-- No operation of a literal list of the builders leaves a written buffer undetermined: none of the builders used
    here has a fresh buffer, by definition. -/
macro "fresh_list" : tactic => `(tactic| repeat' (first | rfl | refine ⟨?_, ?_⟩))

theorem seg0_sub : (seg0 : List (HloOp τ sig (Elt F))).Forall fun op => op.bufs ⊆ tcRefs τ sig := by bufs_sub_list
theorem seg1_sub : (seg1 : List (HloOp τ sig (Elt F))).Forall fun op => op.bufs ⊆ tcRefs τ sig := by bufs_sub_list
theorem seg2_sub : (seg2 : List (HloOp τ sig (Elt F))).Forall fun op => op.bufs ⊆ tcRefs τ sig := by bufs_sub_list
theorem seg3_sub : (seg3 : List (HloOp τ sig (Elt F))).Forall fun op => op.bufs ⊆ tcRefs τ sig := by bufs_sub_list
theorem seg4_sub : (seg4 : List (HloOp τ sig (Elt F))).Forall fun op => op.bufs ⊆ tcRefs τ sig := by bufs_sub_list
theorem seg5_sub : (seg5 : List (HloOp τ sig (Elt F))).Forall fun op => op.bufs ⊆ tcRefs τ sig := by bufs_sub_list
theorem seg6_sub : (seg6 : List (HloOp τ sig (Elt F))).Forall fun op => op.bufs ⊆ tcRefs τ sig := by bufs_sub_list
theorem seg7_sub : (seg7 : List (HloOp τ sig (Elt F))).Forall fun op => op.bufs ⊆ tcRefs τ sig := by bufs_sub_list

/-- Every operation of @main touches TensorCore references only. -/
theorem ops_sub : (ops : List (HloOp τ sig (Elt F))).Forall fun op => op.bufs ⊆ tcRefs τ sig := by
  simp only [ops, List.forall_append]
  exact ⟨seg0_sub, seg1_sub, seg2_sub, seg3_sub, seg4_sub, seg5_sub, seg6_sub, seg7_sub⟩

theorem seg0_fresh : (seg0 : List (HloOp τ sig (Elt F))).Forall fun op => op.fresh = ∅ := by fresh_list
theorem seg1_fresh : (seg1 : List (HloOp τ sig (Elt F))).Forall fun op => op.fresh = ∅ := by fresh_list
theorem seg2_fresh : (seg2 : List (HloOp τ sig (Elt F))).Forall fun op => op.fresh = ∅ := by fresh_list
theorem seg3_fresh : (seg3 : List (HloOp τ sig (Elt F))).Forall fun op => op.fresh = ∅ := by fresh_list
theorem seg4_fresh : (seg4 : List (HloOp τ sig (Elt F))).Forall fun op => op.fresh = ∅ := by fresh_list
theorem seg5_fresh : (seg5 : List (HloOp τ sig (Elt F))).Forall fun op => op.fresh = ∅ := by fresh_list
theorem seg6_fresh : (seg6 : List (HloOp τ sig (Elt F))).Forall fun op => op.fresh = ∅ := by fresh_list
theorem seg7_fresh : (seg7 : List (HloOp τ sig (Elt F))).Forall fun op => op.fresh = ∅ := by fresh_list

/-- Every operation of @main determines all it writes. -/
theorem ops_fresh : ∀ op ∈ (ops : List (HloOp τ sig (Elt F))), op.fresh = ∅ := by
  intro op h
  simp only [ops, List.mem_append] at h
  rcases h with h | h | h | h | h | h | h | h
  · exact List.forall_iff_forall_mem.1 seg0_fresh op h
  · exact List.forall_iff_forall_mem.1 seg1_fresh op h
  · exact List.forall_iff_forall_mem.1 seg2_fresh op h
  · exact List.forall_iff_forall_mem.1 seg3_fresh op h
  · exact List.forall_iff_forall_mem.1 seg4_fresh op h
  · exact List.forall_iff_forall_mem.1 seg5_fresh op h
  · exact List.forall_iff_forall_mem.1 seg6_fresh op h
  · exact List.forall_iff_forall_mem.1 seg7_fresh op h

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefValue.lean ====
/-
  The reference's value.

  The reference's @main is the straight line ops (RefOps.lean): 297 operations, in eight consecutive segments. Its
  result buffer ends at the fold of the operations over the launch contents, and that fold is the written-once
  computation outR of the eight argument contents:

  * the fold over a concatenation is the fold over its second part of the fold over its first (after_append), so the
    fold over ops is the eight segments' folds composed;
  * segment 0, segments 1-2, segments 3-4 and segments 5-6 are the four layers. A layer's operations read the previous
    layer's result buffer (the first layer: the feature argument), the layer's own slices of the stacked weights,
    scales and shifts, and the edge arguments, and leave in the layer's result buffer exactly layerR of those contents:
    the fold unrolled, each operation's result decides whether the buffer read is the one it writes, and what is left
    is the composition of the operations' functions, which is layerR's definition unfolded (layerK_eq, by
    computation). The gather, the scatter-add, the column sums and the matrix products are kept folded meanwhile: the
    equation never looks inside them (the three defined ones are marked irreducible for the comparison; the matrix
    product is a method of the float structure, which stays abstract because the layer lemmas are proved for every
    float structure F);
  * no operation of a layer writes an argument buffer, so the eight arguments keep their contents across each layer
    (Keeps, keepK) — which is what lets the next layer read the same weights and edges, and the final concatenation
    the same features;
  * segment 7 is the concatenation of the fourth layer's result with the feature argument (last_eq).

  Chaining these is a statement about five valuations only — the launch contents and the contents after each layer —
  related by the four layer equations and the four Keeps facts (chain): substituting from the last layer back to the
  first gives outR's definition, four nested layerR and then the concatenation (out_eq'). At the extended reals
  (out_eq, argK_eq) and through the run of the straight line (RefRun.run_main) this is the statement run: every weakly
  fair execution of the reference terminates with its result buffer at outR of the launch contents of its arguments,
  and its arguments unchanged.
-/
import proofs.«129831_j68247030334290_1_alg».proof.Proof.RefOps
import proofs.«129831_j68247030334290_1_alg».proof.Proof.Spec

noncomputable section

namespace Cert.ReferenceIdeal.RefValue

open Idealize.ShloMosaic Idealize.ShloMosaic.TcCoe Idealize.ShloMosaic.StableHlo Idealize.SL.Sem
open Cert.ReferenceIdeal.Gen Cert.ReferenceIdeal.RefRun Cert.Spec

section AnyFloats

variable {F : FTy → Type} [FloatOps F]

/-- The fold over two lines one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## The four layers -/

attribute [local irreducible] Host.gather Host.scatterAdd Host.reduceAdd in
set_option maxRecDepth 65536 in
set_option maxHeartbeats 4000000 in
/-- The first layer (segment 0): from the feature argument and the stacks' slices 0. -/
theorem layer1_eq (V : Valuation τ sig (Elt F)) :
    after seg0 V (main_v43 : DevRef τ sig)
      = layerR (V (main_arg0 : DevRef τ sig)) (mat0 (V (main_arg2 : DevRef τ sig))) (mat0 (V (main_arg3 : DevRef τ sig)))
          (col0 (V (main_arg4 : DevRef τ sig))) (col0 (V (main_arg5 : DevRef τ sig)))
          (V (main_arg1 : DevRef τ sig)) (V (main_arg6 : DevRef τ sig)) (V (main_arg7 : DevRef τ sig)) := by
  simp only [seg0, after_cons, after_nil]
  rfl

attribute [local irreducible] Host.gather Host.scatterAdd Host.reduceAdd in
set_option maxRecDepth 65536 in
set_option maxHeartbeats 4000000 in
/-- The second layer (segments 1 and 2): from the first layer's result and the stacks' slices 1. -/
theorem layer2_eq (V : Valuation τ sig (Elt F)) :
    after seg2 (after seg1 V) (main_v87 : DevRef τ sig)
      = layerR (V (main_v43 : DevRef τ sig)) (mat1 (V (main_arg2 : DevRef τ sig))) (mat1 (V (main_arg3 : DevRef τ sig)))
          (col1 (V (main_arg4 : DevRef τ sig))) (col1 (V (main_arg5 : DevRef τ sig)))
          (V (main_arg1 : DevRef τ sig)) (V (main_arg6 : DevRef τ sig)) (V (main_arg7 : DevRef τ sig)) := by
  simp only [seg1, seg2, after_cons, after_nil]
  rfl

attribute [local irreducible] Host.gather Host.scatterAdd Host.reduceAdd in
set_option maxRecDepth 65536 in
set_option maxHeartbeats 4000000 in
/-- The third layer (segments 3 and 4): from the second layer's result and the stacks' slices 2. -/
theorem layer3_eq (V : Valuation τ sig (Elt F)) :
    after seg4 (after seg3 V) (main_v131 : DevRef τ sig)
      = layerR (V (main_v87 : DevRef τ sig)) (mat2 (V (main_arg2 : DevRef τ sig))) (mat2 (V (main_arg3 : DevRef τ sig)))
          (col2 (V (main_arg4 : DevRef τ sig))) (col2 (V (main_arg5 : DevRef τ sig)))
          (V (main_arg1 : DevRef τ sig)) (V (main_arg6 : DevRef τ sig)) (V (main_arg7 : DevRef τ sig)) := by
  simp only [seg3, seg4, after_cons, after_nil]
  rfl

attribute [local irreducible] Host.gather Host.scatterAdd Host.reduceAdd in
set_option maxRecDepth 65536 in
set_option maxHeartbeats 4000000 in
/-- The fourth layer (segments 5 and 6): from the third layer's result and the stacks' slices 3. -/
theorem layer4_eq (V : Valuation τ sig (Elt F)) :
    after seg6 (after seg5 V) (main_v175 : DevRef τ sig)
      = layerR (V (main_v131 : DevRef τ sig)) (mat3 (V (main_arg2 : DevRef τ sig))) (mat3 (V (main_arg3 : DevRef τ sig)))
          (col3 (V (main_arg4 : DevRef τ sig))) (col3 (V (main_arg5 : DevRef τ sig)))
          (V (main_arg1 : DevRef τ sig)) (V (main_arg6 : DevRef τ sig)) (V (main_arg7 : DevRef τ sig)) := by
  simp only [seg5, seg6, after_cons, after_nil]
  rfl

/-- The final concatenation (segment 7): the fourth layer's result beside the feature argument. -/
theorem last_eq (V : Valuation τ sig (Elt F)) :
    after seg7 V (main_v176 : DevRef τ sig)
      = concatenate S100000x512 1 [⟨S100000x256, V (main_v175 : DevRef τ sig)⟩, ⟨S100000x256, V (main_arg0 : DevRef τ sig)⟩]
          concatenates_S100000x256_S100000x256_S100000x512_d1 := by
  simp only [seg7, after_cons, after_nil]
  rfl

/-! ## The arguments are kept -/

/-- `W` holds each of the eight argument buffers as `V` does. -/
def Keeps (V W : Valuation τ sig (Elt F)) : Prop :=
  W (main_arg0 : DevRef τ sig) = V (main_arg0 : DevRef τ sig)
  ∧ W (main_arg1 : DevRef τ sig) = V (main_arg1 : DevRef τ sig)
  ∧ W (main_arg2 : DevRef τ sig) = V (main_arg2 : DevRef τ sig)
  ∧ W (main_arg3 : DevRef τ sig) = V (main_arg3 : DevRef τ sig)
  ∧ W (main_arg4 : DevRef τ sig) = V (main_arg4 : DevRef τ sig)
  ∧ W (main_arg5 : DevRef τ sig) = V (main_arg5 : DevRef τ sig)
  ∧ W (main_arg6 : DevRef τ sig) = V (main_arg6 : DevRef τ sig)
  ∧ W (main_arg7 : DevRef τ sig) = V (main_arg7 : DevRef τ sig)

/-- Keeping composes. -/
theorem Keeps.trans {U V W : Valuation τ sig (Elt F)} (h : Keeps U V) (h' : Keeps V W) : Keeps U W :=
  ⟨h'.1.trans h.1, h'.2.1.trans h.2.1, h'.2.2.1.trans h.2.2.1, h'.2.2.2.1.trans h.2.2.2.1,
    h'.2.2.2.2.1.trans h.2.2.2.2.1, h'.2.2.2.2.2.1.trans h.2.2.2.2.2.1, h'.2.2.2.2.2.2.1.trans h.2.2.2.2.2.2.1,
    h'.2.2.2.2.2.2.2.trans h.2.2.2.2.2.2.2⟩

set_option maxRecDepth 65536 in
set_option maxHeartbeats 4000000 in
/-- No operation of the first layer writes an argument buffer. -/
theorem keep1 (V : Valuation τ sig (Elt F)) : Keeps V (after seg0 V) := by
  unfold Keeps
  simp only [seg0, after_cons, after_nil]
  exact ⟨rfl, rfl, rfl, rfl, rfl, rfl, rfl, rfl⟩

set_option maxRecDepth 65536 in
set_option maxHeartbeats 4000000 in
/-- No operation of the second layer writes an argument buffer. -/
theorem keep2 (V : Valuation τ sig (Elt F)) : Keeps V (after seg2 (after seg1 V)) := by
  unfold Keeps
  simp only [seg1, seg2, after_cons, after_nil]
  exact ⟨rfl, rfl, rfl, rfl, rfl, rfl, rfl, rfl⟩

set_option maxRecDepth 65536 in
set_option maxHeartbeats 4000000 in
/-- No operation of the third layer writes an argument buffer. -/
theorem keep3 (V : Valuation τ sig (Elt F)) : Keeps V (after seg4 (after seg3 V)) := by
  unfold Keeps
  simp only [seg3, seg4, after_cons, after_nil]
  exact ⟨rfl, rfl, rfl, rfl, rfl, rfl, rfl, rfl⟩

set_option maxRecDepth 65536 in
set_option maxHeartbeats 4000000 in
/-- No operation of the fourth layer writes an argument buffer. -/
theorem keep4 (V : Valuation τ sig (Elt F)) : Keeps V (after seg6 (after seg5 V)) := by
  unfold Keeps
  simp only [seg5, seg6, after_cons, after_nil]
  exact ⟨rfl, rfl, rfl, rfl, rfl, rfl, rfl, rfl⟩

/-- The final concatenation writes no argument buffer. -/
theorem keep5 (V : Valuation τ sig (Elt F)) : Keeps V (after seg7 V) := by
  unfold Keeps
  simp only [seg7, after_cons, after_nil]
  exact ⟨rfl, rfl, rfl, rfl, rfl, rfl, rfl, rfl⟩

/-! ## The whole line -/

/-- The fold over the whole line is the eight segments' folds composed. -/
theorem after_ops (V : Valuation τ sig (Elt F)) :
    after ops V
      = after seg7 (after seg6 (after seg5 (after seg4 (after seg3 (after seg2 (after seg1 (after seg0 V))))))) := by
  show after (seg0 ++ (seg1 ++ (seg2 ++ (seg3 ++ (seg4 ++ (seg5 ++ (seg6 ++ seg7))))))) V = _
  rw [after_append, after_append, after_append, after_append, after_append, after_append, after_append]

/-- Five valuations — the launch contents `V` and the contents `V1 … V4` after each layer —, each layer's result
    buffer at layerR of the contents before it and each layer keeping the arguments: the fourth result beside the
    features is outR of the launch contents of the arguments. Substitute the fourth layer's equation, read its
    arguments one layer earlier, and so on back to the first; what is left is outR's definition. -/
theorem chain (V V1 V2 V3 V4 : Valuation τ sig (Elt F))
    (h1 : V1 (main_v43 : DevRef τ sig)
      = layerR (V (main_arg0 : DevRef τ sig)) (mat0 (V (main_arg2 : DevRef τ sig))) (mat0 (V (main_arg3 : DevRef τ sig)))
          (col0 (V (main_arg4 : DevRef τ sig))) (col0 (V (main_arg5 : DevRef τ sig)))
          (V (main_arg1 : DevRef τ sig)) (V (main_arg6 : DevRef τ sig)) (V (main_arg7 : DevRef τ sig)))
    (k1 : Keeps V V1)
    (h2 : V2 (main_v87 : DevRef τ sig)
      = layerR (V1 (main_v43 : DevRef τ sig)) (mat1 (V1 (main_arg2 : DevRef τ sig))) (mat1 (V1 (main_arg3 : DevRef τ sig)))
          (col1 (V1 (main_arg4 : DevRef τ sig))) (col1 (V1 (main_arg5 : DevRef τ sig)))
          (V1 (main_arg1 : DevRef τ sig)) (V1 (main_arg6 : DevRef τ sig)) (V1 (main_arg7 : DevRef τ sig)))
    (k2 : Keeps V1 V2)
    (h3 : V3 (main_v131 : DevRef τ sig)
      = layerR (V2 (main_v87 : DevRef τ sig)) (mat2 (V2 (main_arg2 : DevRef τ sig))) (mat2 (V2 (main_arg3 : DevRef τ sig)))
          (col2 (V2 (main_arg4 : DevRef τ sig))) (col2 (V2 (main_arg5 : DevRef τ sig)))
          (V2 (main_arg1 : DevRef τ sig)) (V2 (main_arg6 : DevRef τ sig)) (V2 (main_arg7 : DevRef τ sig)))
    (k3 : Keeps V2 V3)
    (h4 : V4 (main_v175 : DevRef τ sig)
      = layerR (V3 (main_v131 : DevRef τ sig)) (mat3 (V3 (main_arg2 : DevRef τ sig))) (mat3 (V3 (main_arg3 : DevRef τ sig)))
          (col3 (V3 (main_arg4 : DevRef τ sig))) (col3 (V3 (main_arg5 : DevRef τ sig)))
          (V3 (main_arg1 : DevRef τ sig)) (V3 (main_arg6 : DevRef τ sig)) (V3 (main_arg7 : DevRef τ sig)))
    (k4 : Keeps V3 V4) :
    concatenate S100000x512 1 [⟨S100000x256, V4 (main_v175 : DevRef τ sig)⟩, ⟨S100000x256, V4 (main_arg0 : DevRef τ sig)⟩]
        concatenates_S100000x256_S100000x256_S100000x512_d1
      = outR (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  obtain ⟨a0, a1, a2, a3, a4, a5, a6, a7⟩ := k1
  obtain ⟨b0, b1, b2, b3, b4, b5, b6, b7⟩ := k2
  obtain ⟨c0, c1, c2, c3, c4, c5, c6, c7⟩ := k3
  obtain ⟨d0, d1, d2, d3, d4, d5, d6, d7⟩ := k4
  rw [h4, d0, h3, c0, c1, c2, c3, c4, c5, c6, c7, h2, b0, b1, b2, b3, b4, b5, b6, b7, h1, a0, a1, a2, a3, a4, a5, a6, a7]
  first | rfl | skip

/-- The result buffer ends at the written-once computation of the argument contents, for any float structure. -/
theorem out_eq' (V : Valuation τ sig (Elt F)) :
    after ops V (main_v176 : DevRef τ sig)
      = outR (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  rw [after_ops, last_eq]
  exact chain V (after seg0 V) (after seg2 (after seg1 (after seg0 V)))
    (after seg4 (after seg3 (after seg2 (after seg1 (after seg0 V)))))
    (after seg6 (after seg5 (after seg4 (after seg3 (after seg2 (after seg1 (after seg0 V)))))))
    (layer1_eq V) (keep1 V)
    (layer2_eq (after seg0 V)) (keep2 (after seg0 V))
    (layer3_eq (after seg2 (after seg1 (after seg0 V)))) (keep3 (after seg2 (after seg1 (after seg0 V))))
    (layer4_eq (after seg4 (after seg3 (after seg2 (after seg1 (after seg0 V))))))
    (keep4 (after seg4 (after seg3 (after seg2 (after seg1 (after seg0 V))))))

/-- Every argument buffer ends as it started, for any float structure: keeping, composed along the five pieces. -/
theorem args_eq' (V : Valuation τ sig (Elt F)) : Keeps V (after ops V) := by
  rw [after_ops]
  exact ((((keep1 V).trans (keep2 (after seg0 V))).trans (keep3 (after seg2 (after seg1 (after seg0 V))))).trans
    (keep4 (after seg4 (after seg3 (after seg2 (after seg1 (after seg0 V))))))).trans
    (keep5 (after seg6 (after seg5 (after seg4 (after seg3 (after seg2 (after seg1 (after seg0 V))))))))

end AnyFloats

/-! ## At the extended reals -/

/-- The result buffer ends at outR of the argument contents. -/
theorem out_eq (V : Valuation τ sig (Elt Ideal)) :
    after ops V (main_v176 : DevRef τ sig)
      = Cert.Spec.outR (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) :=
  out_eq' V

theorem arg0_eq (V : Valuation τ sig (Elt Ideal)) :
    after ops V (main_arg0 : DevRef τ sig) = V (main_arg0 : DevRef τ sig) := (args_eq' V).1
theorem arg1_eq (V : Valuation τ sig (Elt Ideal)) :
    after ops V (main_arg1 : DevRef τ sig) = V (main_arg1 : DevRef τ sig) := (args_eq' V).2.1
theorem arg2_eq (V : Valuation τ sig (Elt Ideal)) :
    after ops V (main_arg2 : DevRef τ sig) = V (main_arg2 : DevRef τ sig) := (args_eq' V).2.2.1
theorem arg3_eq (V : Valuation τ sig (Elt Ideal)) :
    after ops V (main_arg3 : DevRef τ sig) = V (main_arg3 : DevRef τ sig) := (args_eq' V).2.2.2.1
theorem arg4_eq (V : Valuation τ sig (Elt Ideal)) :
    after ops V (main_arg4 : DevRef τ sig) = V (main_arg4 : DevRef τ sig) := (args_eq' V).2.2.2.2.1
theorem arg5_eq (V : Valuation τ sig (Elt Ideal)) :
    after ops V (main_arg5 : DevRef τ sig) = V (main_arg5 : DevRef τ sig) := (args_eq' V).2.2.2.2.2.1
theorem arg6_eq (V : Valuation τ sig (Elt Ideal)) :
    after ops V (main_arg6 : DevRef τ sig) = V (main_arg6 : DevRef τ sig) := (args_eq' V).2.2.2.2.2.2.1
theorem arg7_eq (V : Valuation τ sig (Elt Ideal)) :
    after ops V (main_arg7 : DevRef τ sig) = V (main_arg7 : DevRef τ sig) := (args_eq' V).2.2.2.2.2.2.2

/-- From any memory with zero counters: every weakly fair execution of the reference on the TensorCores terminates,
    and every final state has, on each device, the result buffer at outR of the launch contents of the eight
    arguments and each argument buffer at its launch contents. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v176)
          = Cert.Spec.outR (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono
    (fun _ h c => ⟨(h c main_v176).trans (out_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _), (h c main_arg6).trans (arg6_eq _), (h c main_arg7).trans (arg7_eq _)⟩)
    (run_main (F := Ideal) m ρ)

end Cert.ReferenceIdeal.RefValue

end
-- ==== Proof.lean ====
/-
  A four-layer graph convolution as a Pallas kernel program, against its plain reference, over the extended reals.

  Both programs compute, layer by layer,  h ↦ relu (γ · (p − mean p) · rsqrt (var p + ε) + β)  with
  p = segment_sum (vals · (h·W)[cols], rows) + h·SW, and return the last features beside the input features. The
  kernel program does the two dense products in a kernel over row blocks (operands rounded to bf16 first, which at the
  ideal values is the identity; a block of a product is the product of the block) and the normalisation in a second
  kernel over row blocks (the per-column quantities handed in as [1, 256] rows); the gather, the segment sum and the
  column statistics are the same host operations in both programs, the per-edge product written in the other order.

  The three programs' runs: the printed kernel program's and its idealization's are the generated frames over the
  eight kernel regions; the reference's is a straight line of host operations. The kernel program's idealization
  rewrote nothing. For the value claim both results are one function `Cert.Spec.outR` of the eight arguments: the
  kernel program's by reading each region's output arrays as whole-array functions and each host stretch as its
  operations' composition, the reference's by its operations' composition; commutativity of the product on the extended
  reals is the one law used, so the finiteness of the inputs is never needed.
-/
import proofs.«129831_j68247030334290_1_alg».proof.Defs
import proofs.«129831_j68247030334290_1_alg».proof.Proof.Gen.Kernel
import proofs.«129831_j68247030334290_1_alg».proof.Proof.Gen.Kernel.Frame
import proofs.«129831_j68247030334290_1_alg».proof.Proof.Gen.KernelIdeal
import proofs.«129831_j68247030334290_1_alg».proof.Proof.Gen.KernelIdeal.Frame
import proofs.«129831_j68247030334290_1_alg».proof.Proof.Gen.ReferenceIdeal
import proofs.«129831_j68247030334290_1_alg».proof.Proof.Gen.Pre_finite_inputs
import proofs.«129831_j68247030334290_1_alg».proof.Proof.KRun
import proofs.«129831_j68247030334290_1_alg».proof.Proof.KValue
import proofs.«129831_j68247030334290_1_alg».proof.Proof.RefValue

noncomputable section

namespace Cert.Proof

open Idealize.ShloMosaic Idealize.SL.Sem

/-- The printed kernel program runs and leaves its arguments: the generated frame over its eight regions. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments: its straight-line run with the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories agreeing on the arguments both idealized programs end with the same result: the reference's result
    function of the arguments. -/
theorem algebraic : Cert.algebraic_KernelIdeal_ReferenceIdeal := by
  intro m ρ m' ρ' _ hagree
  refine ⟨fun c => Cert.Spec.outR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Whole.result_eq m ρ c), (h c).2⟩)
      (Cert.KernelIdeal.NamedRun.run (F := Ideal) m ρ)
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
